-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19_1)) (v1 : (c : Dev Cert.KernelIdeal.nD) → Buf (Elt Ideal) ((c.tc : Thread Cert.KernelIdeal.nD Cert.KernelIdeal.τ).loc Cert.KernelIdeal.main_v19_0)) (v2 : (c : Dev Cert.KernelIdeal.nD) → Buf (Elt Ideal) ((c.tc : Thread Cert.KernelIdeal.nD Cert.KernelIdeal.τ).loc Cert.KernelIdeal.main_v18_1)) (v3 : (c : Dev Cert.KernelIdeal.nD) → Buf (Elt Ideal) ((c.tc : Thread Cert.KernelIdeal.nD Cert.KernelIdeal.τ).loc Cert.KernelIdeal.main_v18_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_1) = v0 c
          ∧ r.2.mem ((c.tc : Thread Cert.KernelIdeal.nD Cert.KernelIdeal.τ).loc Cert.KernelIdeal.main_v19_0) = v1 c
          ∧ r.2.mem ((c.tc : Thread Cert.KernelIdeal.nD Cert.KernelIdeal.τ).loc Cert.KernelIdeal.main_v18_1) = v2 c
          ∧ r.2.mem ((c.tc : Thread Cert.KernelIdeal.nD Cert.KernelIdeal.τ).loc Cert.KernelIdeal.main_v18_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x1024 .f32) (main_arg1 : FVec F S8192x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S8192x8192 : Shape := ⟨2, ![8192, 8192]⟩

abbrev nBuf : Space → Nat
  | .hbm => 36
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S8192x1024, .bf16⟩
  | .hbm, ⟨15, _⟩ => ⟨S8192x1024, .bf16⟩
  | .hbm, ⟨16, _⟩ => ⟨S1024x3072, .f32⟩
  | .hbm, ⟨17, _⟩ => ⟨S1024x3072, .bf16⟩
  | .hbm, ⟨18, _⟩ => ⟨S3072, .f32⟩
  | .hbm, ⟨19, _⟩ => ⟨S1x3072, .f32⟩
  | .hbm, ⟨20, _⟩ => ⟨S1024x3072, .f32⟩
  | .hbm, ⟨21, _⟩ => ⟨S1024x3072, .bf16⟩
  | .hbm, ⟨22, _⟩ => ⟨S3072, .f32⟩
  | .hbm, ⟨23, _⟩ => ⟨S1x3072, .f32⟩
  | .hbm, ⟨24, _⟩ => ⟨S8192x3072, .bf16⟩
  | .hbm, ⟨25, _⟩ => ⟨S8192x3072, .bf16⟩
  | .hbm, ⟨26, _⟩ => ⟨S8192x1024, .bf16⟩
  | .hbm, ⟨27, _⟩ => ⟨S8192x1024, .bf16⟩
  | .hbm, ⟨28, _⟩ => ⟨S8192x1024, .bf16⟩
  | .hbm, ⟨29, _⟩ => ⟨S8192x1024, .bf16⟩
  | .hbm, ⟨30, _⟩ => ⟨S8192x1024, .bf16⟩
  | .hbm, ⟨31, _⟩ => ⟨S8192x1024, .bf16⟩
  | .hbm, ⟨32, _⟩ => ⟨S8192x8192, .f32⟩
  | .hbm, ⟨33, _⟩ => ⟨S8192x1024, .f32⟩
  | .hbm, ⟨34, _⟩ => ⟨S8192x8192, .f32⟩
  | .hbm, ⟨35, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1x3072, .f32⟩
  | .local _ .vmem, ⟨4, _⟩ => ⟨S1024x3072, .bf16⟩
  | .local _ .vmem, ⟨5, _⟩ => ⟨S1024x3072, .bf16⟩
  | .local _ .vmem, ⟨6, _⟩ => ⟨S1024x1024, .bf16⟩
  | .local _ .vmem, ⟨7, _⟩ => ⟨S1024x1024, .bf16⟩
  | .local _ .vmem, ⟨8, _⟩ => ⟨S1024x3072, .bf16⟩
  | .local _ .vmem, ⟨9, _⟩ => ⟨S1x3072, .f32⟩
  | .local _ .vmem, ⟨10, _⟩ => ⟨S1024x3072, .bf16⟩
  | .local _ .vmem, ⟨11, _⟩ => ⟨S1024x3072, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v19_0 : Ref sig .tc := ⟨.hbm, 34, rfl⟩
abbrev main_v19_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x3072 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x3072 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  bitsLt_bf16_f32 : FTy.bits .bf16 < FTy.bits .f32
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  packedbf16_S1024x3072_S1024x3072_0_0 : (Rect.unit (s := S1024x3072) ![0, 0] S1024x3072.size inb_S1024x3072_S1024x3072_0_0).PackedRows (EltTy.packing .bf16)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  dot_S1024x1024_S1024x3072_S1024x3072_1_0_0_1_n_n_wf : DotDims.WF S1024x1024 S1024x3072 S1024x3072 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S8192x3072.size a
  hwx0_3 : ∀ i : grid0.Coords, EltTy.bits .bf16 = 32 ∨ (Rect.block (s := S8192x3072) S1024x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x3072.size a ≤ S1024x3072.size a
  hwx1_1 : ∀ i : grid1.Coords, EltTy.bits .bf16 = 32 ∨ (Rect.block (s := S1024x3072) S1024x3072.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x3072.size a ≤ S1x3072.size a
  hwx1_2 : ∀ i : grid1.Coords, EltTy.bits .f32 = 32 ∨ (Rect.block (s := S1x3072) S1x3072.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x3072.size a ≤ S8192x3072.size a
  hwx1_3 : ∀ i : grid1.Coords, EltTy.bits .bf16 = 32 ∨ (Rect.block (s := S8192x3072) S1024x3072.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x1024.size a
  hwx2_1 : ∀ i : grid2.Coords, EltTy.bits .bf16 = 32 ∨ (Rect.block (s := S8192x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .bf16 = 32 ∨ (Rect.block (s := S8192x1024) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x8192.size a
  hwx2_3 : ∀ i : grid2.Coords, EltTy.bits .f32 = 32 ∨ (Rect.block (s := S8192x8192) S1024x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x1024.size a
  hwx2_4 : ∀ i : grid2.Coords, EltTy.bits .f32 = 32 ∨ (Rect.block (s := S8192x1024) S1024x1024.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x1024.size a
  hwx3_0 : ∀ i : grid3.Coords, EltTy.bits .bf16 = 32 ∨ (Rect.block (s := S8192x1024) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S8192x1024.size a
  hwx3_1 : ∀ i : grid3.Coords, EltTy.bits .bf16 = 32 ∨ (Rect.block (s := S8192x1024) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S8192x1024.size a
  hwx3_2 : ∀ i : grid3.Coords, EltTy.bits .bf16 = 32 ∨ (Rect.block (s := S8192x1024) S1024x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S8192x8192.size a
  hwx3_3 : ∀ i : grid3.Coords, EltTy.bits .f32 = 32 ∨ (Rect.block (s := S8192x8192) S1024x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S8192x1024.size a
  hwx3_4 : ∀ i : grid3.Coords, EltTy.bits .f32 = 32 ∨ (Rect.block (s := S8192x1024) S1024x1024.size (cc3_transform_4 i) (hinb3_4 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x3072.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x3072.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1024x3072.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18_0) S1024x1024.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18_1) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v12) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1024x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v19_0) S1024x1024.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v19_1) S1024x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x8192 : Shape := ⟨2, ![1024, 8192]⟩
abbrev S8192x8192 : Shape := ⟨2, ![8192, 8192]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1024x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x1024, .f32⟩
  | .hbm, ⟨52, _⟩ => ⟨S1024x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_0 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KFrProj0.lean ====
/-
  The linear-layer launch number 0: a row block of 1024 input rows times the whole 1024×3072 weight matrix plus the
  bias row, one grid point per row block (8 points).  At ANY contents `V` of the buffers when the launch is entered:
  each window's block at a point, what the body leaves in the output window's buffer (its one store over the three
  loaded blocks), the body's triple, and the pipeline's proof data with the body obligation.  The weight matrix and the
  bias row are fetched once and stay in place; the input block is fetched at every point; the output block is written
  back at every point.
-/
import proofs.«123356_j644245095138_2_alg».proof.Proof.Gen.Kernel.Launch
import proofs.«123356_j644245095138_2_alg».proof.Proof.Gen.Kernel.Skeleton
import proofs.«123356_j644245095138_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched there or kept from before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether fetched there or kept from before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether fetched there or kept from before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 1024×3072 output block: the one rectangle the body stores through. -/
abbrev r0_out : Rect S1024x3072 := Rect.unit (s := S1024x3072) ![0, 0] S1024x3072.size inb_S1024x3072_S1024x3072_0_0
abbrev r0_x : Rect S1024x1024 := Rect.unit (s := S1024x1024) ![0, 0] S1024x1024.size inb_S1024x1024_S1024x1024_0_0
abbrev r0_b : Rect S1x3072 := Rect.unit (s := S1x3072) ![0, 0] S1x3072.size inb_S1x3072_S1x3072_0_0

/-- The output window's buffer after the body: its one store, of the layer's value on the three loaded blocks. -/
def out0_3 (x0 : Vec F S1024x1024 .bf16) (x1 : Vec F S1024x3072 .bf16) (x2 : Vec F S1x3072 .f32) : Vec F S1024x3072 .bf16 :=
  View.canon [⟨r0_out, k0_pay1 (View.ld x0 r0_x) (View.ld x1 r0_out) (View.ld x2 r0_b)⟩]

/-- The store covers the buffer. -/
theorem cover0_3 (p0 : Vec F S1024x3072 .bf16) (y : S1024x3072.Idx) :
    ∃ pc ∈ ([⟨r0_out, p0⟩] : List (View.Piece (Elt F) S1024x3072 .bf16)), y ∈ pc.1.set :=
  View.cover_of_tiled [⟨r0_out, p0⟩] S1024x3072.size (by rfl) y

set_option maxHeartbeats 1000000 in
/-- The body on whole staging buffers, the inputs' at contents `xW` and the output's at anything, runs to the
    continuation with the inputs' as they were and the output's at `out0_3` of them. -/
theorem sound_kernel0 (c : Dev nD) (E : Set ℕ) (i : grid0.Coords)
    (arg1 : Memref sig .tc .vmem S1024x1024 .bf16) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x3072 .bf16) (harg4 : arg4.IsWhole)
    (x0 : Vec F S1024x1024 .bf16) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the launch finds them; after the body at point `t` each input's
    buffer at its block and the output's at `out0_3` of the three input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrProj1.lean ====
/-
  The linear-layer launch number 1: a row block of 1024 input rows times the whole 1024×3072 weight matrix plus the
  bias row, one grid point per row block (8 points).  At ANY contents `V` of the buffers when the launch is entered:
  each window's block at a point, what the body leaves in the output window's buffer (its one store over the three
  loaded blocks), the body's triple, and the pipeline's proof data with the body obligation.  The weight matrix and the
  bias row are fetched once and stay in place; the input block is fetched at every point; the output block is written
  back at every point.
-/
import proofs.«123356_j644245095138_2_alg».proof.Proof.Gen.Kernel.Launch
import proofs.«123356_j644245095138_2_alg».proof.Proof.Gen.Kernel.Skeleton
import proofs.«123356_j644245095138_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched there or kept from before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether fetched there or kept from before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether fetched there or kept from before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 1024×3072 output block: the one rectangle the body stores through. -/
abbrev r1_out : Rect S1024x3072 := Rect.unit (s := S1024x3072) ![0, 0] S1024x3072.size inb_S1024x3072_S1024x3072_0_0
abbrev r1_x : Rect S1024x1024 := Rect.unit (s := S1024x1024) ![0, 0] S1024x1024.size inb_S1024x1024_S1024x1024_0_0
abbrev r1_b : Rect S1x3072 := Rect.unit (s := S1x3072) ![0, 0] S1x3072.size inb_S1x3072_S1x3072_0_0

/-- The output window's buffer after the body: its one store, of the layer's value on the three loaded blocks. -/
def out1_3 (x0 : Vec F S1024x1024 .bf16) (x1 : Vec F S1024x3072 .bf16) (x2 : Vec F S1x3072 .f32) : Vec F S1024x3072 .bf16 :=
  View.canon [⟨r1_out, k1_pay1 (View.ld x0 r1_x) (View.ld x1 r1_out) (View.ld x2 r1_b)⟩]

/-- The store covers the buffer. -/
theorem cover1_3 (p0 : Vec F S1024x3072 .bf16) (y : S1024x3072.Idx) :
    ∃ pc ∈ ([⟨r1_out, p0⟩] : List (View.Piece (Elt F) S1024x3072 .bf16)), y ∈ pc.1.set :=
  View.cover_of_tiled [⟨r1_out, p0⟩] S1024x3072.size (by rfl) y

set_option maxHeartbeats 1000000 in
/-- The body on whole staging buffers, the inputs' at contents `xW` and the output's at anything, runs to the
    continuation with the inputs' as they were and the output's at `out1_3` of them. -/
theorem sound_kernel1 (c : Dev nD) (E : Set ℕ) (i : grid1.Coords)
    (arg1 : Memref sig .tc .vmem S1024x1024 .bf16) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x3072 .bf16) (harg4 : arg4.IsWhole)
    (x0 : Vec F S1024x1024 .bf16) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__qkv_proj_kernel i arg1 harg1 arg2 harg2 arg3 harg3 arg4 harg4) K := by
  simp only [cc1__qkv_proj_kernel_eq_skeleton]; unfold cc1__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the launch finds them; after the body at point `t` each input's
    buffer at its block and the output's at `out1_3` of the three input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KFrAttn2.lean ====
/-
  The gated-attention launch number 2: a grid of 8 query blocks by 8 key blocks (the key-block index moves fastest),
  each point holding 1024 query rows, 1024 key rows and the same 1024 value rows.  The body writes the point's
  1024×1024 block of gates whole, and keeps the query block's 1024×1024 context in its output buffer ACROSS the eight
  key blocks: at the first key block it first stores zeros, and at every key block it adds that block's gate-weighted
  value rows to what the buffer holds.  At ANY contents `V` of the buffers when the launch is entered: each window's
  block at a point, the body's run in its two cases (first key block or not) with the pieces it leaves in the two output
  buffers, what those buffers hold after each point (by recursion on the point: a later key block reads what the point
  before left, the buffer not being written back between), the pipeline's proof data and the body obligation.
-/
import proofs.«123356_j644245095138_2_alg».proof.Proof.Gen.Kernel.Launch
import proofs.«123356_j644245095138_2_alg».proof.Proof.Gen.Kernel.Skeleton
import proofs.«123356_j644245095138_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or kept from before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether fetched there or kept from before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether fetched there or kept from before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- "This is the first key block": the body's branch condition, from the grid coordinates. -/
abbrev cond2_0 (i : grid2.Coords) : Prop := (Scalar.cmpi .ne (Scalar.extui (Scalar.cmpi .eq (BitVec.ofNat 32 (i 1).val) 0#32)) 0#32) = 1#1
/-- It holds exactly at the points whose number is a multiple of 8 — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- One staging buffer of each output window, through which its contents are stated (the choice does not matter). -/
abbrev VO2_3 : View sig .tc .vmem S1024x1024 .f32 := (Memref.whole cc2_stg3_0 : Memref sig .tc .vmem S1024x1024 .f32).view
abbrev VO2_4 : View sig .tc .vmem S1024x1024 .f32 := (Memref.whole cc2_stg4_0 : Memref sig .tc .vmem S1024x1024 .f32).view
/-- Each window's current staging buffer at point `t`, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)

set_option maxHeartbeats 1000000 in
/-- AT THE FIRST KEY BLOCK: the pieces the body's stores leave in the gates' buffer and in the context's buffer (last
    first), with the proof that on whole staging buffers — the inputs' at their contents, the outputs' at anything —
    the body runs to the continuation holding the inputs' as they were and each output's with its pieces written. -/
noncomputable def kernelRun2_A (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i)
    (x0 x1 x2 : Vec F S1024x1024 .bf16) :
    (L3 : List (View.Piece (Elt F) S1024x1024 .f32)) ×' (L4 : List (View.Piece (Elt F) S1024x1024 .f32)) ×'
      (∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc2__cross_attn_kernel i arg2 harg2 arg3 harg3 arg4 harg4 arg5 harg5 arg6 harg6) K) := by
  refine ⟨?_, ?_, fun E K => ?run⟩
  case run =>
    simp only [cc2__cross_attn_kernel_eq_skeleton]; unfold cc2__cross_attn_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 1000000 in
/-- AT A LATER KEY BLOCK: the same, the context's buffer now going in at its running contents `xo4` (the body adds to it). -/
noncomputable def kernelRun2_B (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i)
    (x0 x1 x2 : Vec F S1024x1024 .bf16) (xo4 : Vec F S1024x1024 .f32) :
    (L3 : List (View.Piece (Elt F) S1024x1024 .f32)) ×' (L4 : List (View.Piece (Elt F) S1024x1024 .f32)) ×'
      (∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc2__cross_attn_kernel i arg2 harg2 arg3 harg3 arg4 harg4 arg5 harg5 arg6 harg6) K) := by
  refine ⟨?_, ?_, fun E K => ?run⟩
  case run =>
    simp only [cc2__cross_attn_kernel_eq_skeleton]; unfold cc2__cross_attn_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- The first-key-block pieces cover each output buffer. -/
theorem cover2_A_3 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (x0 x1 x2 : Vec F S1024x1024 .bf16) (y : S1024x1024.Idx) :
    ∃ pc ∈ (kernelRun2_A c i arg2 harg2 arg3 harg3 arg4 harg4 arg5 harg5 arg6 harg6 hc0 x0 x1 x2).1, y ∈ pc.1.set :=
  View.cover_of_tiledL (kernelRun2_A c i arg2 harg2 arg3 harg3 arg4 harg4 arg5 harg5 arg6 harg6 hc0 x0 x1 x2).1 S1024x1024.size (by sl_kernel_rfl) y
theorem cover2_A_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (x0 x1 x2 : Vec F S1024x1024 .bf16) (y : S1024x1024.Idx) :
    ∃ pc ∈ (kernelRun2_A c i arg2 harg2 arg3 harg3 arg4 harg4 arg5 harg5 arg6 harg6 hc0 x0 x1 x2).2.1, y ∈ pc.1.set :=
  View.cover_of_tiledL (kernelRun2_A c i arg2 harg2 arg3 harg3 arg4 harg4 arg5 harg5 arg6 harg6 hc0 x0 x1 x2).2.1 S1024x1024.size (by sl_kernel_rfl) y
/-- The later-key-block pieces cover each output buffer. -/
theorem cover2_B_3 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (x0 x1 x2 : Vec F S1024x1024 .bf16) (xo4 : Vec F S1024x1024 .f32) (y : S1024x1024.Idx) :
    ∃ pc ∈ (kernelRun2_B c i arg2 harg2 arg3 harg3 arg4 harg4 arg5 harg5 arg6 harg6 hc0 x0 x1 x2 xo4).1, y ∈ pc.1.set :=
  View.cover_of_tiledL (kernelRun2_B c i arg2 harg2 arg3 harg3 arg4 harg4 arg5 harg5 arg6 harg6 hc0 x0 x1 x2 xo4).1 S1024x1024.size (by sl_kernel_rfl) y
theorem cover2_B_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (x0 x1 x2 : Vec F S1024x1024 .bf16) (xo4 : Vec F S1024x1024 .f32) (y : S1024x1024.Idx) :
    ∃ pc ∈ (kernelRun2_B c i arg2 harg2 arg3 harg3 arg4 harg4 arg5 harg5 arg6 harg6 hc0 x0 x1 x2 xo4).2.1, y ∈ pc.1.set :=
  View.cover_of_tiledL (kernelRun2_B c i arg2 harg2 arg3 harg3 arg4 harg4 arg5 harg5 arg6 harg6 hc0 x0 x1 x2 xo4).2.1 S1024x1024.size (by sl_kernel_rfl) y

/-- What each case leaves in each output's buffer: its pieces read back. -/
def out2_A_3 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (x0 x1 x2 : Vec F S1024x1024 .bf16) : Vec F S1024x1024 .f32 :=
  VO2_3.read (Elt F) (VO2_3.writes (Elt F) VO2_3.junk (kernelRun2_A c i arg2 harg2 arg3 harg3 arg4 harg4 arg5 harg5 arg6 harg6 hc0 x0 x1 x2).1)
def out2_A_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (x0 x1 x2 : Vec F S1024x1024 .bf16) : Vec F S1024x1024 .f32 :=
  VO2_4.read (Elt F) (VO2_4.writes (Elt F) VO2_4.junk (kernelRun2_A c i arg2 harg2 arg3 harg3 arg4 harg4 arg5 harg5 arg6 harg6 hc0 x0 x1 x2).2.1)
def out2_B_3 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (x0 x1 x2 : Vec F S1024x1024 .bf16) (xo4 : Vec F S1024x1024 .f32) : Vec F S1024x1024 .f32 :=
  VO2_3.read (Elt F) (VO2_3.writes (Elt F) VO2_3.junk (kernelRun2_B c i arg2 harg2 arg3 harg3 arg4 harg4 arg5 harg5 arg6 harg6 hc0 x0 x1 x2 xo4).1)
def out2_B_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (x0 x1 x2 : Vec F S1024x1024 .bf16) (xo4 : Vec F S1024x1024 .f32) : Vec F S1024x1024 .f32 :=
  VO2_4.read (Elt F) (VO2_4.writes (Elt F) VO2_4.junk (kernelRun2_B c i arg2 harg2 arg3 harg3 arg4 harg4 arg5 harg5 arg6 harg6 hc0 x0 x1 x2 xo4).2.1)

/-- THE ACCUMULATION. What the two output buffers hold after the body at point number `n` (gates, context): the case
    the point is in, run at the point's buffers and input blocks, the context at a later key block over what the point
    before left. -/
def outsAt2 (c : Dev nD) : (n : ℕ) → n < cfg2.N → Vec F S1024x1024 .f32 × Vec F S1024x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk2 V c 0 ⟨0, hn⟩) (iblk2 V c 1 ⟨0, hn⟩) (iblk2 V c 2 ⟨0, hn⟩),
              out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk2 V c 0 ⟨0, hn⟩) (iblk2 V c 1 ⟨0, hn⟩) (iblk2 V c 2 ⟨0, hn⟩))
  | n + 1, hn =>
    if h0 : (n + 1) % 8 = 0 then
      (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk2 V c 0 ⟨n + 1, hn⟩) (iblk2 V c 1 ⟨n + 1, hn⟩) (iblk2 V c 2 ⟨n + 1, hn⟩),
       out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk2 V c 0 ⟨n + 1, hn⟩) (iblk2 V c 1 ⟨n + 1, hn⟩) (iblk2 V c 2 ⟨n + 1, hn⟩))
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2,
       out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a first key block. -/
theorem outsAt2_A (c : Dev nD) (t : Fin cfg2.N) (h0 : t.val % 8 = 0) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t),
      out2_A_4 c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t)) := by
  obtain ⟨n, hn⟩ := t
  cases n with
  | zero => exact rfl
  | succ n => exact (dif_pos h0).trans rfl

/-- `outsAt2` at a later key block: over what the point before left. -/
theorem outsAt2_B (c : Dev nD) (t : Fin cfg2.N) (h0 : ¬t.val % 8 = 0) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t) (outsAt2 V c (t.val - 1) (Nat.lt_of_le_of_lt (Nat.sub_le _ _) t.isLt)).2,
      out2_B_4 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The pipeline's proof data on core `c`: the arrays as the launch finds them; after the body at point `t` each input's
    buffer at its block and the two outputs' at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
/-- At a later key block the context's buffer holds what the body left at the point before: the point is not the first,
    and the buffer is written back only after the last key block. -/
theorem before2_4_B (c : Dev nD) (t : Fin cfg2.N) (h0 : ¬t.val % 8 = 0) (d) :
    (dat2 V c).before 4 t d = (outsAt2 V c (t.val - 1) (Nat.lt_of_le_of_lt (Nat.sub_le _ _) t.isLt)).2 := by
  have hN : t.val < 64 := lt_of_lt_of_eq t.isLt (show cfg2.N = 64 from N_2)
  rw [Dat.before_out_kept _ 4 rfl t (by omega) (Bool.eq_false_iff.mpr fun h => by have := (flush2_4 _).mp h; dsimp only at this; omega)
    (fun _ => rfl) (fun _ _ => rfl)]
  dsimp only [dat2]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1600000 in
/-- The body at any point: the inputs' buffers hold their blocks; the point's number mod 8 says which case it is in; at a
    later key block the context's buffer holds what the point before left; so that case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 64 := lt_of_lt_of_eq t.isLt (show cfg2.N = 64 from N_2)
  by_cases h0 : t.val % 8 = 0
  · rw [outsAt2_A V c t h0]
    dsimp only
    unfold out2_A_3 out2_A_4
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2_0 t).mpr h0) (iblk2 V c 0 t) (iblk2 V c 1 t) (iblk2 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_A_3 c _ _ _ _ _ _ _ _ _ _ _ _ _ _ _)
    unfold owns; iexists _; isplitr
    swap; · iexact H4
    ipureintro; exact View.read_writes_of_cover _ _ _ _ _ (cover2_A_4 c _ _ _ _ _ _ _ _ _ _ _ _ _ _ _)
  · rw [outsAt2_B V c t h0]
    dsimp only
    simp only [before2_4_B V c t h0]
    unfold out2_B_3 out2_B_4
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2_0 t).mp h)) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_B_3 c _ _ _ _ _ _ _ _ _ _ _ _ _ _ _ _)
    unfold owns; iexists _; isplitr
    swap; · iexact H4
    ipureintro; exact View.read_writes_of_cover _ _ _ _ _ (cover2_B_4 c _ _ _ _ _ _ _ _ _ _ _ _ _ _ _ _)

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KFrAttn3.lean ====
/-
  The gated-attention launch number 3: a grid of 8 query blocks by 8 key blocks (the key-block index moves fastest),
  each point holding 1024 query rows, 1024 key rows and the same 1024 value rows.  The body writes the point's
  1024×1024 block of gates whole, and keeps the query block's 1024×1024 context in its output buffer ACROSS the eight
  key blocks: at the first key block it first stores zeros, and at every key block it adds that block's gate-weighted
  value rows to what the buffer holds.  At ANY contents `V` of the buffers when the launch is entered: each window's
  block at a point, the body's run in its two cases (first key block or not) with the pieces it leaves in the two output
  buffers, what those buffers hold after each point (by recursion on the point: a later key block reads what the point
  before left, the buffer not being written back between), the pipeline's proof data and the body obligation.
-/
import proofs.«123356_j644245095138_2_alg».proof.Proof.Gen.Kernel.Launch
import proofs.«123356_j644245095138_2_alg».proof.Proof.Gen.Kernel.Skeleton
import proofs.«123356_j644245095138_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether fetched there or kept from before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether fetched there or kept from before. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether fetched there or kept from before. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- "This is the first key block": the body's branch condition, from the grid coordinates. -/
abbrev cond3_0 (i : grid3.Coords) : Prop := (Scalar.cmpi .ne (Scalar.extui (Scalar.cmpi .eq (BitVec.ofNat 32 (i 1).val) 0#32)) 0#32) = 1#1
/-- It holds exactly at the points whose number is a multiple of 8 — decided over the grid. -/
theorem hcond3_0 : ∀ t : Fin cfg3.N, cond3_0 (grid3.coords t) ↔ t.val % 8 = 0 :=
  (by decide +kernel : ∀ t : Fin grid3.N, cond3_0 (grid3.coords t) ↔ t.val % 8 = 0)

/-- One staging buffer of each output window, through which its contents are stated (the choice does not matter). -/
abbrev VO3_3 : View sig .tc .vmem S1024x1024 .f32 := (Memref.whole cc3_stg3_0 : Memref sig .tc .vmem S1024x1024 .f32).view
abbrev VO3_4 : View sig .tc .vmem S1024x1024 .f32 := (Memref.whole cc3_stg4_0 : Memref sig .tc .vmem S1024x1024 .f32).view
/-- Each window's current staging buffer at point `t`, and its wholeness. -/
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x1024 .f32 := win3_4.stage (cfg3.slots t 4)
abbrev hs3_4 (t : Fin cfg3.N) : (ms3_4 t).IsWhole := hstage3_4 ((cfg3.slots t 4).cast nbuf3_4)

set_option maxHeartbeats 1000000 in
/-- AT THE FIRST KEY BLOCK: the pieces the body's stores leave in the gates' buffer and in the context's buffer (last
    first), with the proof that on whole staging buffers — the inputs' at their contents, the outputs' at anything —
    the body runs to the continuation holding the inputs' as they were and each output's with its pieces written. -/
noncomputable def kernelRun3_A (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i)
    (x0 x1 x2 : Vec F S1024x1024 .bf16) :
    (L3 : List (View.Piece (Elt F) S1024x1024 .f32)) ×' (L4 : List (View.Piece (Elt F) S1024x1024 .f32)) ×'
      (∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc3__cross_attn_kernel i arg2 harg2 arg3 harg3 arg4 harg4 arg5 harg5 arg6 harg6) K) := by
  refine ⟨?_, ?_, fun E K => ?run⟩
  case run =>
    simp only [cc3__cross_attn_kernel_eq_skeleton]; unfold cc3__cross_attn_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 1000000 in
/-- AT A LATER KEY BLOCK: the same, the context's buffer now going in at its running contents `xo4` (the body adds to it). -/
noncomputable def kernelRun3_B (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i)
    (x0 x1 x2 : Vec F S1024x1024 .bf16) (xo4 : Vec F S1024x1024 .f32) :
    (L3 : List (View.Piece (Elt F) S1024x1024 .f32)) ×' (L4 : List (View.Piece (Elt F) S1024x1024 .f32)) ×'
      (∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc3__cross_attn_kernel i arg2 harg2 arg3 harg3 arg4 harg4 arg5 harg5 arg6 harg6) K) := by
  refine ⟨?_, ?_, fun E K => ?run⟩
  case run =>
    simp only [cc3__cross_attn_kernel_eq_skeleton]; unfold cc3__cross_attn_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- The first-key-block pieces cover each output buffer. -/
theorem cover3_A_3 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (x0 x1 x2 : Vec F S1024x1024 .bf16) (y : S1024x1024.Idx) :
    ∃ pc ∈ (kernelRun3_A c i arg2 harg2 arg3 harg3 arg4 harg4 arg5 harg5 arg6 harg6 hc0 x0 x1 x2).1, y ∈ pc.1.set :=
  View.cover_of_tiledL (kernelRun3_A c i arg2 harg2 arg3 harg3 arg4 harg4 arg5 harg5 arg6 harg6 hc0 x0 x1 x2).1 S1024x1024.size (by sl_kernel_rfl) y
theorem cover3_A_4 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (x0 x1 x2 : Vec F S1024x1024 .bf16) (y : S1024x1024.Idx) :
    ∃ pc ∈ (kernelRun3_A c i arg2 harg2 arg3 harg3 arg4 harg4 arg5 harg5 arg6 harg6 hc0 x0 x1 x2).2.1, y ∈ pc.1.set :=
  View.cover_of_tiledL (kernelRun3_A c i arg2 harg2 arg3 harg3 arg4 harg4 arg5 harg5 arg6 harg6 hc0 x0 x1 x2).2.1 S1024x1024.size (by sl_kernel_rfl) y
/-- The later-key-block pieces cover each output buffer. -/
theorem cover3_B_3 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (x0 x1 x2 : Vec F S1024x1024 .bf16) (xo4 : Vec F S1024x1024 .f32) (y : S1024x1024.Idx) :
    ∃ pc ∈ (kernelRun3_B c i arg2 harg2 arg3 harg3 arg4 harg4 arg5 harg5 arg6 harg6 hc0 x0 x1 x2 xo4).1, y ∈ pc.1.set :=
  View.cover_of_tiledL (kernelRun3_B c i arg2 harg2 arg3 harg3 arg4 harg4 arg5 harg5 arg6 harg6 hc0 x0 x1 x2 xo4).1 S1024x1024.size (by sl_kernel_rfl) y
theorem cover3_B_4 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (x0 x1 x2 : Vec F S1024x1024 .bf16) (xo4 : Vec F S1024x1024 .f32) (y : S1024x1024.Idx) :
    ∃ pc ∈ (kernelRun3_B c i arg2 harg2 arg3 harg3 arg4 harg4 arg5 harg5 arg6 harg6 hc0 x0 x1 x2 xo4).2.1, y ∈ pc.1.set :=
  View.cover_of_tiledL (kernelRun3_B c i arg2 harg2 arg3 harg3 arg4 harg4 arg5 harg5 arg6 harg6 hc0 x0 x1 x2 xo4).2.1 S1024x1024.size (by sl_kernel_rfl) y

/-- What each case leaves in each output's buffer: its pieces read back. -/
def out3_A_3 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (x0 x1 x2 : Vec F S1024x1024 .bf16) : Vec F S1024x1024 .f32 :=
  VO3_3.read (Elt F) (VO3_3.writes (Elt F) VO3_3.junk (kernelRun3_A c i arg2 harg2 arg3 harg3 arg4 harg4 arg5 harg5 arg6 harg6 hc0 x0 x1 x2).1)
def out3_A_4 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (x0 x1 x2 : Vec F S1024x1024 .bf16) : Vec F S1024x1024 .f32 :=
  VO3_4.read (Elt F) (VO3_4.writes (Elt F) VO3_4.junk (kernelRun3_A c i arg2 harg2 arg3 harg3 arg4 harg4 arg5 harg5 arg6 harg6 hc0 x0 x1 x2).2.1)
def out3_B_3 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (x0 x1 x2 : Vec F S1024x1024 .bf16) (xo4 : Vec F S1024x1024 .f32) : Vec F S1024x1024 .f32 :=
  VO3_3.read (Elt F) (VO3_3.writes (Elt F) VO3_3.junk (kernelRun3_B c i arg2 harg2 arg3 harg3 arg4 harg4 arg5 harg5 arg6 harg6 hc0 x0 x1 x2 xo4).1)
def out3_B_4 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (x0 x1 x2 : Vec F S1024x1024 .bf16) (xo4 : Vec F S1024x1024 .f32) : Vec F S1024x1024 .f32 :=
  VO3_4.read (Elt F) (VO3_4.writes (Elt F) VO3_4.junk (kernelRun3_B c i arg2 harg2 arg3 harg3 arg4 harg4 arg5 harg5 arg6 harg6 hc0 x0 x1 x2 xo4).2.1)

/-- THE ACCUMULATION. What the two output buffers hold after the body at point number `n` (gates, context): the case
    the point is in, run at the point's buffers and input blocks, the context at a later key block over what the point
    before left. -/
def outsAt3 (c : Dev nD) : (n : ℕ) → n < cfg3.N → Vec F S1024x1024 .f32 × Vec F S1024x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) ((hcond3_0 ⟨0, hn⟩).mpr (Nat.zero_mod _)) (iblk3 V c 0 ⟨0, hn⟩) (iblk3 V c 1 ⟨0, hn⟩) (iblk3 V c 2 ⟨0, hn⟩),
              out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) ((hcond3_0 ⟨0, hn⟩).mpr (Nat.zero_mod _)) (iblk3 V c 0 ⟨0, hn⟩) (iblk3 V c 1 ⟨0, hn⟩) (iblk3 V c 2 ⟨0, hn⟩))
  | n + 1, hn =>
    if h0 : (n + 1) % 8 = 0 then
      (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) ((hcond3_0 ⟨n + 1, hn⟩).mpr h0) (iblk3 V c 0 ⟨n + 1, hn⟩) (iblk3 V c 1 ⟨n + 1, hn⟩) (iblk3 V c 2 ⟨n + 1, hn⟩),
       out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) ((hcond3_0 ⟨n + 1, hn⟩).mpr h0) (iblk3 V c 0 ⟨n + 1, hn⟩) (iblk3 V c 1 ⟨n + 1, hn⟩) (iblk3 V c 2 ⟨n + 1, hn⟩))
    else
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2,
       out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a first key block. -/
theorem outsAt3_A (c : Dev nD) (t : Fin cfg3.N) (h0 : t.val % 8 = 0) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t),
      out3_A_4 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t)) := by
  obtain ⟨n, hn⟩ := t
  cases n with
  | zero => exact rfl
  | succ n => exact (dif_pos h0).trans rfl

/-- `outsAt3` at a later key block: over what the point before left. -/
theorem outsAt3_B (c : Dev nD) (t : Fin cfg3.N) (h0 : ¬t.val % 8 = 0) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (outsAt3 V c (t.val - 1) (Nat.lt_of_le_of_lt (Nat.sub_le _ _) t.isLt)).2,
      out3_B_4 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The pipeline's proof data on core `c`: the arrays as the launch finds them; after the body at point `t` each input's
    buffer at its block and the two outputs' at `outsAt3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
/-- At a later key block the context's buffer holds what the body left at the point before: the point is not the first,
    and the buffer is written back only after the last key block. -/
theorem before3_4_B (c : Dev nD) (t : Fin cfg3.N) (h0 : ¬t.val % 8 = 0) (d) :
    (dat3 V c).before 4 t d = (outsAt3 V c (t.val - 1) (Nat.lt_of_le_of_lt (Nat.sub_le _ _) t.isLt)).2 := by
  have hN : t.val < 64 := lt_of_lt_of_eq t.isLt (show cfg3.N = 64 from N_3)
  rw [Dat.before_out_kept _ 4 rfl t (by omega) (Bool.eq_false_iff.mpr fun h => by have := (flush3_4 _).mp h; dsimp only at this; omega)
    (fun _ => rfl) (fun _ _ => rfl)]
  dsimp only [dat3]

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t))

set_option maxHeartbeats 1600000 in
/-- The body at any point: the inputs' buffers hold their blocks; the point's number mod 8 says which case it is in; at a
    later key block the context's buffer holds what the point before left; so that case's run applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  have hN : t.val < 64 := lt_of_lt_of_eq t.isLt (show cfg3.N = 64 from N_3)
  by_cases h0 : t.val % 8 = 0
  · rw [outsAt3_A V c t h0]
    dsimp only
    unfold out3_A_3 out3_A_4
    iintro ⟨HΦ, Ho, ⟨%d0, H0⟩, ⟨%d1, H1⟩, ⟨%d2, H2⟩, ⟨%d3, H3⟩, ⟨%d4, H4⟩⟩
    iapply ((kernelRun3_A c (grid3.coords t) _ _ _ _ _ _ _ _ _ _ ((hcond3_0 t).mpr h0) (iblk3 V c 0 t) (iblk3 V c 1 t) (iblk3 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_A_3 c _ _ _ _ _ _ _ _ _ _ _ _ _ _ _)
    unfold owns; iexists _; isplitr
    swap; · iexact H4
    ipureintro; exact View.read_writes_of_cover _ _ _ _ _ (cover3_A_4 c _ _ _ _ _ _ _ _ _ _ _ _ _ _ _)
  · rw [outsAt3_B V c t h0]
    dsimp only
    simp only [before3_4_B V c t h0]
    unfold out3_B_3 out3_B_4
    iintro ⟨HΦ, Ho, ⟨%d0, H0⟩, ⟨%d1, H1⟩, ⟨%d2, H2⟩, ⟨%d3, H3⟩, ⟨%d4, H4⟩⟩
    iapply ((kernelRun3_B c (grid3.coords t) _ _ _ _ _ _ _ _ _ _ (fun h => h0 ((hcond3_0 t).mp h)) (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_B_3 c _ _ _ _ _ _ _ _ _ _ _ _ _ _ _ _)
    unfold owns; iexists _; isplitr
    swap; · iexact H4
    ipureintro; exact View.read_writes_of_cover _ _ _ _ _ (cover3_B_4 c _ _ _ _ _ _ _ _ _ _ _ _ _ _ _ _)

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KFrRun.lean ====
/-
  THE RUN of the whole program: ten host operations (two conversions, the two 1024×3072 weight matrices and the two
  3072-long bias rows joined from their three parts), the two linear-layer launches, six host slices cutting each
  8192×3072 result into its query, key and value thirds, and the two gated-attention launches.  The buffers' contents
  at every boundary between these items are named by a fold from the launch memory (`W0` … `W6`): a host stretch
  applies its operations, a launch replaces its windows' arrays by what its pipeline leaves and keeps every other
  buffer.  Every weakly fair execution terminates with EVERY unscoped buffer at the last boundary's contents
  (`run_all`); no item writes an argument array, so each ends as launched (`frame`), and the four result arrays are
  what the two attention pipelines leave (`W6_…`).
-/
import proofs.«123356_j644245095138_2_alg».proof.Proof.Gen.Kernel.Launch
import proofs.«123356_j644245095138_2_alg».proof.Proof.Gen.Kernel.Skeleton
import proofs.«123356_j644245095138_2_alg».proof.Proof.Gen.Kernel.Points
import proofs.«123356_j644245095138_2_alg».proof.Proof.KFrProj0
import proofs.«123356_j644245095138_2_alg».proof.Proof.KFrProj1
import proofs.«123356_j644245095138_2_alg».proof.Proof.KFrAttn2
import proofs.«123356_j644245095138_2_alg».proof.Proof.KFrAttn3
import proofs.«123356_j644245095138_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b

/-- After launch 0: its arrays at what the pipeline leaves (the inputs as entered, each output's write-backs folded),
    every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After launch 1: its arrays at what the pipeline leaves (the inputs as entered, each output's write-backs folded),
    every other buffer as entered. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- After the six slices. -/
abbrev W4 : Dev nD → Valuation τ sig (Elt F) := fun c => StableHlo.after hostOps2 (W3 m ρ c)
abbrev E4 : (c : Dev nD) → (b : Ref sig .tc) → Buf (Elt F) ((c : Thread nD τ).loc b) := fun c b => W4 m ρ c b

/-- After launch 2: its arrays at what the pipeline leaves (the inputs as entered, each output's write-backs folded),
    every other buffer as entered. -/
def W5 (c : Dev nD) : Valuation τ sig (Elt F) :=
  Pipeline.withArrays spec2 c (W4 m ρ c) fun w => (dat2 (E4 m ρ) c).arrAt w cfg2.N
theorem W5_arr (c : Dev nD) (w : Fin cfg2.W) :
    W5 m ρ c (Proc.devRef .tc (Pipeline.arrRef spec2 w)) = (dat2 (E4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev E5 : (c : Dev nD) → (b : Ref sig .tc) → Buf (Elt F) ((c : Thread nD τ).loc b) := fun c b => W5 m ρ c b
theorem hF2 (c : Dev nD) (w : Fin cfg2.W) : (dat2 (E4 m ρ) c).arrAt w cfg2.N = E5 m ρ c (Pipeline.arrRef spec2 w) :=
  (W5_arr m ρ c w).symm
theorem hrest2 (c : Dev nD) : ∀ b, b ∉ Finset.univ.image (Pipeline.arrRef spec2) → E5 m ρ c b = E4 m ρ c b :=
  fun b hb => W5_of_ne m ρ c b fun w e => hb (Finset.mem_image.mpr ⟨w, Finset.mem_univ _, e⟩)

/-- After launch 3: its arrays at what the pipeline leaves (the inputs as entered, each output's write-backs folded),
    every other buffer as entered. -/
def W6 (c : Dev nD) : Valuation τ sig (Elt F) :=
  Pipeline.withArrays spec3 c (W5 m ρ c) fun w => (dat3 (E5 m ρ) c).arrAt w cfg3.N
theorem W6_arr (c : Dev nD) (w : Fin cfg3.W) :
    W6 m ρ c (Proc.devRef .tc (Pipeline.arrRef spec3 w)) = (dat3 (E5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same read at the TensorCore's references. -/
abbrev E6 : (c : Dev nD) → (b : Ref sig .tc) → Buf (Elt F) ((c : Thread nD τ).loc b) := fun c b => W6 m ρ c b
theorem hF3 (c : Dev nD) (w : Fin cfg3.W) : (dat3 (E5 m ρ) c).arrAt w cfg3.N = E6 m ρ c (Pipeline.arrRef spec3 w) :=
  (W6_arr m ρ c w).symm
theorem hrest3 (c : Dev nD) : ∀ b, b ∉ Finset.univ.image (Pipeline.arrRef spec3) → E6 m ρ c b = E5 m ρ c b :=
  fun b hb => W6_of_ne m ρ c b fun w e => hb (Finset.mem_image.mpr ⟨w, Finset.mem_univ _, e⟩)

/-! ### No host operation and no launch writes an argument array -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := StableHlo.after_of_writes_sub hostOps2 _ Gen.hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ Gen.hostOps0_writes (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := StableHlo.after_of_writes_sub hostOps2 _ Gen.hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ Gen.hostOps0_writes (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := StableHlo.after_of_writes_sub hostOps2 _ Gen.hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ Gen.hostOps0_writes (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := StableHlo.after_of_writes_sub hostOps2 _ Gen.hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ Gen.hostOps0_writes (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := StableHlo.after_of_writes_sub hostOps2 _ Gen.hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ Gen.hostOps0_writes (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := StableHlo.after_of_writes_sub hostOps2 _ Gen.hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ Gen.hostOps0_writes (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := StableHlo.after_of_writes_sub hostOps2 _ Gen.hostOps2_writes (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ Gen.hostOps0_writes (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := StableHlo.after_of_writes_sub hostOps2 _ Gen.hostOps2_writes (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ Gen.hostOps0_writes (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := StableHlo.after_of_writes_sub hostOps2 _ Gen.hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ Gen.hostOps0_writes (by decide)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := StableHlo.after_of_writes_sub hostOps2 _ Gen.hostOps2_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ Gen.hostOps0_writes (by decide)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := StableHlo.after_of_writes_sub hostOps2 _ Gen.hostOps2_writes (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ Gen.hostOps0_writes (by decide)
    _ = m ((c : Thread nD τ).loc main_arg10) := rfl
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := StableHlo.after_of_writes_sub hostOps2 _ Gen.hostOps2_writes (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ Gen.hostOps0_writes (by decide)
    _ = m ((c : Thread nD τ).loc main_arg11) := rfl
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := StableHlo.after_of_writes_sub hostOps2 _ Gen.hostOps2_writes (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ Gen.hostOps0_writes (by decide)
    _ = m ((c : Thread nD τ).loc main_arg12) := rfl
theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := W5_of_ne m ρ c main_arg13 (by decide)
    _ = W3 m ρ c (Proc.devRef .tc main_arg13) := StableHlo.after_of_writes_sub hostOps2 _ Gen.hostOps2_writes (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_writes_sub hostOps0 _ Gen.hostOps0_writes (by decide)
    _ = m ((c : Thread nD τ).loc main_arg13) := rfl

/-! ### The four results are what the attention pipelines leave -/

theorem W6_v19_1 (c : Dev nD) : W6 m ρ c (Proc.devRef .tc main_v19_1) = (dat3 (E5 m ρ) c).arrAt 4 cfg3.N := W6_arr m ρ c 4
theorem W6_v19_0 (c : Dev nD) : W6 m ρ c (Proc.devRef .tc main_v19_0) = (dat3 (E5 m ρ) c).arrAt 3 cfg3.N := W6_arr m ρ c 3
theorem W6_v18_1 (c : Dev nD) : W6 m ρ c (Proc.devRef .tc main_v18_1) = (dat2 (E4 m ρ) c).arrAt 4 cfg2.N :=
  (W6_of_ne m ρ c main_v18_1 (by decide)).trans (W5_arr m ρ c 4)
theorem W6_v18_0 (c : Dev nD) : W6 m ρ c (Proc.devRef .tc main_v18_0) = (dat2 (E4 m ρ) c).arrAt 3 cfg2.N :=
  (W6_of_ne m ρ c main_v18_0 (by decide)).trans (W5_arr m ρ c 3)

/-! ## The proof data family and the thread state -/

/-- No pipeline has a prefetched table. -/
abbrev adm4 : (p : Fin 4) → (pcfgs (F := F) p).Adm := fun p => (cfgs p).toPCfg_adm
/-- Every pipeline's proof data, each at its launch's entry contents. -/
def pdats4 : (p : Fin 4) → (c : Dev nD) → Dat τ (Elt F) Unit ℕ (UR sig nD τ) ℕ (Pipeline.pin (pcfgs (F := F)) adm4 p) c
  | ⟨0, _⟩ => fun c => dat0 (E1 m ρ) c
  | ⟨1, _⟩ => fun c => dat1 (E2 m ρ) c
  | ⟨2, _⟩ => fun c => dat2 (E4 m ρ) c
  | ⟨3, _⟩ => fun c => dat3 (E5 m ρ) c
abbrev 𝒱n : Variants := Variants.none
abbrev Ln : GSem nD τ sig → Finset Unit := fun _ => ∅
abbrev lvn : GSem nD τ sig → Unit → ℕ := fun _ _ => 0
/-- What rides beside the buffers through every item: the core's generator register at some state, and nothing owed. -/
abbrev Rr (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tn (c : Dev nD) : sProp 𝕄 := iprop(StableHlo.held (c : Thread nD τ) (Pipeline.ucRefs τ sig) (W6 m ρ c) ∗ ∃ r, prngReg c r)

/-! ## The launches as segments -/

set_option backward.isDefEq.respectTransparency.types false in
/-- Launch 0 over the thread state: entered from every unscoped buffer at `W1`, left at `W2`.  Its arrays are split
    out of the unscoped buffers and put back at the exit contents; the generator register goes into the pipeline's
    invariant and comes back; nothing is owed; the kernel has no semaphore of its own. -/
def reg0 : Pipeline.RegionSeg (pcfgs (F := F)) adm4 (pdats4 m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Ln lvn 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm4 (pdats4 m ρ) launch0.win launch0.arr_whole c
      ((pdats4 m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats4 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats4 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm4 (Ix := Unit) (Name := ℕ) (U := UR sig nD τ) (Lvl := ℕ)
      launch0.win launch0.arr_whole c (pdats4 m ρ) ((pdats4 m ρ 0 c).share_full fun _ => rfl)
      (E1 m ρ c) (E2 m ρ c) ((pdats4 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W2`, left at `W3`.  Its arrays are split
    out of the unscoped buffers and put back at the exit contents; the generator register goes into the pipeline's
    invariant and comes back; nothing is owed; the kernel has no semaphore of its own. -/
def reg1 : Pipeline.RegionSeg (pcfgs (F := F)) adm4 (pdats4 m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ Ln lvn 1 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm4 (pdats4 m ρ) launch1.win launch1.arr_whole c
      ((pdats4 m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats4 m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats4 m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm4 (Ix := Unit) (Name := ℕ) (U := UR sig nD τ) (Lvl := ℕ)
      launch1.win launch1.arr_whole c (pdats4 m ρ) ((pdats4 m ρ 1 c).share_full fun _ => rfl)
      (E2 m ρ c) (E3 m ρ c) ((pdats4 m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W4`, left at `W5`.  Its arrays are split
    out of the unscoped buffers and put back at the exit contents; the generator register goes into the pipeline's
    invariant and comes back; nothing is owed; the kernel has no semaphore of its own. -/
def reg2 : Pipeline.RegionSeg (pcfgs (F := F)) adm4 (pdats4 m ρ) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ Ln lvn 2 fun _ _ => rfl
  pre c := iprop(StableHlo.held (c : Thread nD τ) (Pipeline.ucRefs τ sig) (W4 m ρ c) ∗ Rr c)
  post c := iprop(StableHlo.held (c : Thread nD τ) (Pipeline.ucRefs τ sig) (W5 m ρ c) ∗ Rr c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm4 (pdats4 m ρ) launch2.win launch2.arr_whole c
      ((pdats4 m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats4 m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats4 m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm4 (Ix := Unit) (Name := ℕ) (U := UR sig nD τ) (Lvl := ℕ)
      launch2.win launch2.arr_whole c (pdats4 m ρ) ((pdats4 m ρ 2 c).share_full fun _ => rfl)
      (E4 m ρ c) (E5 m ρ c) ((pdats4 m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered from every unscoped buffer at `W5`, left at `W6`.  Its arrays are split
    out of the unscoped buffers and put back at the exit contents; the generator register goes into the pipeline's
    invariant and comes back; nothing is owed; the kernel has no semaphore of its own. -/
def reg3 : Pipeline.RegionSeg (pcfgs (F := F)) adm4 (pdats4 m ρ) () defs₀ 𝒱n Ln lvn 3 where
  win := launch3.win.to₀
  block_pos := launch3.block_pos
  stage_whole := launch3.stage_whole
  K := PEmpty
  osem k := k.elim
  ho := Pipeline.OwnSemFacts.none _
  hbody c := (body_obligation3 (E5 m ρ) c).loose
  hwaits := Pipeline.hwaits_of_owed_zero _ _ _ _ Ln lvn 3 fun _ _ => rfl
  pre c := iprop(StableHlo.held (c : Thread nD τ) (Pipeline.ucRefs τ sig) (W5 m ρ c) ∗ Rr c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E5 m ρ c)
  hentry c := by
    rw [Pipeline.ownSems0_none]
    have hsplit := Pipeline.arrays_of_unscopedBufs (p := 3) (pcfgs (F := F)) adm4 (pdats4 m ρ) launch3.win launch3.arr_whole c
      ((pdats4 m ρ 3 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats4 m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats4 m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm4 (Ix := Unit) (Name := ℕ) (U := UR sig nD τ) (Lvl := ℕ)
      launch3.win launch3.arr_whole c (pdats4 m ρ) ((pdats4 m ρ 3 c).share_full fun _ => rfl)
      (E5 m ρ c) (E6 m ρ c) ((pdats4 m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs4 : List (Pipeline.Seg (pcfgs (F := F)) adm4 (pdats4 m ρ) () defs₀ 𝒱n Ln lvn) :=
  [ .host (hseg hostOps0 hostOps0_sub Gen.hostOps0_fresh (W0 m ρ)),
    .region (reg0 m ρ),
    .region (reg1 m ρ),
    .host (hseg hostOps2 hostOps2_sub Gen.hostOps2_fresh (W3 m ρ)),
    .region (reg2 m ρ),
    .region (reg3 m ρ) ]
theorem main_run (c : Dev nD) : main (F := F) c = Pipeline.Seg.run (segs4 m ρ) := (main_chain c).trans (by chain_rfl)

set_option backward.isDefEq.respectTransparency.types false in
/-- Every weakly fair execution of @main from memory `m` with zero counters terminates, nothing faulting, and every
    final state has every unscoped buffer of every core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm4 (pdats4 m ρ) () cellOf_inj emb₁ defs₀ 𝒱n Ln lvn m ρ main (segs4 m ρ)
    (fun c Q => by rw [main_run m ρ c])
    (by simp only [segs4, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tn m ρ)
    (hch := ⟨fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c)⟩) (run_all m ρ)

end Cert.Kernel.Fr

end
-- ==== Proof.FrProj0.lean ====
/-
  The linear-layer launch number 0: a row block of 1024 input rows times the whole 1024×3072 weight matrix plus the
  bias row, one grid point per row block (8 points).  At ANY contents `V` of the buffers when the launch is entered:
  each window's block at a point, what the body leaves in the output window's buffer (its one store over the three
  loaded blocks), the body's triple, and the pipeline's proof data with the body obligation.  The weight matrix and the
  bias row are fetched once and stay in place; the input block is fetched at every point; the output block is written
  back at every point.
-/
import proofs.«123356_j644245095138_2_alg».proof.Proof.Gen.KernelIdeal.Launch
import proofs.«123356_j644245095138_2_alg».proof.Proof.Gen.KernelIdeal.Skeleton
import proofs.«123356_j644245095138_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched there or kept from before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether fetched there or kept from before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether fetched there or kept from before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 1024×3072 output block: the one rectangle the body stores through. -/
abbrev r0_out : Rect S1024x3072 := Rect.unit (s := S1024x3072) ![0, 0] S1024x3072.size inb_S1024x3072_S1024x3072_0_0
abbrev r0_x : Rect S1024x1024 := Rect.unit (s := S1024x1024) ![0, 0] S1024x1024.size inb_S1024x1024_S1024x1024_0_0
abbrev r0_b : Rect S1x3072 := Rect.unit (s := S1x3072) ![0, 0] S1x3072.size inb_S1x3072_S1x3072_0_0

/-- The output window's buffer after the body: its one store, of the layer's value on the three loaded blocks. -/
def out0_3 (x0 : Vec F S1024x1024 .bf16) (x1 : Vec F S1024x3072 .bf16) (x2 : Vec F S1x3072 .f32) : Vec F S1024x3072 .bf16 :=
  View.canon [⟨r0_out, k0_pay1 (View.ld x0 r0_x) (View.ld x1 r0_out) (View.ld x2 r0_b)⟩]

/-- The store covers the buffer. -/
theorem cover0_3 (p0 : Vec F S1024x3072 .bf16) (y : S1024x3072.Idx) :
    ∃ pc ∈ ([⟨r0_out, p0⟩] : List (View.Piece (Elt F) S1024x3072 .bf16)), y ∈ pc.1.set :=
  View.cover_of_tiled [⟨r0_out, p0⟩] S1024x3072.size (by rfl) y

set_option maxHeartbeats 1000000 in
/-- The body on whole staging buffers, the inputs' at contents `xW` and the output's at anything, runs to the
    continuation with the inputs' as they were and the output's at `out0_3` of them. -/
theorem sound_kernel0 (c : Dev nD) (E : Set ℕ) (i : grid0.Coords)
    (arg1 : Memref sig .tc .vmem S1024x1024 .bf16) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x3072 .bf16) (harg4 : arg4.IsWhole)
    (x0 : Vec F S1024x1024 .bf16) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the launch finds them; after the body at point `t` each input's
    buffer at its block and the output's at `out0_3` of the three input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrProj1.lean ====
/-
  The linear-layer launch number 1: a row block of 1024 input rows times the whole 1024×3072 weight matrix plus the
  bias row, one grid point per row block (8 points).  At ANY contents `V` of the buffers when the launch is entered:
  each window's block at a point, what the body leaves in the output window's buffer (its one store over the three
  loaded blocks), the body's triple, and the pipeline's proof data with the body obligation.  The weight matrix and the
  bias row are fetched once and stay in place; the input block is fetched at every point; the output block is written
  back at every point.
-/
import proofs.«123356_j644245095138_2_alg».proof.Proof.Gen.KernelIdeal.Launch
import proofs.«123356_j644245095138_2_alg».proof.Proof.Gen.KernelIdeal.Skeleton
import proofs.«123356_j644245095138_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched there or kept from before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether fetched there or kept from before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether fetched there or kept from before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 1024×3072 output block: the one rectangle the body stores through. -/
abbrev r1_out : Rect S1024x3072 := Rect.unit (s := S1024x3072) ![0, 0] S1024x3072.size inb_S1024x3072_S1024x3072_0_0
abbrev r1_x : Rect S1024x1024 := Rect.unit (s := S1024x1024) ![0, 0] S1024x1024.size inb_S1024x1024_S1024x1024_0_0
abbrev r1_b : Rect S1x3072 := Rect.unit (s := S1x3072) ![0, 0] S1x3072.size inb_S1x3072_S1x3072_0_0

/-- The output window's buffer after the body: its one store, of the layer's value on the three loaded blocks. -/
def out1_3 (x0 : Vec F S1024x1024 .bf16) (x1 : Vec F S1024x3072 .bf16) (x2 : Vec F S1x3072 .f32) : Vec F S1024x3072 .bf16 :=
  View.canon [⟨r1_out, k1_pay1 (View.ld x0 r1_x) (View.ld x1 r1_out) (View.ld x2 r1_b)⟩]

/-- The store covers the buffer. -/
theorem cover1_3 (p0 : Vec F S1024x3072 .bf16) (y : S1024x3072.Idx) :
    ∃ pc ∈ ([⟨r1_out, p0⟩] : List (View.Piece (Elt F) S1024x3072 .bf16)), y ∈ pc.1.set :=
  View.cover_of_tiled [⟨r1_out, p0⟩] S1024x3072.size (by rfl) y

set_option maxHeartbeats 1000000 in
/-- The body on whole staging buffers, the inputs' at contents `xW` and the output's at anything, runs to the
    continuation with the inputs' as they were and the output's at `out1_3` of them. -/
theorem sound_kernel1 (c : Dev nD) (E : Set ℕ) (i : grid1.Coords)
    (arg1 : Memref sig .tc .vmem S1024x1024 .bf16) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x3072 .bf16) (harg4 : arg4.IsWhole)
    (x0 : Vec F S1024x1024 .bf16) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__qkv_proj_kernel i arg1 harg1 arg2 harg2 arg3 harg3 arg4 harg4) K := by
  simp only [cc1__qkv_proj_kernel_eq_skeleton]; unfold cc1__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the launch finds them; after the body at point `t` each input's
    buffer at its block and the output's at `out1_3` of the three input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrAttn2.lean ====
/-
  The gated-attention launch number 2: a grid of 8 query blocks by 8 key blocks (the key-block index moves fastest),
  each point holding 1024 query rows, 1024 key rows and the same 1024 value rows.  The body writes the point's
  1024×1024 block of gates whole, and keeps the query block's 1024×1024 context in its output buffer ACROSS the eight
  key blocks: at the first key block it first stores zeros, and at every key block it adds that block's gate-weighted
  value rows to what the buffer holds.  At ANY contents `V` of the buffers when the launch is entered: each window's
  block at a point, the body's run in its two cases (first key block or not) with the pieces it leaves in the two output
  buffers, what those buffers hold after each point (by recursion on the point: a later key block reads what the point
  before left, the buffer not being written back between), the pipeline's proof data and the body obligation.
-/
import proofs.«123356_j644245095138_2_alg».proof.Proof.Gen.KernelIdeal.Launch
import proofs.«123356_j644245095138_2_alg».proof.Proof.Gen.KernelIdeal.Skeleton
import proofs.«123356_j644245095138_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or kept from before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether fetched there or kept from before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether fetched there or kept from before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- "This is the first key block": the body's branch condition, from the grid coordinates. -/
abbrev cond2_0 (i : grid2.Coords) : Prop := (Scalar.cmpi .ne (Scalar.extui (Scalar.cmpi .eq (BitVec.ofNat 32 (i 1).val) 0#32)) 0#32) = 1#1
/-- It holds exactly at the points whose number is a multiple of 8 — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- One staging buffer of each output window, through which its contents are stated (the choice does not matter). -/
abbrev VO2_3 : View sig .tc .vmem S1024x1024 .f32 := (Memref.whole cc2_stg3_0 : Memref sig .tc .vmem S1024x1024 .f32).view
abbrev VO2_4 : View sig .tc .vmem S1024x1024 .f32 := (Memref.whole cc2_stg4_0 : Memref sig .tc .vmem S1024x1024 .f32).view
/-- Each window's current staging buffer at point `t`, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)

set_option maxHeartbeats 1000000 in
/-- AT THE FIRST KEY BLOCK: the pieces the body's stores leave in the gates' buffer and in the context's buffer (last
    first), with the proof that on whole staging buffers — the inputs' at their contents, the outputs' at anything —
    the body runs to the continuation holding the inputs' as they were and each output's with its pieces written. -/
noncomputable def kernelRun2_A (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i)
    (x0 x1 x2 : Vec F S1024x1024 .bf16) :
    (L3 : List (View.Piece (Elt F) S1024x1024 .f32)) ×' (L4 : List (View.Piece (Elt F) S1024x1024 .f32)) ×'
      (∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc2__cross_attn_kernel i arg2 harg2 arg3 harg3 arg4 harg4 arg5 harg5 arg6 harg6) K) := by
  refine ⟨?_, ?_, fun E K => ?run⟩
  case run =>
    simp only [cc2__cross_attn_kernel_eq_skeleton]; unfold cc2__cross_attn_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 1000000 in
/-- AT A LATER KEY BLOCK: the same, the context's buffer now going in at its running contents `xo4` (the body adds to it). -/
noncomputable def kernelRun2_B (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i)
    (x0 x1 x2 : Vec F S1024x1024 .bf16) (xo4 : Vec F S1024x1024 .f32) :
    (L3 : List (View.Piece (Elt F) S1024x1024 .f32)) ×' (L4 : List (View.Piece (Elt F) S1024x1024 .f32)) ×'
      (∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc2__cross_attn_kernel i arg2 harg2 arg3 harg3 arg4 harg4 arg5 harg5 arg6 harg6) K) := by
  refine ⟨?_, ?_, fun E K => ?run⟩
  case run =>
    simp only [cc2__cross_attn_kernel_eq_skeleton]; unfold cc2__cross_attn_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- The first-key-block pieces cover each output buffer. -/
theorem cover2_A_3 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (x0 x1 x2 : Vec F S1024x1024 .bf16) (y : S1024x1024.Idx) :
    ∃ pc ∈ (kernelRun2_A c i arg2 harg2 arg3 harg3 arg4 harg4 arg5 harg5 arg6 harg6 hc0 x0 x1 x2).1, y ∈ pc.1.set :=
  View.cover_of_tiledL (kernelRun2_A c i arg2 harg2 arg3 harg3 arg4 harg4 arg5 harg5 arg6 harg6 hc0 x0 x1 x2).1 S1024x1024.size (by sl_kernel_rfl) y
theorem cover2_A_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (x0 x1 x2 : Vec F S1024x1024 .bf16) (y : S1024x1024.Idx) :
    ∃ pc ∈ (kernelRun2_A c i arg2 harg2 arg3 harg3 arg4 harg4 arg5 harg5 arg6 harg6 hc0 x0 x1 x2).2.1, y ∈ pc.1.set :=
  View.cover_of_tiledL (kernelRun2_A c i arg2 harg2 arg3 harg3 arg4 harg4 arg5 harg5 arg6 harg6 hc0 x0 x1 x2).2.1 S1024x1024.size (by sl_kernel_rfl) y
/-- The later-key-block pieces cover each output buffer. -/
theorem cover2_B_3 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (x0 x1 x2 : Vec F S1024x1024 .bf16) (xo4 : Vec F S1024x1024 .f32) (y : S1024x1024.Idx) :
    ∃ pc ∈ (kernelRun2_B c i arg2 harg2 arg3 harg3 arg4 harg4 arg5 harg5 arg6 harg6 hc0 x0 x1 x2 xo4).1, y ∈ pc.1.set :=
  View.cover_of_tiledL (kernelRun2_B c i arg2 harg2 arg3 harg3 arg4 harg4 arg5 harg5 arg6 harg6 hc0 x0 x1 x2 xo4).1 S1024x1024.size (by sl_kernel_rfl) y
theorem cover2_B_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (x0 x1 x2 : Vec F S1024x1024 .bf16) (xo4 : Vec F S1024x1024 .f32) (y : S1024x1024.Idx) :
    ∃ pc ∈ (kernelRun2_B c i arg2 harg2 arg3 harg3 arg4 harg4 arg5 harg5 arg6 harg6 hc0 x0 x1 x2 xo4).2.1, y ∈ pc.1.set :=
  View.cover_of_tiledL (kernelRun2_B c i arg2 harg2 arg3 harg3 arg4 harg4 arg5 harg5 arg6 harg6 hc0 x0 x1 x2 xo4).2.1 S1024x1024.size (by sl_kernel_rfl) y

/-- What each case leaves in each output's buffer: its pieces read back. -/
def out2_A_3 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (x0 x1 x2 : Vec F S1024x1024 .bf16) : Vec F S1024x1024 .f32 :=
  VO2_3.read (Elt F) (VO2_3.writes (Elt F) VO2_3.junk (kernelRun2_A c i arg2 harg2 arg3 harg3 arg4 harg4 arg5 harg5 arg6 harg6 hc0 x0 x1 x2).1)
def out2_A_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond2_0 i) (x0 x1 x2 : Vec F S1024x1024 .bf16) : Vec F S1024x1024 .f32 :=
  VO2_4.read (Elt F) (VO2_4.writes (Elt F) VO2_4.junk (kernelRun2_A c i arg2 harg2 arg3 harg3 arg4 harg4 arg5 harg5 arg6 harg6 hc0 x0 x1 x2).2.1)
def out2_B_3 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (x0 x1 x2 : Vec F S1024x1024 .bf16) (xo4 : Vec F S1024x1024 .f32) : Vec F S1024x1024 .f32 :=
  VO2_3.read (Elt F) (VO2_3.writes (Elt F) VO2_3.junk (kernelRun2_B c i arg2 harg2 arg3 harg3 arg4 harg4 arg5 harg5 arg6 harg6 hc0 x0 x1 x2 xo4).1)
def out2_B_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond2_0 i) (x0 x1 x2 : Vec F S1024x1024 .bf16) (xo4 : Vec F S1024x1024 .f32) : Vec F S1024x1024 .f32 :=
  VO2_4.read (Elt F) (VO2_4.writes (Elt F) VO2_4.junk (kernelRun2_B c i arg2 harg2 arg3 harg3 arg4 harg4 arg5 harg5 arg6 harg6 hc0 x0 x1 x2 xo4).2.1)

/-- THE ACCUMULATION. What the two output buffers hold after the body at point number `n` (gates, context): the case
    the point is in, run at the point's buffers and input blocks, the context at a later key block over what the point
    before left. -/
def outsAt2 (c : Dev nD) : (n : ℕ) → n < cfg2.N → Vec F S1024x1024 .f32 × Vec F S1024x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk2 V c 0 ⟨0, hn⟩) (iblk2 V c 1 ⟨0, hn⟩) (iblk2 V c 2 ⟨0, hn⟩),
              out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk2 V c 0 ⟨0, hn⟩) (iblk2 V c 1 ⟨0, hn⟩) (iblk2 V c 2 ⟨0, hn⟩))
  | n + 1, hn =>
    if h0 : (n + 1) % 8 = 0 then
      (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk2 V c 0 ⟨n + 1, hn⟩) (iblk2 V c 1 ⟨n + 1, hn⟩) (iblk2 V c 2 ⟨n + 1, hn⟩),
       out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk2 V c 0 ⟨n + 1, hn⟩) (iblk2 V c 1 ⟨n + 1, hn⟩) (iblk2 V c 2 ⟨n + 1, hn⟩))
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2,
       out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a first key block. -/
theorem outsAt2_A (c : Dev nD) (t : Fin cfg2.N) (h0 : t.val % 8 = 0) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t),
      out2_A_4 c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t)) := by
  obtain ⟨n, hn⟩ := t
  cases n with
  | zero => exact rfl
  | succ n => exact (dif_pos h0).trans rfl

/-- `outsAt2` at a later key block: over what the point before left. -/
theorem outsAt2_B (c : Dev nD) (t : Fin cfg2.N) (h0 : ¬t.val % 8 = 0) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t) (outsAt2 V c (t.val - 1) (Nat.lt_of_le_of_lt (Nat.sub_le _ _) t.isLt)).2,
      out2_B_4 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The pipeline's proof data on core `c`: the arrays as the launch finds them; after the body at point `t` each input's
    buffer at its block and the two outputs' at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
/-- At a later key block the context's buffer holds what the body left at the point before: the point is not the first,
    and the buffer is written back only after the last key block. -/
theorem before2_4_B (c : Dev nD) (t : Fin cfg2.N) (h0 : ¬t.val % 8 = 0) (d) :
    (dat2 V c).before 4 t d = (outsAt2 V c (t.val - 1) (Nat.lt_of_le_of_lt (Nat.sub_le _ _) t.isLt)).2 := by
  have hN : t.val < 64 := lt_of_lt_of_eq t.isLt (show cfg2.N = 64 from N_2)
  rw [Dat.before_out_kept _ 4 rfl t (by omega) (Bool.eq_false_iff.mpr fun h => by have := (flush2_4 _).mp h; dsimp only at this; omega)
    (fun _ => rfl) (fun _ _ => rfl)]
  dsimp only [dat2]

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1600000 in
/-- The body at any point: the inputs' buffers hold their blocks; the point's number mod 8 says which case it is in; at a
    later key block the context's buffer holds what the point before left; so that case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 64 := lt_of_lt_of_eq t.isLt (show cfg2.N = 64 from N_2)
  by_cases h0 : t.val % 8 = 0
  · rw [outsAt2_A V c t h0]
    dsimp only
    unfold out2_A_3 out2_A_4
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2_0 t).mpr h0) (iblk2 V c 0 t) (iblk2 V c 1 t) (iblk2 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_A_3 c _ _ _ _ _ _ _ _ _ _ _ _ _ _ _)
    unfold owns; iexists _; isplitr
    swap; · iexact H4
    ipureintro; exact View.read_writes_of_cover _ _ _ _ _ (cover2_A_4 c _ _ _ _ _ _ _ _ _ _ _ _ _ _ _)
  · rw [outsAt2_B V c t h0]
    dsimp only
    simp only [before2_4_B V c t h0]
    unfold out2_B_3 out2_B_4
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2_0 t).mp h)) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_B_3 c _ _ _ _ _ _ _ _ _ _ _ _ _ _ _ _)
    unfold owns; iexists _; isplitr
    swap; · iexact H4
    ipureintro; exact View.read_writes_of_cover _ _ _ _ _ (cover2_B_4 c _ _ _ _ _ _ _ _ _ _ _ _ _ _ _ _)

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrAttn3.lean ====
/-
  The gated-attention launch number 3: a grid of 8 query blocks by 8 key blocks (the key-block index moves fastest),
  each point holding 1024 query rows, 1024 key rows and the same 1024 value rows.  The body writes the point's
  1024×1024 block of gates whole, and keeps the query block's 1024×1024 context in its output buffer ACROSS the eight
  key blocks: at the first key block it first stores zeros, and at every key block it adds that block's gate-weighted
  value rows to what the buffer holds.  At ANY contents `V` of the buffers when the launch is entered: each window's
  block at a point, the body's run in its two cases (first key block or not) with the pieces it leaves in the two output
  buffers, what those buffers hold after each point (by recursion on the point: a later key block reads what the point
  before left, the buffer not being written back between), the pipeline's proof data and the body obligation.
-/
import proofs.«123356_j644245095138_2_alg».proof.Proof.Gen.KernelIdeal.Launch
import proofs.«123356_j644245095138_2_alg».proof.Proof.Gen.KernelIdeal.Skeleton
import proofs.«123356_j644245095138_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether fetched there or kept from before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether fetched there or kept from before. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether fetched there or kept from before. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- "This is the first key block": the body's branch condition, from the grid coordinates. -/
abbrev cond3_0 (i : grid3.Coords) : Prop := (Scalar.cmpi .ne (Scalar.extui (Scalar.cmpi .eq (BitVec.ofNat 32 (i 1).val) 0#32)) 0#32) = 1#1
/-- It holds exactly at the points whose number is a multiple of 8 — decided over the grid. -/
theorem hcond3_0 : ∀ t : Fin cfg3.N, cond3_0 (grid3.coords t) ↔ t.val % 8 = 0 :=
  (by decide +kernel : ∀ t : Fin grid3.N, cond3_0 (grid3.coords t) ↔ t.val % 8 = 0)

/-- One staging buffer of each output window, through which its contents are stated (the choice does not matter). -/
abbrev VO3_3 : View sig .tc .vmem S1024x1024 .f32 := (Memref.whole cc3_stg3_0 : Memref sig .tc .vmem S1024x1024 .f32).view
abbrev VO3_4 : View sig .tc .vmem S1024x1024 .f32 := (Memref.whole cc3_stg4_0 : Memref sig .tc .vmem S1024x1024 .f32).view
/-- Each window's current staging buffer at point `t`, and its wholeness. -/
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x1024 .f32 := win3_4.stage (cfg3.slots t 4)
abbrev hs3_4 (t : Fin cfg3.N) : (ms3_4 t).IsWhole := hstage3_4 ((cfg3.slots t 4).cast nbuf3_4)

set_option maxHeartbeats 1000000 in
/-- AT THE FIRST KEY BLOCK: the pieces the body's stores leave in the gates' buffer and in the context's buffer (last
    first), with the proof that on whole staging buffers — the inputs' at their contents, the outputs' at anything —
    the body runs to the continuation holding the inputs' as they were and each output's with its pieces written. -/
noncomputable def kernelRun3_A (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i)
    (x0 x1 x2 : Vec F S1024x1024 .bf16) :
    (L3 : List (View.Piece (Elt F) S1024x1024 .f32)) ×' (L4 : List (View.Piece (Elt F) S1024x1024 .f32)) ×'
      (∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc3__cross_attn_kernel i arg2 harg2 arg3 harg3 arg4 harg4 arg5 harg5 arg6 harg6) K) := by
  refine ⟨?_, ?_, fun E K => ?run⟩
  case run =>
    simp only [cc3__cross_attn_kernel_eq_skeleton]; unfold cc3__cross_attn_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 1000000 in
/-- AT A LATER KEY BLOCK: the same, the context's buffer now going in at its running contents `xo4` (the body adds to it). -/
noncomputable def kernelRun3_B (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i)
    (x0 x1 x2 : Vec F S1024x1024 .bf16) (xo4 : Vec F S1024x1024 .f32) :
    (L3 : List (View.Piece (Elt F) S1024x1024 .f32)) ×' (L4 : List (View.Piece (Elt F) S1024x1024 .f32)) ×'
      (∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc3__cross_attn_kernel i arg2 harg2 arg3 harg3 arg4 harg4 arg5 harg5 arg6 harg6) K) := by
  refine ⟨?_, ?_, fun E K => ?run⟩
  case run =>
    simp only [cc3__cross_attn_kernel_eq_skeleton]; unfold cc3__cross_attn_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- The first-key-block pieces cover each output buffer. -/
theorem cover3_A_3 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (x0 x1 x2 : Vec F S1024x1024 .bf16) (y : S1024x1024.Idx) :
    ∃ pc ∈ (kernelRun3_A c i arg2 harg2 arg3 harg3 arg4 harg4 arg5 harg5 arg6 harg6 hc0 x0 x1 x2).1, y ∈ pc.1.set :=
  View.cover_of_tiledL (kernelRun3_A c i arg2 harg2 arg3 harg3 arg4 harg4 arg5 harg5 arg6 harg6 hc0 x0 x1 x2).1 S1024x1024.size (by sl_kernel_rfl) y
theorem cover3_A_4 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (x0 x1 x2 : Vec F S1024x1024 .bf16) (y : S1024x1024.Idx) :
    ∃ pc ∈ (kernelRun3_A c i arg2 harg2 arg3 harg3 arg4 harg4 arg5 harg5 arg6 harg6 hc0 x0 x1 x2).2.1, y ∈ pc.1.set :=
  View.cover_of_tiledL (kernelRun3_A c i arg2 harg2 arg3 harg3 arg4 harg4 arg5 harg5 arg6 harg6 hc0 x0 x1 x2).2.1 S1024x1024.size (by sl_kernel_rfl) y
/-- The later-key-block pieces cover each output buffer. -/
theorem cover3_B_3 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (x0 x1 x2 : Vec F S1024x1024 .bf16) (xo4 : Vec F S1024x1024 .f32) (y : S1024x1024.Idx) :
    ∃ pc ∈ (kernelRun3_B c i arg2 harg2 arg3 harg3 arg4 harg4 arg5 harg5 arg6 harg6 hc0 x0 x1 x2 xo4).1, y ∈ pc.1.set :=
  View.cover_of_tiledL (kernelRun3_B c i arg2 harg2 arg3 harg3 arg4 harg4 arg5 harg5 arg6 harg6 hc0 x0 x1 x2 xo4).1 S1024x1024.size (by sl_kernel_rfl) y
theorem cover3_B_4 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (x0 x1 x2 : Vec F S1024x1024 .bf16) (xo4 : Vec F S1024x1024 .f32) (y : S1024x1024.Idx) :
    ∃ pc ∈ (kernelRun3_B c i arg2 harg2 arg3 harg3 arg4 harg4 arg5 harg5 arg6 harg6 hc0 x0 x1 x2 xo4).2.1, y ∈ pc.1.set :=
  View.cover_of_tiledL (kernelRun3_B c i arg2 harg2 arg3 harg3 arg4 harg4 arg5 harg5 arg6 harg6 hc0 x0 x1 x2 xo4).2.1 S1024x1024.size (by sl_kernel_rfl) y

/-- What each case leaves in each output's buffer: its pieces read back. -/
def out3_A_3 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (x0 x1 x2 : Vec F S1024x1024 .bf16) : Vec F S1024x1024 .f32 :=
  VO3_3.read (Elt F) (VO3_3.writes (Elt F) VO3_3.junk (kernelRun3_A c i arg2 harg2 arg3 harg3 arg4 harg4 arg5 harg5 arg6 harg6 hc0 x0 x1 x2).1)
def out3_A_4 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (x0 x1 x2 : Vec F S1024x1024 .bf16) : Vec F S1024x1024 .f32 :=
  VO3_4.read (Elt F) (VO3_4.writes (Elt F) VO3_4.junk (kernelRun3_A c i arg2 harg2 arg3 harg3 arg4 harg4 arg5 harg5 arg6 harg6 hc0 x0 x1 x2).2.1)
def out3_B_3 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (x0 x1 x2 : Vec F S1024x1024 .bf16) (xo4 : Vec F S1024x1024 .f32) : Vec F S1024x1024 .f32 :=
  VO3_3.read (Elt F) (VO3_3.writes (Elt F) VO3_3.junk (kernelRun3_B c i arg2 harg2 arg3 harg3 arg4 harg4 arg5 harg5 arg6 harg6 hc0 x0 x1 x2 xo4).1)
def out3_B_4 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (x0 x1 x2 : Vec F S1024x1024 .bf16) (xo4 : Vec F S1024x1024 .f32) : Vec F S1024x1024 .f32 :=
  VO3_4.read (Elt F) (VO3_4.writes (Elt F) VO3_4.junk (kernelRun3_B c i arg2 harg2 arg3 harg3 arg4 harg4 arg5 harg5 arg6 harg6 hc0 x0 x1 x2 xo4).2.1)

/-- THE ACCUMULATION. What the two output buffers hold after the body at point number `n` (gates, context): the case
    the point is in, run at the point's buffers and input blocks, the context at a later key block over what the point
    before left. -/
def outsAt3 (c : Dev nD) : (n : ℕ) → n < cfg3.N → Vec F S1024x1024 .f32 × Vec F S1024x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) ((hcond3_0 ⟨0, hn⟩).mpr (Nat.zero_mod _)) (iblk3 V c 0 ⟨0, hn⟩) (iblk3 V c 1 ⟨0, hn⟩) (iblk3 V c 2 ⟨0, hn⟩),
              out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) ((hcond3_0 ⟨0, hn⟩).mpr (Nat.zero_mod _)) (iblk3 V c 0 ⟨0, hn⟩) (iblk3 V c 1 ⟨0, hn⟩) (iblk3 V c 2 ⟨0, hn⟩))
  | n + 1, hn =>
    if h0 : (n + 1) % 8 = 0 then
      (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) ((hcond3_0 ⟨n + 1, hn⟩).mpr h0) (iblk3 V c 0 ⟨n + 1, hn⟩) (iblk3 V c 1 ⟨n + 1, hn⟩) (iblk3 V c 2 ⟨n + 1, hn⟩),
       out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) ((hcond3_0 ⟨n + 1, hn⟩).mpr h0) (iblk3 V c 0 ⟨n + 1, hn⟩) (iblk3 V c 1 ⟨n + 1, hn⟩) (iblk3 V c 2 ⟨n + 1, hn⟩))
    else
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2,
       out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a first key block. -/
theorem outsAt3_A (c : Dev nD) (t : Fin cfg3.N) (h0 : t.val % 8 = 0) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t),
      out3_A_4 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t)) := by
  obtain ⟨n, hn⟩ := t
  cases n with
  | zero => exact rfl
  | succ n => exact (dif_pos h0).trans rfl

/-- `outsAt3` at a later key block: over what the point before left. -/
theorem outsAt3_B (c : Dev nD) (t : Fin cfg3.N) (h0 : ¬t.val % 8 = 0) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (outsAt3 V c (t.val - 1) (Nat.lt_of_le_of_lt (Nat.sub_le _ _) t.isLt)).2,
      out3_B_4 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The pipeline's proof data on core `c`: the arrays as the launch finds them; after the body at point `t` each input's
    buffer at its block and the two outputs' at `outsAt3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
/-- At a later key block the context's buffer holds what the body left at the point before: the point is not the first,
    and the buffer is written back only after the last key block. -/
theorem before3_4_B (c : Dev nD) (t : Fin cfg3.N) (h0 : ¬t.val % 8 = 0) (d) :
    (dat3 V c).before 4 t d = (outsAt3 V c (t.val - 1) (Nat.lt_of_le_of_lt (Nat.sub_le _ _) t.isLt)).2 := by
  have hN : t.val < 64 := lt_of_lt_of_eq t.isLt (show cfg3.N = 64 from N_3)
  rw [Dat.before_out_kept _ 4 rfl t (by omega) (Bool.eq_false_iff.mpr fun h => by have := (flush3_4 _).mp h; dsimp only at this; omega)
    (fun _ => rfl) (fun _ _ => rfl)]
  dsimp only [dat3]

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t))

set_option maxHeartbeats 1600000 in
/-- The body at any point: the inputs' buffers hold their blocks; the point's number mod 8 says which case it is in; at a
    later key block the context's buffer holds what the point before left; so that case's run applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  have hN : t.val < 64 := lt_of_lt_of_eq t.isLt (show cfg3.N = 64 from N_3)
  by_cases h0 : t.val % 8 = 0
  · rw [outsAt3_A V c t h0]
    dsimp only
    unfold out3_A_3 out3_A_4
    iintro ⟨HΦ, Ho, ⟨%d0, H0⟩, ⟨%d1, H1⟩, ⟨%d2, H2⟩, ⟨%d3, H3⟩, ⟨%d4, H4⟩⟩
    iapply ((kernelRun3_A c (grid3.coords t) _ _ _ _ _ _ _ _ _ _ ((hcond3_0 t).mpr h0) (iblk3 V c 0 t) (iblk3 V c 1 t) (iblk3 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_A_3 c _ _ _ _ _ _ _ _ _ _ _ _ _ _ _)
    unfold owns; iexists _; isplitr
    swap; · iexact H4
    ipureintro; exact View.read_writes_of_cover _ _ _ _ _ (cover3_A_4 c _ _ _ _ _ _ _ _ _ _ _ _ _ _ _)
  · rw [outsAt3_B V c t h0]
    dsimp only
    simp only [before3_4_B V c t h0]
    unfold out3_B_3 out3_B_4
    iintro ⟨HΦ, Ho, ⟨%d0, H0⟩, ⟨%d1, H1⟩, ⟨%d2, H2⟩, ⟨%d3, H3⟩, ⟨%d4, H4⟩⟩
    iapply ((kernelRun3_B c (grid3.coords t) _ _ _ _ _ _ _ _ _ _ (fun h => h0 ((hcond3_0 t).mp h)) (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_B_3 c _ _ _ _ _ _ _ _ _ _ _ _ _ _ _ _)
    unfold owns; iexists _; isplitr
    swap; · iexact H4
    ipureintro; exact View.read_writes_of_cover _ _ _ _ _ (cover3_B_4 c _ _ _ _ _ _ _ _ _ _ _ _ _ _ _ _)

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.FrRun.lean ====
/-
  THE RUN of the whole program: ten host operations (two conversions, the two 1024×3072 weight matrices and the two
  3072-long bias rows joined from their three parts), the two linear-layer launches, six host slices cutting each
  8192×3072 result into its query, key and value thirds, and the two gated-attention launches.  The buffers' contents
  at every boundary between these items are named by a fold from the launch memory (`W0` … `W6`): a host stretch
  applies its operations, a launch replaces its windows' arrays by what its pipeline leaves and keeps every other
  buffer.  Every weakly fair execution terminates with EVERY unscoped buffer at the last boundary's contents
  (`run_all`); no item writes an argument array, so each ends as launched (`frame`), and the four result arrays are
  what the two attention pipelines leave (`W6_…`).
-/
import proofs.«123356_j644245095138_2_alg».proof.Proof.Gen.KernelIdeal.Launch
import proofs.«123356_j644245095138_2_alg».proof.Proof.Gen.KernelIdeal.Skeleton
import proofs.«123356_j644245095138_2_alg».proof.Proof.Gen.KernelIdeal.Points
import proofs.«123356_j644245095138_2_alg».proof.Proof.FrProj0
import proofs.«123356_j644245095138_2_alg».proof.Proof.FrProj1
import proofs.«123356_j644245095138_2_alg».proof.Proof.FrAttn2
import proofs.«123356_j644245095138_2_alg».proof.Proof.FrAttn3
import proofs.«123356_j644245095138_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b

/-- After launch 0: its arrays at what the pipeline leaves (the inputs as entered, each output's write-backs folded),
    every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After launch 1: its arrays at what the pipeline leaves (the inputs as entered, each output's write-backs folded),
    every other buffer as entered. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- After the six slices. -/
abbrev W4 : Dev nD → Valuation τ sig (Elt F) := fun c => StableHlo.after hostOps2 (W3 m ρ c)
abbrev E4 : (c : Dev nD) → (b : Ref sig .tc) → Buf (Elt F) ((c : Thread nD τ).loc b) := fun c b => W4 m ρ c b

/-- After launch 2: its arrays at what the pipeline leaves (the inputs as entered, each output's write-backs folded),
    every other buffer as entered. -/
def W5 (c : Dev nD) : Valuation τ sig (Elt F) :=
  Pipeline.withArrays spec2 c (W4 m ρ c) fun w => (dat2 (E4 m ρ) c).arrAt w cfg2.N
theorem W5_arr (c : Dev nD) (w : Fin cfg2.W) :
    W5 m ρ c (Proc.devRef .tc (Pipeline.arrRef spec2 w)) = (dat2 (E4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev E5 : (c : Dev nD) → (b : Ref sig .tc) → Buf (Elt F) ((c : Thread nD τ).loc b) := fun c b => W5 m ρ c b
theorem hF2 (c : Dev nD) (w : Fin cfg2.W) : (dat2 (E4 m ρ) c).arrAt w cfg2.N = E5 m ρ c (Pipeline.arrRef spec2 w) :=
  (W5_arr m ρ c w).symm
theorem hrest2 (c : Dev nD) : ∀ b, b ∉ Finset.univ.image (Pipeline.arrRef spec2) → E5 m ρ c b = E4 m ρ c b :=
  fun b hb => W5_of_ne m ρ c b fun w e => hb (Finset.mem_image.mpr ⟨w, Finset.mem_univ _, e⟩)

/-- After launch 3: its arrays at what the pipeline leaves (the inputs as entered, each output's write-backs folded),
    every other buffer as entered. -/
def W6 (c : Dev nD) : Valuation τ sig (Elt F) :=
  Pipeline.withArrays spec3 c (W5 m ρ c) fun w => (dat3 (E5 m ρ) c).arrAt w cfg3.N
theorem W6_arr (c : Dev nD) (w : Fin cfg3.W) :
    W6 m ρ c (Proc.devRef .tc (Pipeline.arrRef spec3 w)) = (dat3 (E5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same read at the TensorCore's references. -/
abbrev E6 : (c : Dev nD) → (b : Ref sig .tc) → Buf (Elt F) ((c : Thread nD τ).loc b) := fun c b => W6 m ρ c b
theorem hF3 (c : Dev nD) (w : Fin cfg3.W) : (dat3 (E5 m ρ) c).arrAt w cfg3.N = E6 m ρ c (Pipeline.arrRef spec3 w) :=
  (W6_arr m ρ c w).symm
theorem hrest3 (c : Dev nD) : ∀ b, b ∉ Finset.univ.image (Pipeline.arrRef spec3) → E6 m ρ c b = E5 m ρ c b :=
  fun b hb => W6_of_ne m ρ c b fun w e => hb (Finset.mem_image.mpr ⟨w, Finset.mem_univ _, e⟩)

/-! ### No host operation and no launch writes an argument array -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := StableHlo.after_of_writes_sub hostOps2 _ Gen.hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ Gen.hostOps0_writes (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := StableHlo.after_of_writes_sub hostOps2 _ Gen.hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ Gen.hostOps0_writes (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := StableHlo.after_of_writes_sub hostOps2 _ Gen.hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ Gen.hostOps0_writes (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := StableHlo.after_of_writes_sub hostOps2 _ Gen.hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ Gen.hostOps0_writes (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := StableHlo.after_of_writes_sub hostOps2 _ Gen.hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ Gen.hostOps0_writes (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := StableHlo.after_of_writes_sub hostOps2 _ Gen.hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ Gen.hostOps0_writes (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := StableHlo.after_of_writes_sub hostOps2 _ Gen.hostOps2_writes (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ Gen.hostOps0_writes (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := StableHlo.after_of_writes_sub hostOps2 _ Gen.hostOps2_writes (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ Gen.hostOps0_writes (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := StableHlo.after_of_writes_sub hostOps2 _ Gen.hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ Gen.hostOps0_writes (by decide)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := StableHlo.after_of_writes_sub hostOps2 _ Gen.hostOps2_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ Gen.hostOps0_writes (by decide)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := StableHlo.after_of_writes_sub hostOps2 _ Gen.hostOps2_writes (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ Gen.hostOps0_writes (by decide)
    _ = m ((c : Thread nD τ).loc main_arg10) := rfl
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := StableHlo.after_of_writes_sub hostOps2 _ Gen.hostOps2_writes (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ Gen.hostOps0_writes (by decide)
    _ = m ((c : Thread nD τ).loc main_arg11) := rfl
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := StableHlo.after_of_writes_sub hostOps2 _ Gen.hostOps2_writes (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ Gen.hostOps0_writes (by decide)
    _ = m ((c : Thread nD τ).loc main_arg12) := rfl
theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := W5_of_ne m ρ c main_arg13 (by decide)
    _ = W3 m ρ c (Proc.devRef .tc main_arg13) := StableHlo.after_of_writes_sub hostOps2 _ Gen.hostOps2_writes (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_writes_sub hostOps0 _ Gen.hostOps0_writes (by decide)
    _ = m ((c : Thread nD τ).loc main_arg13) := rfl

/-! ### The four results are what the attention pipelines leave -/

theorem W6_v19_1 (c : Dev nD) : W6 m ρ c (Proc.devRef .tc main_v19_1) = (dat3 (E5 m ρ) c).arrAt 4 cfg3.N := W6_arr m ρ c 4
theorem W6_v19_0 (c : Dev nD) : W6 m ρ c (Proc.devRef .tc main_v19_0) = (dat3 (E5 m ρ) c).arrAt 3 cfg3.N := W6_arr m ρ c 3
theorem W6_v18_1 (c : Dev nD) : W6 m ρ c (Proc.devRef .tc main_v18_1) = (dat2 (E4 m ρ) c).arrAt 4 cfg2.N :=
  (W6_of_ne m ρ c main_v18_1 (by decide)).trans (W5_arr m ρ c 4)
theorem W6_v18_0 (c : Dev nD) : W6 m ρ c (Proc.devRef .tc main_v18_0) = (dat2 (E4 m ρ) c).arrAt 3 cfg2.N :=
  (W6_of_ne m ρ c main_v18_0 (by decide)).trans (W5_arr m ρ c 3)

/-! ## The proof data family and the thread state -/

/-- No pipeline has a prefetched table. -/
abbrev adm4 : (p : Fin 4) → (pcfgs (F := F) p).Adm := fun p => (cfgs p).toPCfg_adm
/-- Every pipeline's proof data, each at its launch's entry contents. -/
def pdats4 : (p : Fin 4) → (c : Dev nD) → Dat τ (Elt F) Unit ℕ (UR sig nD τ) ℕ (Pipeline.pin (pcfgs (F := F)) adm4 p) c
  | ⟨0, _⟩ => fun c => dat0 (E1 m ρ) c
  | ⟨1, _⟩ => fun c => dat1 (E2 m ρ) c
  | ⟨2, _⟩ => fun c => dat2 (E4 m ρ) c
  | ⟨3, _⟩ => fun c => dat3 (E5 m ρ) c
abbrev 𝒱n : Variants := Variants.none
abbrev Ln : GSem nD τ sig → Finset Unit := fun _ => ∅
abbrev lvn : GSem nD τ sig → Unit → ℕ := fun _ _ => 0
/-- What rides beside the buffers through every item: the core's generator register at some state, and nothing owed. -/
abbrev Rr (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tn (c : Dev nD) : sProp 𝕄 := iprop(StableHlo.held (c : Thread nD τ) (Pipeline.ucRefs τ sig) (W6 m ρ c) ∗ ∃ r, prngReg c r)

/-! ## The launches as segments -/

set_option backward.isDefEq.respectTransparency.types false in
/-- Launch 0 over the thread state: entered from every unscoped buffer at `W1`, left at `W2`.  Its arrays are split
    out of the unscoped buffers and put back at the exit contents; the generator register goes into the pipeline's
    invariant and comes back; nothing is owed; the kernel has no semaphore of its own. -/
def reg0 : Pipeline.RegionSeg (pcfgs (F := F)) adm4 (pdats4 m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Ln lvn 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm4 (pdats4 m ρ) launch0.win launch0.arr_whole c
      ((pdats4 m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats4 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats4 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm4 (Ix := Unit) (Name := ℕ) (U := UR sig nD τ) (Lvl := ℕ)
      launch0.win launch0.arr_whole c (pdats4 m ρ) ((pdats4 m ρ 0 c).share_full fun _ => rfl)
      (E1 m ρ c) (E2 m ρ c) ((pdats4 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W2`, left at `W3`.  Its arrays are split
    out of the unscoped buffers and put back at the exit contents; the generator register goes into the pipeline's
    invariant and comes back; nothing is owed; the kernel has no semaphore of its own. -/
def reg1 : Pipeline.RegionSeg (pcfgs (F := F)) adm4 (pdats4 m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ Ln lvn 1 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm4 (pdats4 m ρ) launch1.win launch1.arr_whole c
      ((pdats4 m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats4 m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats4 m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm4 (Ix := Unit) (Name := ℕ) (U := UR sig nD τ) (Lvl := ℕ)
      launch1.win launch1.arr_whole c (pdats4 m ρ) ((pdats4 m ρ 1 c).share_full fun _ => rfl)
      (E2 m ρ c) (E3 m ρ c) ((pdats4 m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W4`, left at `W5`.  Its arrays are split
    out of the unscoped buffers and put back at the exit contents; the generator register goes into the pipeline's
    invariant and comes back; nothing is owed; the kernel has no semaphore of its own. -/
def reg2 : Pipeline.RegionSeg (pcfgs (F := F)) adm4 (pdats4 m ρ) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ Ln lvn 2 fun _ _ => rfl
  pre c := iprop(StableHlo.held (c : Thread nD τ) (Pipeline.ucRefs τ sig) (W4 m ρ c) ∗ Rr c)
  post c := iprop(StableHlo.held (c : Thread nD τ) (Pipeline.ucRefs τ sig) (W5 m ρ c) ∗ Rr c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm4 (pdats4 m ρ) launch2.win launch2.arr_whole c
      ((pdats4 m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats4 m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats4 m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm4 (Ix := Unit) (Name := ℕ) (U := UR sig nD τ) (Lvl := ℕ)
      launch2.win launch2.arr_whole c (pdats4 m ρ) ((pdats4 m ρ 2 c).share_full fun _ => rfl)
      (E4 m ρ c) (E5 m ρ c) ((pdats4 m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered from every unscoped buffer at `W5`, left at `W6`.  Its arrays are split
    out of the unscoped buffers and put back at the exit contents; the generator register goes into the pipeline's
    invariant and comes back; nothing is owed; the kernel has no semaphore of its own. -/
def reg3 : Pipeline.RegionSeg (pcfgs (F := F)) adm4 (pdats4 m ρ) () defs₀ 𝒱n Ln lvn 3 where
  win := launch3.win.to₀
  block_pos := launch3.block_pos
  stage_whole := launch3.stage_whole
  K := PEmpty
  osem k := k.elim
  ho := Pipeline.OwnSemFacts.none _
  hbody c := (body_obligation3 (E5 m ρ) c).loose
  hwaits := Pipeline.hwaits_of_owed_zero _ _ _ _ Ln lvn 3 fun _ _ => rfl
  pre c := iprop(StableHlo.held (c : Thread nD τ) (Pipeline.ucRefs τ sig) (W5 m ρ c) ∗ Rr c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E5 m ρ c)
  hentry c := by
    rw [Pipeline.ownSems0_none]
    have hsplit := Pipeline.arrays_of_unscopedBufs (p := 3) (pcfgs (F := F)) adm4 (pdats4 m ρ) launch3.win launch3.arr_whole c
      ((pdats4 m ρ 3 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats4 m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats4 m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm4 (Ix := Unit) (Name := ℕ) (U := UR sig nD τ) (Lvl := ℕ)
      launch3.win launch3.arr_whole c (pdats4 m ρ) ((pdats4 m ρ 3 c).share_full fun _ => rfl)
      (E5 m ρ c) (E6 m ρ c) ((pdats4 m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs4 : List (Pipeline.Seg (pcfgs (F := F)) adm4 (pdats4 m ρ) () defs₀ 𝒱n Ln lvn) :=
  [ .host (hseg hostOps0 hostOps0_sub Gen.hostOps0_fresh (W0 m ρ)),
    .region (reg0 m ρ),
    .region (reg1 m ρ),
    .host (hseg hostOps2 hostOps2_sub Gen.hostOps2_fresh (W3 m ρ)),
    .region (reg2 m ρ),
    .region (reg3 m ρ) ]
theorem main_run (c : Dev nD) : main (F := F) c = Pipeline.Seg.run (segs4 m ρ) := (main_chain c).trans (by chain_rfl)

set_option backward.isDefEq.respectTransparency.types false in
/-- Every weakly fair execution of @main from memory `m` with zero counters terminates, nothing faulting, and every
    final state has every unscoped buffer of every core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm4 (pdats4 m ρ) () cellOf_inj emb₁ defs₀ 𝒱n Ln lvn m ρ main (segs4 m ρ)
    (fun c Q => by rw [main_run m ρ c])
    (by simp only [segs4, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tn m ρ)
    (hch := ⟨fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c)⟩) (run_all m ρ)

end Cert.KernelIdeal.Fr

end
-- ==== Proof.Spec.lean ====
/-
  The mathematics both programs compute, stated once over the extended reals with no program in sight.

  Two inputs x1, x2 of 8192 rows and 1024 features are each sent through three linear layers (query, key, value):
  entry (p, q) of a layer is row p of the input times column q of the weight matrix, plus the bias at q.
  In each direction the GATE of a query row i against a key row j is the logistic function of their inner
  product scaled by 2⁻⁵ (no normalisation over j: the gates are sigmoids, not a softmax), and the CONTEXT of
  query row i is the gate-weighted sum of all 8192 value rows.
-/
import Idealize.ShloMosaic.PureOps.Ideal
import Idealize.ShloMosaic.Lib.ValueIdx

noncomputable section

namespace Cert.CrossAttn

open Idealize.ShloMosaic Idealize.ShloMosaic.ValueIdx

/-- An input, a projection or a context: 8192 rows of 1024 features. -/
abbrev SX : Shape := ⟨2, ![8192, 1024]⟩
/-- A weight matrix. -/
abbrev SW : Shape := ⟨2, ![1024, 1024]⟩
/-- A bias vector. -/
abbrev SB : Shape := ⟨1, ![1024]⟩
/-- A table of gates: every query row against every key row. -/
abbrev SP : Shape := ⟨2, ![8192, 8192]⟩

/-- Entry (p, q) of a linear layer: Σₖ x(p,k)·W(k,q) + b(q). -/
def lin (x : FVec Ideal SX .f32) (W : FVec Ideal SW .f32) (b : FVec Ideal SB .f32) (p : Fin 8192) (q : Fin 1024) : EReal :=
  (∑ k : Fin 1024, x (ix2 p k) * W (ix2 k q)) + b (ix1 q)

/-- The layer as an array. -/
def linA (x : FVec Ideal SX .f32) (W : FVec Ideal SW .f32) (b : FVec Ideal SB .f32) : FVec Ideal SX .f32 :=
  fun i => lin x W b (i 0) (i 1)

/-- The scale 2⁻⁵ = 1/√1024 the scores are multiplied by, as the float word both programs carry. -/
def scale : EReal := Ideal.ofBits .f32 0x3D000000#32

/-- Gate (i, j): the logistic function of the scaled inner product of query row i and key row j. -/
def gate (q k : FVec Ideal SX .f32) (i j : Fin 8192) : EReal :=
  Ideal.logistic ((∑ d : Fin 1024, q (ix2 i d) * k (ix2 j d)) * scale)

/-- The gates as an array. -/
def gateA (q k : FVec Ideal SX .f32) : FVec Ideal SP .f32 := fun i => gate q k (i 0) (i 1)

/-- Context (i, d): Σⱼ g(i,j)·v(j,d) over all 8192 key rows. -/
def ctx (g : FVec Ideal SP .f32) (v : FVec Ideal SX .f32) (i : Fin 8192) (d : Fin 1024) : EReal :=
  ∑ j : Fin 8192, g (ix2 i j) * v (ix2 j d)

/-- The contexts as an array. -/
def ctxA (g : FVec Ideal SP .f32) (v : FVec Ideal SX .f32) : FVec Ideal SX .f32 := fun i => ctx g v (i 0) (i 1)

/-- One direction's gates: queries projected from `xq`, keys from `xk`. -/
def probs (xq xk : FVec Ideal SX .f32) (Wq : FVec Ideal SW .f32) (bq : FVec Ideal SB .f32)
    (Wk : FVec Ideal SW .f32) (bk : FVec Ideal SB .f32) : FVec Ideal SP .f32 :=
  gateA (linA xq Wq bq) (linA xk Wk bk)

/-- One direction's contexts: the gates weighting the values projected from `xk`. -/
def context (xq xk : FVec Ideal SX .f32) (Wq : FVec Ideal SW .f32) (bq : FVec Ideal SB .f32)
    (Wk : FVec Ideal SW .f32) (bk : FVec Ideal SB .f32) (Wv : FVec Ideal SW .f32) (bv : FVec Ideal SB .f32) : FVec Ideal SX .f32 :=
  ctxA (probs xq xk Wq bq Wk bk) (linA xk Wv bv)

/-- Row k of the b-th run of 1024 consecutive rows among 8192. -/
def blk (b : Fin 8) (k : Fin 1024) : Fin 8192 := ⟨b.val * 1024 + k.val, by omega⟩

end Cert.CrossAttn

end
-- ==== Proof.Payloads.lean ====
/-
  The arithmetic of the kernel bodies, read at one entry, over the extended reals.

  The projection body stores x·W + b: entry (p, q) is Σₖ x(p,k)·W(k,q) plus the bias row at q.
  The attention body stores three things: a table of zeros; the gates, entry (i, j) being the logistic function of
  the scaled inner product of query row i and key row j; and the running contexts, entry (i, d) being the value
  already there plus Σₖ gate(i,k)·v(k,d) over the 1024 key rows of the current run.
-/
import proofs.«123356_j644245095138_2_alg».proof.Proof.Gen.KernelIdeal.Skeleton
import proofs.«123356_j644245095138_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.CrossAttn.Pay

open Idealize.ShloMosaic Idealize.ShloMosaic.ValueIdx Idealize.SL.Sem Cert.KernelIdeal Cert.KernelIdeal.Gen

/-! ## The three products into a zero accumulator, at an entry

For each product: the factor indices at output entry j and contraction position c, coordinate by coordinate (the
free axis reads j, the contracted axis reads c), and then the entry as a sum over the 1024 contraction positions. -/

/-! ### x·W for a [1024,1024] by [1024,3072] product: entry (p, q) is Σₖ a(p,k)·b(k,q) -/
theorem mm_proj_ln (j : S1024x3072.Idx) (c : dot_S1024x1024_S1024x3072_S1024x3072_1_0_0_1_n_n.contr.Idx) :
    (dot_S1024x1024_S1024x3072_S1024x3072_1_0_0_1_n_n.lhsIdx j c 0).val = (j 0).val := by
  unfold DotDims.lhsIdx
  rw [dif_neg (show ¬(0 : Fin S1024x1024.rank) ∈ dot_S1024x1024_S1024x3072_S1024x3072_1_0_0_1_n_n.lhsBatch by decide),
    dif_pos (show (0 : Fin S1024x1024.rank) ∈ dot_S1024x1024_S1024x3072_S1024x3072_1_0_0_1_n_n.lhsNonContracting by decide)]
  rfl
theorem mm_proj_lc (j : S1024x3072.Idx) (c : dot_S1024x1024_S1024x3072_S1024x3072_1_0_0_1_n_n.contr.Idx) :
    (dot_S1024x1024_S1024x3072_S1024x3072_1_0_0_1_n_n.lhsIdx j c 1).val = (c ⟨0, by decide⟩).val :=
  dot_S1024x1024_S1024x3072_S1024x3072_1_0_0_1_n_n.lhsIdx_val_of_single rfl j c
theorem mm_proj_rn (j : S1024x3072.Idx) (c : dot_S1024x1024_S1024x3072_S1024x3072_1_0_0_1_n_n.contr.Idx) :
    (dot_S1024x1024_S1024x3072_S1024x3072_1_0_0_1_n_n.rhsIdx j c 1).val = (j 1).val := by
  unfold DotDims.rhsIdx
  rw [dif_neg (show ¬(1 : Fin S1024x3072.rank) ∈ dot_S1024x1024_S1024x3072_S1024x3072_1_0_0_1_n_n.rhsBatch by decide),
    dif_pos (show (1 : Fin S1024x3072.rank) ∈ dot_S1024x1024_S1024x3072_S1024x3072_1_0_0_1_n_n.rhsNonContracting by decide)]
  rfl
theorem mm_proj_rc (j : S1024x3072.Idx) (c : dot_S1024x1024_S1024x3072_S1024x3072_1_0_0_1_n_n.contr.Idx) :
    (dot_S1024x1024_S1024x3072_S1024x3072_1_0_0_1_n_n.rhsIdx j c 0).val = (c ⟨0, by decide⟩).val :=
  dot_S1024x1024_S1024x3072_S1024x3072_1_0_0_1_n_n.rhsIdx_val_of_single rfl j c
theorem mm_proj (a : FVec Ideal S1024x1024 .bf16) (b : FVec Ideal S1024x3072 .bf16) (p : Fin 1024) (q : Fin 3072) :
    FloatOps.matmul dot_S1024x1024_S1024x3072_S1024x3072_1_0_0_1_n_n none a b (constant S1024x3072 .f32 0x00000000#32) (ix2 p q)
      = ∑ k : Fin 1024, a (ix2 p k) * b (ix2 k q) := by
  rw [Ideal.matmul_constant_zero_apply, ← Equiv.sum_comp (contrEquiv1 dot_S1024x1024_S1024x3072_S1024x3072_1_0_0_1_n_n 1024 rfl rfl).symm]
  refine Finset.sum_congr rfl fun k _ => ?_
  have hk := contrEquiv1_symm_val dot_S1024x1024_S1024x3072_S1024x3072_1_0_0_1_n_n 1024 rfl rfl k
  have el : dot_S1024x1024_S1024x3072_S1024x3072_1_0_0_1_n_n.lhsIdx (ix2 p q) ((contrEquiv1 dot_S1024x1024_S1024x3072_S1024x3072_1_0_0_1_n_n 1024 rfl rfl).symm k) = ix2 p k :=
    funext fun c => Fin.ext (by
      match c with
      | ⟨0, _⟩ => exact mm_proj_ln _ _
      | ⟨1, _⟩ => exact (mm_proj_lc _ _).trans hk)
  have er : dot_S1024x1024_S1024x3072_S1024x3072_1_0_0_1_n_n.rhsIdx (ix2 p q) ((contrEquiv1 dot_S1024x1024_S1024x3072_S1024x3072_1_0_0_1_n_n 1024 rfl rfl).symm k) = ix2 k q :=
    funext fun c => Fin.ext (by
      match c with
      | ⟨0, _⟩ => exact (mm_proj_rc _ _).trans hk
      | ⟨1, _⟩ => exact mm_proj_rn _ _)
  rw [el, er]

/-! ### q·kᵀ, both factors contracted along their trailing axis: entry (p, q) is Σₖ a(p,k)·b(q,k) -/
theorem mm_nt_ln (j : S1024x1024.Idx) (c : dot_S1024x1024_S1024x1024_S1024x1024_1_1_0_0_n_n.contr.Idx) :
    (dot_S1024x1024_S1024x1024_S1024x1024_1_1_0_0_n_n.lhsIdx j c 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem mm_nt_lc (j : S1024x1024.Idx) (c : dot_S1024x1024_S1024x1024_S1024x1024_1_1_0_0_n_n.contr.Idx) :
    (dot_S1024x1024_S1024x1024_S1024x1024_1_1_0_0_n_n.lhsIdx j c 1).val = (c ⟨0, by decide⟩).val :=
  dot_S1024x1024_S1024x1024_S1024x1024_1_1_0_0_n_n.lhsIdx_val_of_single rfl j c
theorem mm_nt_rn (j : S1024x1024.Idx) (c : dot_S1024x1024_S1024x1024_S1024x1024_1_1_0_0_n_n.contr.Idx) :
    (dot_S1024x1024_S1024x1024_S1024x1024_1_1_0_0_n_n.rhsIdx j c 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem mm_nt_rc (j : S1024x1024.Idx) (c : dot_S1024x1024_S1024x1024_S1024x1024_1_1_0_0_n_n.contr.Idx) :
    (dot_S1024x1024_S1024x1024_S1024x1024_1_1_0_0_n_n.rhsIdx j c 1).val = (c ⟨0, by decide⟩).val :=
  dot_S1024x1024_S1024x1024_S1024x1024_1_1_0_0_n_n.rhsIdx_val_of_single rfl j c
theorem mm_nt (a : FVec Ideal S1024x1024 .bf16) (b : FVec Ideal S1024x1024 .bf16) (p : Fin 1024) (q : Fin 1024) :
    FloatOps.matmul dot_S1024x1024_S1024x1024_S1024x1024_1_1_0_0_n_n none a b (constant S1024x1024 .f32 0x00000000#32) (ix2 p q)
      = ∑ k : Fin 1024, a (ix2 p k) * b (ix2 q k) := by
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k :=
    funext fun c => Fin.ext (by
      match c with
      | ⟨0, _⟩ => exact mm_nt_ln _ _
      | ⟨1, _⟩ => exact (mm_nt_lc _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k :=
    funext fun c => Fin.ext (by
      match c with
      | ⟨0, _⟩ => exact mm_nt_rn _ _
      | ⟨1, _⟩ => exact (mm_nt_rc _ _).trans hk)
  rw [el, er]

/-! ### g·v for square [1024,1024] factors: entry (p, q) is Σₖ a(p,k)·b(k,q) -/
theorem mm_nn_ln (j : S1024x1024.Idx) (c : dot_S1024x1024_S1024x1024_S1024x1024_1_0_0_1_n_n.contr.Idx) :
    (dot_S1024x1024_S1024x1024_S1024x1024_1_0_0_1_n_n.lhsIdx j c 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem mm_nn_lc (j : S1024x1024.Idx) (c : dot_S1024x1024_S1024x1024_S1024x1024_1_0_0_1_n_n.contr.Idx) :
    (dot_S1024x1024_S1024x1024_S1024x1024_1_0_0_1_n_n.lhsIdx j c 1).val = (c ⟨0, by decide⟩).val :=
  dot_S1024x1024_S1024x1024_S1024x1024_1_0_0_1_n_n.lhsIdx_val_of_single rfl j c
theorem mm_nn_rn (j : S1024x1024.Idx) (c : dot_S1024x1024_S1024x1024_S1024x1024_1_0_0_1_n_n.contr.Idx) :
    (dot_S1024x1024_S1024x1024_S1024x1024_1_0_0_1_n_n.rhsIdx j c 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl
theorem mm_nn_rc (j : S1024x1024.Idx) (c : dot_S1024x1024_S1024x1024_S1024x1024_1_0_0_1_n_n.contr.Idx) :
    (dot_S1024x1024_S1024x1024_S1024x1024_1_0_0_1_n_n.rhsIdx j c 0).val = (c ⟨0, by decide⟩).val :=
  dot_S1024x1024_S1024x1024_S1024x1024_1_0_0_1_n_n.rhsIdx_val_of_single rfl j c
theorem mm_nn (a : FVec Ideal S1024x1024 .bf16) (b : FVec Ideal S1024x1024 .bf16) (p : Fin 1024) (q : Fin 1024) :
    FloatOps.matmul dot_S1024x1024_S1024x1024_S1024x1024_1_0_0_1_n_n none a b (constant S1024x1024 .f32 0x00000000#32) (ix2 p q)
      = ∑ k : Fin 1024, a (ix2 p k) * b (ix2 k q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k :=
    funext fun c => Fin.ext (by
      match c with
      | ⟨0, _⟩ => exact mm_nn_ln _ _
      | ⟨1, _⟩ => exact (mm_nn_lc _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q :=
    funext fun c => Fin.ext (by
      match c with
      | ⟨0, _⟩ => exact (mm_nn_rc _ _).trans hk
      | ⟨1, _⟩ => exact mm_nn_rn _ _)
  rw [el, er]

/-! ## The projection body: x·W + b at entry (p, q)

The body is the product into a zero accumulator, plus the bias row repeated down the 1024 rows; the final change of
float format is the identity on extended reals. -/

theorem pay_proj (v0 : Vec Ideal S1024x1024 .bf16) (v2 : Vec Ideal S1024x3072 .bf16) (v5 : Vec Ideal S1x3072 .f32)
    (p : Fin 1024) (q : Fin 3072) :
    k0_pay1 v0 v2 v5 (ix2 p q) = (∑ k : Fin 1024, v0 (ix2 p k) * v2 (ix2 k q)) + v5 (ix2 (0 : Fin 1) q) := by
  unfold k0_pay1
  simp only [shapeCast_self]
  rw [truncf_apply, addf_apply]
  refine congrArg₂ (· + ·) (mm_proj v0 v2 p q) ?_
  exact broadcastTo_apply v5 broadcasts_S1x3072_S1024x3072 (ix2 p q) (ix2 (0 : Fin 1) q) (fun a => match a with
    | ⟨0, _⟩ => by show 0 = if (1 : Nat) = 1 then 0 else p.val; rw [if_pos rfl]
    | ⟨1, _⟩ => by show q.val = if (3072 : Nat) = 1 then 0 else q.val; rw [if_neg (by decide)])

theorem pay_proj' (v0 : Vec Ideal S1024x1024 .bf16) (v2 : Vec Ideal S1024x3072 .bf16) (v5 : Vec Ideal S1x3072 .f32)
    (p : Fin 1024) (q : Fin 3072) :
    k1_pay1 v0 v2 v5 (ix2 p q) = (∑ k : Fin 1024, v0 (ix2 p k) * v2 (ix2 k q)) + v5 (ix2 (0 : Fin 1) q) := by
  unfold k1_pay1
  simp only [shapeCast_self]
  rw [truncf_apply, addf_apply]
  refine congrArg₂ (· + ·) (mm_proj v0 v2 p q) ?_
  exact broadcastTo_apply v5 broadcasts_S1x3072_S1024x3072 (ix2 p q) (ix2 (0 : Fin 1) q) (fun a => match a with
    | ⟨0, _⟩ => by show 0 = if (1 : Nat) = 1 then 0 else p.val; rw [if_pos rfl]
    | ⟨1, _⟩ => by show q.val = if (3072 : Nat) = 1 then 0 else q.val; rw [if_neg (by decide)])

/-! ## The attention body

The zero table; the gates (the product q·kᵀ, scaled, through the logistic function); and the running contexts
(the value already there plus the gates times the value rows of the current run). -/

theorem pay_zero (i : S1024x1024.Idx) : k2_pay1 (F := Ideal) i = 0 := by
  unfold k2_pay1
  show Ideal.ofBits .f32 0x00000000#32 = 0
  exact Ideal.ofBits_zero_f32

theorem pay_gate (v3 v5 : Vec Ideal S1024x1024 .bf16) (i j : Fin 1024) :
    k2_pay2 v3 v5 (ix2 i j) = Ideal.logistic ((∑ d : Fin 1024, v3 (ix2 i d) * v5 (ix2 j d)) * Cert.CrossAttn.scale) := by
  unfold k2_pay2
  simp only [shapeCast_self]
  show Ideal.logistic ((FloatOps.matmul (F := Ideal) dot_S1024x1024_S1024x1024_S1024x1024_1_1_0_0_n_n none v3 v5
    (constant S1024x1024 .f32 0x00000000#32) (ix2 i j) : EReal) * Ideal.ofBits .f32 0x3D000000#32) = _
  rw [mm_nt v3 v5 i j]
  rfl

theorem pay_acc (v3 v5 v7 : Vec Ideal S1024x1024 .bf16) (v15 : Vec Ideal S1024x1024 .f32) (i d : Fin 1024) :
    k2_pay3 v3 v5 v7 v15 (ix2 i d) = v15 (ix2 i d) + ∑ k : Fin 1024, k2_pay2 v3 v5 (ix2 i k) * v7 (ix2 k d) := by
  unfold k2_pay3
  simp only [shapeCast_self]
  rw [addf_apply]
  exact congrArg (v15 (ix2 i d) + ·) (mm_nn (truncf .bf16 (k2_pay2 v3 v5) bitsLt_bf16_f32) v7 i d)

theorem pay_zero' (i : S1024x1024.Idx) : k3_pay1 (F := Ideal) i = 0 := by
  unfold k3_pay1
  show Ideal.ofBits .f32 0x00000000#32 = 0
  exact Ideal.ofBits_zero_f32

theorem pay_gate' (v3 v5 : Vec Ideal S1024x1024 .bf16) (i j : Fin 1024) :
    k3_pay2 v3 v5 (ix2 i j) = Ideal.logistic ((∑ d : Fin 1024, v3 (ix2 i d) * v5 (ix2 j d)) * Cert.CrossAttn.scale) := by
  unfold k3_pay2
  simp only [shapeCast_self]
  show Ideal.logistic ((FloatOps.matmul (F := Ideal) dot_S1024x1024_S1024x1024_S1024x1024_1_1_0_0_n_n none v3 v5
    (constant S1024x1024 .f32 0x00000000#32) (ix2 i j) : EReal) * Ideal.ofBits .f32 0x3D000000#32) = _
  rw [mm_nt v3 v5 i j]
  rfl

theorem pay_acc' (v3 v5 v7 : Vec Ideal S1024x1024 .bf16) (v15 : Vec Ideal S1024x1024 .f32) (i d : Fin 1024) :
    k3_pay3 v3 v5 v7 v15 (ix2 i d) = v15 (ix2 i d) + ∑ k : Fin 1024, k3_pay2 v3 v5 (ix2 i k) * v7 (ix2 k d) := by
  unfold k3_pay3
  simp only [shapeCast_self]
  rw [addf_apply]
  exact congrArg (v15 (ix2 i d) + ·) (mm_nn (truncf .bf16 (k3_pay2 v3 v5) bitsLt_bf16_f32) v7 i d)

end Cert.CrossAttn.Pay

end
-- ==== Proof.ValCommon.lean ====
/-
  What a linear-layer launch leaves, as ONE function of the three arrays it reads: entry (p, q) of the 8192×3072 result
  is row p of the input times column q of the joined weight matrix, plus the joined bias row at q.
-/
import proofs.«123356_j644245095138_2_alg».proof.KernelIdeal
import proofs.«123356_j644245095138_2_alg».proof.Proof.Spec
import Idealize.ShloMosaic.Lib.Pipeline.Value
import Idealize.ShloMosaic.Lib.ValueIdx

set_option maxRecDepth 16384

noncomputable section

namespace Cert.KernelIdeal.Val

open Cert.KernelIdeal
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- Entry (p, q): Σₖ x(p,k)·w(k,q) + b(0,q). -/
def gp (x : FVec Ideal S8192x1024 .bf16) (w : FVec Ideal S1024x3072 .bf16) (b : FVec Ideal S1x3072 .f32) (p : Fin 8192) (q : Fin 3072) : EReal :=
  (∑ k : Fin 1024, x (ix2 p k) * w (ix2 k q)) + b (ix2 (0 : Fin 1) q)

/-- The result as an array. -/
def GP (x : FVec Ideal S8192x1024 .bf16) (w : FVec Ideal S1024x3072 .bf16) (b : FVec Ideal S1x3072 .f32) : FVec Ideal S8192x3072 .bf16 :=
  fun i => gp x w b (i 0) (i 1)

end Cert.KernelIdeal.Val

end
-- ==== Proof.ValProj0.lean ====
/-
  The value of linear-layer launch 0 at exact arithmetic: its 8192×3072 result array, after the run, is the function
  `GP` of the three arrays its windows read, as the launch finds them.  Point t reads rows 1024·t … 1024·t+1023 of
  the input and the whole weight matrix and bias row, and writes back rows 1024·t … 1024·t+1023 of the result; the
  eight row blocks cover the array.
-/
import proofs.«123356_j644245095138_2_alg».proof.Proof.FrProj0
import proofs.«123356_j644245095138_2_alg».proof.Proof.Payloads
import proofs.«123356_j644245095138_2_alg».proof.Proof.ValCommon
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

open Cert.CrossAttn.Pay

variable (V : (c : Dev nD) → (b : Ref sig .tc) → Buf (Elt Ideal) ((c : Thread nD τ).loc b))

/-- The printed index maps, decided over the eight points: the input and the result move down by one row block per point;
    the weight matrix and the bias row stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's value at an entry, over any three blocks. -/
theorem pay_at0 (b0 : Vec Ideal S1024x1024 .bf16) (b1 : Vec Ideal S1024x3072 .bf16) (b2 : Vec Ideal S1x3072 .f32) (y : S1024x3072.Idx) :
    k0_pay1 b0 b1 b2 y = (∑ k : Fin 1024, b0 (ix2 (y 0) k) * b1 (ix2 k (y 1))) + b2 (ix2 (0 : Fin 1) (y 1)) :=
  (congrArg (k0_pay1 b0 b1 b2) (eq_ix2 y)).trans (pay_proj b0 b1 b2 (y 0) (y 1))

/-- The input block at point t, at (p, k), is the input array at (1024·t + p, k). -/
theorem rd0_0 (c : Dev nD) (t : Fin cfg0.N) (p k : Fin 1024) (P : Fin 8192) (hP : P.val = t.val * 1024 + p.val) :
    iblk0 V c 0 t (ix2 p k) = V c main_v0 (ix2 P k) := by
  unfold iblk0
  rw [View.read_apply]
  show V c main_v0 (((cfg0.win 0).blk t).view.emb (ix2 p k)) = V c main_v0 (ix2 P k)
  obtain ⟨e0, e1, -⟩ := idx_facts0 t
  refine congrArg _ ?_
  funext a; apply Fin.ext
  match a with
  | ⟨0, _⟩ => show win0_0.index t (0 : Fin 2) * 1024 + 1 * p.val = P.val; rw [e0]; omega
  | ⟨1, _⟩ => show win0_0.index t (1 : Fin 2) * 1024 + 1 * k.val = k.val; rw [e1]; omega

/-- The weight block at any point is the whole weight matrix. -/
theorem rd0_1 (c : Dev nD) (t : Fin cfg0.N) (k : Fin 1024) (q : Fin 3072) :
    iblk0 V c 1 t (ix2 k q) = V c main_v3 (ix2 k q) := by
  unfold iblk0
  rw [View.read_apply]
  show V c main_v3 (((cfg0.win 1).blk t).view.emb (ix2 k q)) = V c main_v3 (ix2 k q)
  obtain ⟨-, -, e2, e3, -⟩ := idx_facts0 t
  refine congrArg _ ?_
  funext a; apply Fin.ext
  match a with
  | ⟨0, _⟩ => show win0_1.index t (0 : Fin 2) * 1024 + 1 * k.val = k.val; rw [e2]; omega
  | ⟨1, _⟩ => show win0_1.index t (1 : Fin 2) * 3072 + 1 * q.val = q.val; rw [e3]; omega

/-- The bias block at any point is the whole bias row. -/
theorem rd0_2 (c : Dev nD) (t : Fin cfg0.N) (q : Fin 3072) :
    iblk0 V c 2 t (ix2 (0 : Fin 1) q) = V c main_v5 (ix2 (0 : Fin 1) q) := by
  unfold iblk0
  rw [View.read_apply]
  show V c main_v5 (((cfg0.win 2).blk t).view.emb (ix2 (0 : Fin 1) q)) = V c main_v5 (ix2 (0 : Fin 1) q)
  obtain ⟨-, -, -, -, e4, e5, -⟩ := idx_facts0 t
  refine congrArg _ ?_
  funext a; apply Fin.ext
  match a with
  | ⟨0, _⟩ => show win0_2.index t (0 : Fin 2) * 1 + 1 * 0 = 0; rw [e4]
  | ⟨1, _⟩ => show win0_2.index t (1 : Fin 2) * 3072 + 1 * q.val = q.val; rw [e5]; omega

/-- WHAT POINT t WRITES BACK is block t of `GP` of the three arrays as the launch finds them. -/
theorem flushed0 (c : Dev nD) (t : Fin cfg0.N) :
    (dat0 V c).flushed 3 t = ((cfg0.win 3).blk t).view.read (Elt Ideal) (GP (V c main_v0) (V c main_v3) (V c main_v5)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1024x3072) hz2, View.ld_unit_zero (S := S1x3072) hz2]
  obtain ⟨-, -, -, -, -, -, e6, e7⟩ := idx_facts0 t
  funext j
  show k0_pay1 (iblk0 V c 0 t) (iblk0 V c 1 t) (iblk0 V c 2 t) j
    = gp (V c main_v0) (V c main_v3) (V c main_v5) ((((cfg0.win 3).blk t).view.emb j) 0) ((((cfg0.win 3).blk t).view.emb j) 1)
  have hj0 : (j 0).val < 1024 := (j 0).isLt
  have hj1 : (j 1).val < 3072 := (j 1).isLt
  have h0 : ((((cfg0.win 3).blk t).view.emb j) 0).val = t.val * 1024 + (j 0).val := by
    show win0_3.index t (0 : Fin 2) * 1024 + 1 * (j 0).val = _; rw [e6]; omega
  have h1 : ((((cfg0.win 3).blk t).view.emb j) 1) = (j 1) := by
    apply Fin.ext; show win0_3.index t (1 : Fin 2) * 3072 + 1 * (j 1).val = _; rw [e7]; omega
  refine (pay_at0 (iblk0 V c 0 t) (iblk0 V c 1 t) (iblk0 V c 2 t) j).trans ?_
  unfold gp
  rw [h1, rd0_2 V c t (j 1)]
  refine congrArg (· + _) (Finset.sum_congr rfl fun k _ => ?_)
  rw [rd0_0 V c t (j 0) k _ h0, rd0_1 V c t k (j 1)]

/-- A result index is in point t's block iff each coordinate is in the block's range. -/
theorem mem_blk0 (t : Fin cfg0.N) (i : S8192x3072.Idx) :
    i ∈ ((cfg0.win 3).blk t).view.set ↔ ∀ a : Fin 2, win0_3.index t a * S1024x3072.size a ≤ (i a).val ∧ (i a).val < win0_3.index t a * S1024x3072.size a + S1024x3072.size a := by
  show i ∈ ((View.whole main_v10).slice (win0_3.rect t)).set ↔ _
  rw [View.set_slice_whole, Rect.mem_set_unit]
  exact Iff.rfl

/-- THE RESULT ARRAY after the run: `GP` of the three arrays, everywhere (the eight row blocks cover it). -/
theorem final0 (c : Dev nD) : (dat0 V c).arrAt 3 cfg0.N = GP (V c main_v0) (V c main_v3) (V c main_v5) :=
  (dat0 V c).arrAt_eq_of_cover 3 (GP (V c main_v0) (V c main_v3) (V c main_v5)) (fun t _ => flushed0 V c t) fun i => by
    have hi0 : (i 0).val < 8192 := (i 0).isLt
    have hi1 : (i 1).val < 3072 := (i 1).isLt
    have hN : cfg0.N = 8 := N_0
    refine ⟨⟨(i 0).val / 1024, by rw [hN]; omega⟩, flush0_3 _, ?_⟩
    rw [mem_blk0]
    obtain ⟨-, -, -, -, -, -, e6, e7⟩ := idx_facts0 ⟨(i 0).val / 1024, by rw [hN]; omega⟩
    intro a
    match a with
    | ⟨0, _⟩ => show win0_3.index _ (0 : Fin 2) * 1024 ≤ (i 0).val ∧ (i 0).val < win0_3.index _ (0 : Fin 2) * 1024 + 1024; rw [e6]; dsimp only; omega
    | ⟨1, _⟩ => show win0_3.index _ (1 : Fin 2) * 3072 ≤ (i 1).val ∧ (i 1).val < win0_3.index _ (1 : Fin 2) * 3072 + 3072; rw [e7]; omega

end Cert.KernelIdeal.Val

end
-- ==== Proof.ValProj1.lean ====
/-
  The value of linear-layer launch 1 at exact arithmetic: its 8192×3072 result array, after the run, is the function
  `GP` of the three arrays its windows read, as the launch finds them.  Point t reads rows 1024·t … 1024·t+1023 of
  the input and the whole weight matrix and bias row, and writes back rows 1024·t … 1024·t+1023 of the result; the
  eight row blocks cover the array.
-/
import proofs.«123356_j644245095138_2_alg».proof.Proof.FrProj1
import proofs.«123356_j644245095138_2_alg».proof.Proof.Payloads
import proofs.«123356_j644245095138_2_alg».proof.Proof.ValCommon
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

open Cert.CrossAttn.Pay

variable (V : (c : Dev nD) → (b : Ref sig .tc) → Buf (Elt Ideal) ((c : Thread nD τ).loc b))

/-- The printed index maps, decided over the eight points: the input and the result move down by one row block per point;
    the weight matrix and the bias row stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's value at an entry, over any three blocks. -/
theorem pay_at1 (b0 : Vec Ideal S1024x1024 .bf16) (b1 : Vec Ideal S1024x3072 .bf16) (b2 : Vec Ideal S1x3072 .f32) (y : S1024x3072.Idx) :
    k1_pay1 b0 b1 b2 y = (∑ k : Fin 1024, b0 (ix2 (y 0) k) * b1 (ix2 k (y 1))) + b2 (ix2 (0 : Fin 1) (y 1)) :=
  (congrArg (k1_pay1 b0 b1 b2) (eq_ix2 y)).trans (pay_proj' b0 b1 b2 (y 0) (y 1))

/-- The input block at point t, at (p, k), is the input array at (1024·t + p, k). -/
theorem rd1_0 (c : Dev nD) (t : Fin cfg1.N) (p k : Fin 1024) (P : Fin 8192) (hP : P.val = t.val * 1024 + p.val) :
    iblk1 V c 0 t (ix2 p k) = V c main_v1 (ix2 P k) := by
  unfold iblk1
  rw [View.read_apply]
  show V c main_v1 (((cfg1.win 0).blk t).view.emb (ix2 p k)) = V c main_v1 (ix2 P k)
  obtain ⟨e0, e1, -⟩ := idx_facts1 t
  refine congrArg _ ?_
  funext a; apply Fin.ext
  match a with
  | ⟨0, _⟩ => show win1_0.index t (0 : Fin 2) * 1024 + 1 * p.val = P.val; rw [e0]; omega
  | ⟨1, _⟩ => show win1_0.index t (1 : Fin 2) * 1024 + 1 * k.val = k.val; rw [e1]; omega

/-- The weight block at any point is the whole weight matrix. -/
theorem rd1_1 (c : Dev nD) (t : Fin cfg1.N) (k : Fin 1024) (q : Fin 3072) :
    iblk1 V c 1 t (ix2 k q) = V c main_v7 (ix2 k q) := by
  unfold iblk1
  rw [View.read_apply]
  show V c main_v7 (((cfg1.win 1).blk t).view.emb (ix2 k q)) = V c main_v7 (ix2 k q)
  obtain ⟨-, -, e2, e3, -⟩ := idx_facts1 t
  refine congrArg _ ?_
  funext a; apply Fin.ext
  match a with
  | ⟨0, _⟩ => show win1_1.index t (0 : Fin 2) * 1024 + 1 * k.val = k.val; rw [e2]; omega
  | ⟨1, _⟩ => show win1_1.index t (1 : Fin 2) * 3072 + 1 * q.val = q.val; rw [e3]; omega

/-- The bias block at any point is the whole bias row. -/
theorem rd1_2 (c : Dev nD) (t : Fin cfg1.N) (q : Fin 3072) :
    iblk1 V c 2 t (ix2 (0 : Fin 1) q) = V c main_v9 (ix2 (0 : Fin 1) q) := by
  unfold iblk1
  rw [View.read_apply]
  show V c main_v9 (((cfg1.win 2).blk t).view.emb (ix2 (0 : Fin 1) q)) = V c main_v9 (ix2 (0 : Fin 1) q)
  obtain ⟨-, -, -, -, e4, e5, -⟩ := idx_facts1 t
  refine congrArg _ ?_
  funext a; apply Fin.ext
  match a with
  | ⟨0, _⟩ => show win1_2.index t (0 : Fin 2) * 1 + 1 * 0 = 0; rw [e4]
  | ⟨1, _⟩ => show win1_2.index t (1 : Fin 2) * 3072 + 1 * q.val = q.val; rw [e5]; omega

/-- WHAT POINT t WRITES BACK is block t of `GP` of the three arrays as the launch finds them. -/
theorem flushed1 (c : Dev nD) (t : Fin cfg1.N) :
    (dat1 V c).flushed 3 t = ((cfg1.win 3).blk t).view.read (Elt Ideal) (GP (V c main_v1) (V c main_v7) (V c main_v9)) := by
  show (cfg1.win 3).cut (grid1.coords t) ((dat1 V c).after 3 t) = _
  rw [after1_3]
  unfold out1_3
  rw [View.canon_unit_zero hz2]
  simp only [View.ld_unit_zero (S := S1024x1024) hz2, View.ld_unit_zero (S := S1024x3072) hz2, View.ld_unit_zero (S := S1x3072) hz2]
  obtain ⟨-, -, -, -, -, -, e6, e7⟩ := idx_facts1 t
  funext j
  show k1_pay1 (iblk1 V c 0 t) (iblk1 V c 1 t) (iblk1 V c 2 t) j
    = gp (V c main_v1) (V c main_v7) (V c main_v9) ((((cfg1.win 3).blk t).view.emb j) 0) ((((cfg1.win 3).blk t).view.emb j) 1)
  have hj0 : (j 0).val < 1024 := (j 0).isLt
  have hj1 : (j 1).val < 3072 := (j 1).isLt
  have h0 : ((((cfg1.win 3).blk t).view.emb j) 0).val = t.val * 1024 + (j 0).val := by
    show win1_3.index t (0 : Fin 2) * 1024 + 1 * (j 0).val = _; rw [e6]; omega
  have h1 : ((((cfg1.win 3).blk t).view.emb j) 1) = (j 1) := by
    apply Fin.ext; show win1_3.index t (1 : Fin 2) * 3072 + 1 * (j 1).val = _; rw [e7]; omega
  refine (pay_at1 (iblk1 V c 0 t) (iblk1 V c 1 t) (iblk1 V c 2 t) j).trans ?_
  unfold gp
  rw [h1, rd1_2 V c t (j 1)]
  refine congrArg (· + _) (Finset.sum_congr rfl fun k _ => ?_)
  rw [rd1_0 V c t (j 0) k _ h0, rd1_1 V c t k (j 1)]

/-- A result index is in point t's block iff each coordinate is in the block's range. -/
theorem mem_blk1 (t : Fin cfg1.N) (i : S8192x3072.Idx) :
    i ∈ ((cfg1.win 3).blk t).view.set ↔ ∀ a : Fin 2, win1_3.index t a * S1024x3072.size a ≤ (i a).val ∧ (i a).val < win1_3.index t a * S1024x3072.size a + S1024x3072.size a := by
  show i ∈ ((View.whole main_v11).slice (win1_3.rect t)).set ↔ _
  rw [View.set_slice_whole, Rect.mem_set_unit]
  exact Iff.rfl

/-- THE RESULT ARRAY after the run: `GP` of the three arrays, everywhere (the eight row blocks cover it). -/
theorem final1 (c : Dev nD) : (dat1 V c).arrAt 3 cfg1.N = GP (V c main_v1) (V c main_v7) (V c main_v9) :=
  (dat1 V c).arrAt_eq_of_cover 3 (GP (V c main_v1) (V c main_v7) (V c main_v9)) (fun t _ => flushed1 V c t) fun i => by
    have hi0 : (i 0).val < 8192 := (i 0).isLt
    have hi1 : (i 1).val < 3072 := (i 1).isLt
    have hN : cfg1.N = 8 := N_1
    refine ⟨⟨(i 0).val / 1024, by rw [hN]; omega⟩, flush1_3 _, ?_⟩
    rw [mem_blk1]
    obtain ⟨-, -, -, -, -, -, e6, e7⟩ := idx_facts1 ⟨(i 0).val / 1024, by rw [hN]; omega⟩
    intro a
    match a with
    | ⟨0, _⟩ => show win1_3.index _ (0 : Fin 2) * 1024 ≤ (i 0).val ∧ (i 0).val < win1_3.index _ (0 : Fin 2) * 1024 + 1024; rw [e6]; dsimp only; omega
    | ⟨1, _⟩ => show win1_3.index _ (1 : Fin 2) * 3072 ≤ (i 1).val ∧ (i 1).val < win1_3.index _ (1 : Fin 2) * 3072 + 3072; rw [e7]; omega

end Cert.KernelIdeal.Val

end
-- ==== Proof.Blocks.lean ====
/-
  The sum over the 8192 key rows, regrouped over the 8 runs of 1024 consecutive rows.

  Row j of 8192 is row k of run b with j = 1024·b + k, uniquely; so a sum over all rows is the sum over the runs of the
  sums within each run, and the context of a query row is built up run by run from zero.
-/
import proofs.«123356_j644245095138_2_alg».proof.Proof.Spec
import Mathlib.Algebra.BigOperators.Fin
import Mathlib.Logic.Equiv.Fin.Basic

noncomputable section

namespace Cert.CrossAttn

open Idealize.ShloMosaic Idealize.ShloMosaic.ValueIdx

/-- The pair (run, row within the run) of a row among 8192, as a bijection. -/
def blkEquiv : Fin 8 × Fin 1024 ≃ Fin 8192 where
  toFun p := blk p.1 p.2
  invFun j := (⟨j.val / 1024, by have := j.isLt; omega⟩, ⟨j.val % 1024, Nat.mod_lt _ (by decide)⟩)
  left_inv p := by
    obtain ⟨b, k⟩ := p
    have hb := b.isLt
    have hk := k.isLt
    refine Prod.ext (Fin.ext ?_) (Fin.ext ?_)
    · show (b.val * 1024 + k.val) / 1024 = b.val
      omega
    · show (b.val * 1024 + k.val) % 1024 = k.val
      omega
  right_inv j := Fin.ext (by
    show j.val / 1024 * 1024 + j.val % 1024 = j.val
    omega)

/-- A sum over the 8192 rows is the sum over the 8 runs of the sums over each run's 1024 rows. -/
theorem sum_blk {M : Type*} [AddCommMonoid M] (f : Fin 8192 → M) :
    ∑ j : Fin 8192, f j = ∑ b : Fin 8, ∑ k : Fin 1024, f (blk b k) := by
  rw [← Equiv.sum_comp blkEquiv f, Fintype.sum_prod_type]
  rfl

/-- The context of query row i at feature d, run by run. -/
theorem ctx_blk (g : FVec Ideal SP .f32) (v : FVec Ideal SX .f32) (i : Fin 8192) (d : Fin 1024) :
    ctx g v i d = ∑ b : Fin 8, ∑ k : Fin 1024, g (ix2 i (blk b k)) * v (ix2 (blk b k) d) := by
  unfold ctx
  exact sum_blk fun j => g (ix2 i j) * v (ix2 j d)

/-- The context accumulated over the first n runs. -/
def ctxUpTo (g : FVec Ideal SP .f32) (v : FVec Ideal SX .f32) (i : Fin 8192) (d : Fin 1024) (n : ℕ) : EReal :=
  ∑ b ∈ (Finset.univ : Finset (Fin 8)).filter (·.val < n), ∑ k : Fin 1024, g (ix2 i (blk b k)) * v (ix2 (blk b k) d)

/-- Before the first run nothing is accumulated. -/
theorem ctxUpTo_zero (g : FVec Ideal SP .f32) (v : FVec Ideal SX .f32) (i : Fin 8192) (d : Fin 1024) :
    ctxUpTo g v i d 0 = 0 := by
  unfold ctxUpTo
  rw [Finset.filter_false_of_mem (fun b _ => Nat.not_lt_zero _)]
  exact Finset.sum_empty

/-- Run n adds its own 1024 terms. -/
theorem ctxUpTo_succ (g : FVec Ideal SP .f32) (v : FVec Ideal SX .f32) (i : Fin 8192) (d : Fin 1024) (n : ℕ) (hn : n < 8) :
    ctxUpTo g v i d (n + 1)
      = ctxUpTo g v i d n + ∑ k : Fin 1024, g (ix2 i (blk ⟨n, hn⟩ k)) * v (ix2 (blk ⟨n, hn⟩ k) d) := by
  unfold ctxUpTo
  have hs : (Finset.univ : Finset (Fin 8)).filter (·.val < n + 1)
      = insert (⟨n, hn⟩ : Fin 8) ((Finset.univ : Finset (Fin 8)).filter (·.val < n)) := by
    ext b
    simp only [Finset.mem_filter, Finset.mem_univ, true_and, Finset.mem_insert, Fin.ext_iff]
    omega
  have hnot : (⟨n, hn⟩ : Fin 8) ∉ (Finset.univ : Finset (Fin 8)).filter (·.val < n) := by
    simp only [Finset.mem_filter, Finset.mem_univ, true_and]
    exact Nat.lt_irrefl n
  rw [hs, Finset.sum_insert hnot, add_comm]

/-- After all 8 runs the accumulated value is the context. -/
theorem ctxUpTo_eight (g : FVec Ideal SP .f32) (v : FVec Ideal SX .f32) (i : Fin 8192) (d : Fin 1024) :
    ctxUpTo g v i d 8 = ctx g v i d := by
  unfold ctxUpTo
  rw [Finset.filter_true_of_mem (fun b _ => b.isLt), ctx_blk]

end Cert.CrossAttn

end
-- ==== Proof.ValAttn2.lean ====
/-
  The value of gated-attention launch 2 at exact arithmetic.  Its windows read three 8192×1024 arrays as the launch
  finds them — queries Q, keys K, values V — and after the run its two result arrays are: the gates, entry (i, j) the
  logistic function of the scaled inner product of query row i and key row j; and the contexts, entry (i, d) the sum
  over ALL 8192 key rows j of gate(i, j)·V(j, d).
  Point t = 8·a + b holds query rows 1024·a … and key/value rows 1024·b …; it writes the gates' block (a, b) whole, and
  leaves in the context's buffer the sum over key blocks 0 … b (zeros stored first at b = 0, then each point adds its
  block's gate-weighted value rows to what the point before left): the running sum `ctxUpTo`, by induction on the
  point.  The buffer is written back at b = 7, when the running sum is the whole sum over 8192 rows.
-/
import proofs.«123356_j644245095138_2_alg».proof.Proof.FrAttn2
import proofs.«123356_j644245095138_2_alg».proof.Proof.Payloads
import proofs.«123356_j644245095138_2_alg».proof.Proof.Blocks
import proofs.«123356_j644245095138_2_alg».proof.Proof.ValCommon
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

open Cert.CrossAttn Cert.CrossAttn.Pay

/-! ## What each case of the body leaves, read back from the pieces its run found -/

section Cases
variable {F : FTy → Type} [FloatOps F]

theorem outA3_2 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc : cond2_0 i) (x0 x1 x2 : Vec F S1024x1024 .bf16) :
    out2_A_3 c i arg2 harg2 arg3 harg3 arg4 harg4 arg5 harg5 arg6 harg6 hc x0 x1 x2 = k2_pay2 x0 x1 := by
  unfold out2_A_3
  rw [View.read_writes_eq_canon _ _ _ (cover2_A_3 c i arg2 harg2 arg3 harg3 arg4 harg4 arg5 harg5 arg6 harg6 hc x0 x1 x2)]
  unfold kernelRun2_A
  dsimp only
  rw [View.canon_unit_zero hz2]
  simp only [View.readAt_eq_ld, harg2.read_unread, harg3.read_unread, View.ld_unit_zero (S := S1024x1024) hz2]

theorem outB3_2 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc : ¬cond2_0 i) (x0 x1 x2 : Vec F S1024x1024 .bf16) (xo : Vec F S1024x1024 .f32) :
    out2_B_3 c i arg2 harg2 arg3 harg3 arg4 harg4 arg5 harg5 arg6 harg6 hc x0 x1 x2 xo = k2_pay2 x0 x1 := by
  unfold out2_B_3
  rw [View.read_writes_eq_canon _ _ _ (cover2_B_3 c i arg2 harg2 arg3 harg3 arg4 harg4 arg5 harg5 arg6 harg6 hc x0 x1 x2 xo)]
  unfold kernelRun2_B
  dsimp only
  rw [View.canon_unit_zero hz2]
  simp only [View.readAt_eq_ld, harg2.read_unread, harg3.read_unread, View.ld_unit_zero (S := S1024x1024) hz2]

/-- At the first key block the context's buffer ends at the body's sum over the stored zeros. -/
theorem outA4_2 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc : cond2_0 i) (x0 x1 x2 : Vec F S1024x1024 .bf16) :
    out2_A_4 c i arg2 harg2 arg3 harg3 arg4 harg4 arg5 harg5 arg6 harg6 hc x0 x1 x2 = k2_pay3 x0 x1 x2 (k2_pay1 (F := F)) := by
  unfold out2_A_4
  rw [View.read_writes_eq_canon _ _ _ (cover2_A_4 c i arg2 harg2 arg3 harg3 arg4 harg4 arg5 harg5 arg6 harg6 hc x0 x1 x2)]
  unfold kernelRun2_A
  dsimp only
  sl_unfold_words
  rw [View.canon_cons_unit_zero (S := S1024x1024) hz2, View.readCov_unit_zero (S := S1024x1024) _ hz2]
  simp only [View.readAt_eq_ld, harg2.read_unread, harg3.read_unread, harg4.read_unread, View.ld_unit_zero (S := S1024x1024) hz2]

/-- At a later key block it ends at the body's sum over what it held. -/
theorem outB4_2 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc : ¬cond2_0 i) (x0 x1 x2 : Vec F S1024x1024 .bf16) (xo : Vec F S1024x1024 .f32) :
    out2_B_4 c i arg2 harg2 arg3 harg3 arg4 harg4 arg5 harg5 arg6 harg6 hc x0 x1 x2 xo = k2_pay3 x0 x1 x2 xo := by
  unfold out2_B_4
  rw [View.read_writes_eq_canon _ _ _ (cover2_B_4 c i arg2 harg2 arg3 harg3 arg4 harg4 arg5 harg5 arg6 harg6 hc x0 x1 x2 xo)]
  unfold kernelRun2_B
  dsimp only
  rw [View.canon_unit_zero hz2]
  simp only [View.readAt_eq_ld, harg2.read_unread, harg3.read_unread, harg4.read_unread, harg6.read_unread, View.ld_unit_zero (S := S1024x1024) hz2]

end Cases

/-! ## The three arrays the launch reads, and its windows' blocks -/

variable (V : (c : Dev nD) → (b : Ref sig .tc) → Buf (Elt Ideal) ((c : Thread nD τ).loc b))

/-- Queries, keys and values as the launch finds them. -/
abbrev Qa2 (c : Dev nD) : FVec Ideal SX .f32 := fun i => V c main_v15 i
abbrev Ka2 (c : Dev nD) : FVec Ideal SX .f32 := fun i => V c main_v13 i
abbrev Va2 (c : Dev nD) : FVec Ideal SX .f32 := fun i => V c main_v14 i

/-- The printed index maps, decided over the 64 points t = 8·a + b: queries and both results follow a, keys and
    values follow b, the gates' block column is b, the context's is 0. -/
theorem idx_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val % 8 ∧ win2_2.index t (1 : Fin 2) = 0
    ∧ win2_3.index t (0 : Fin 2) = t.val / 8 ∧ win2_3.index t (1 : Fin 2) = t.val % 8
    ∧ win2_4.index t (0 : Fin 2) = t.val / 8 ∧ win2_4.index t (1 : Fin 2) = 0 :=
  (by decide +kernel : ∀ t : Fin grid2.N, _)

theorem rdQ2 (c : Dev nD) (t : Fin cfg2.N) (r d : Fin 1024) (I : Fin 8192) (hI : I.val = t.val / 8 * 1024 + r.val) :
    iblk2 V c 0 t (ix2 r d) = Qa2 V c (ix2 I d) := by
  unfold iblk2
  rw [View.read_apply]
  show V c main_v15 (((cfg2.win 0).blk t).view.emb (ix2 r d)) = V c main_v15 (ix2 I d)
  obtain ⟨e0, e1, -⟩ := idx_facts2 t
  refine congrArg _ ?_
  funext a; apply Fin.ext
  match a with
  | ⟨0, _⟩ => show win2_0.index t (0 : Fin 2) * 1024 + 1 * r.val = I.val; rw [e0]; omega
  | ⟨1, _⟩ => show win2_0.index t (1 : Fin 2) * 1024 + 1 * d.val = d.val; rw [e1]; omega

theorem rdK2 (c : Dev nD) (t : Fin cfg2.N) (k d : Fin 1024) (hb : t.val % 8 < 8) :
    iblk2 V c 1 t (ix2 k d) = Ka2 V c (ix2 (blk ⟨t.val % 8, hb⟩ k) d) := by
  unfold iblk2
  rw [View.read_apply]
  show V c main_v13 (((cfg2.win 1).blk t).view.emb (ix2 k d)) = V c main_v13 (ix2 (blk ⟨t.val % 8, hb⟩ k) d)
  obtain ⟨-, -, e2, e3, -⟩ := idx_facts2 t
  refine congrArg _ ?_
  funext a; apply Fin.ext
  match a with
  | ⟨0, _⟩ => show win2_1.index t (0 : Fin 2) * 1024 + 1 * k.val = t.val % 8 * 1024 + k.val; rw [e2]; omega
  | ⟨1, _⟩ => show win2_1.index t (1 : Fin 2) * 1024 + 1 * d.val = d.val; rw [e3]; omega

theorem rdV2 (c : Dev nD) (t : Fin cfg2.N) (k d : Fin 1024) (hb : t.val % 8 < 8) :
    iblk2 V c 2 t (ix2 k d) = Va2 V c (ix2 (blk ⟨t.val % 8, hb⟩ k) d) := by
  unfold iblk2
  rw [View.read_apply]
  show V c main_v14 (((cfg2.win 2).blk t).view.emb (ix2 k d)) = V c main_v14 (ix2 (blk ⟨t.val % 8, hb⟩ k) d)
  obtain ⟨-, -, -, -, e4, e5, -⟩ := idx_facts2 t
  refine congrArg _ ?_
  funext a; apply Fin.ext
  match a with
  | ⟨0, _⟩ => show win2_2.index t (0 : Fin 2) * 1024 + 1 * k.val = t.val % 8 * 1024 + k.val; rw [e4]; omega
  | ⟨1, _⟩ => show win2_2.index t (1 : Fin 2) * 1024 + 1 * d.val = d.val; rw [e5]; omega

/-! ## The gates at a point, and one step of the running sum -/

/-- The body's gate at (r, k) of point t = 8·a + b is the gate of query row 1024·a + r against key row 1024·b + k. -/
theorem gate_at2 (c : Dev nD) (t : Fin cfg2.N) (r k : Fin 1024) (I : Fin 8192) (hI : I.val = t.val / 8 * 1024 + r.val) (hb : t.val % 8 < 8) :
    k2_pay2 (iblk2 V c 0 t) (iblk2 V c 1 t) (ix2 r k) = gateA (Qa2 V c) (Ka2 V c) (ix2 I (blk ⟨t.val % 8, hb⟩ k)) := by
  refine (pay_gate (iblk2 V c 0 t) (iblk2 V c 1 t) r k).trans ?_
  show _ = gate (Qa2 V c) (Ka2 V c) I (blk ⟨t.val % 8, hb⟩ k)
  unfold gate
  refine congrArg (fun s => Ideal.logistic (s * scale)) (Finset.sum_congr rfl fun d _ => ?_)
  rw [rdQ2 V c t r d I hI, rdK2 V c t k d hb]

/-- One step: what the body leaves in the context's buffer at (r, d), over what it held, adds key block b's
    gate-weighted value rows. -/
theorem acc_at2 (c : Dev nD) (t : Fin cfg2.N) (prev : Vec Ideal S1024x1024 .f32) (r d : Fin 1024) (I : Fin 8192)
    (hI : I.val = t.val / 8 * 1024 + r.val) (hb : t.val % 8 < 8) :
    k2_pay3 (iblk2 V c 0 t) (iblk2 V c 1 t) (iblk2 V c 2 t) prev (ix2 r d)
      = prev (ix2 r d) + ∑ k : Fin 1024, gateA (Qa2 V c) (Ka2 V c) (ix2 I (blk ⟨t.val % 8, hb⟩ k)) * Va2 V c (ix2 (blk ⟨t.val % 8, hb⟩ k) d) := by
  refine (pay_acc (iblk2 V c 0 t) (iblk2 V c 1 t) (iblk2 V c 2 t) prev r d).trans ?_
  refine congrArg (prev (ix2 r d) + ·) (Finset.sum_congr rfl fun k _ => ?_)
  rw [gate_at2 V c t r k I hI hb, rdV2 V c t k d hb]

/-! ## The two output buffers after each point -/

/-- The gates' buffer after point t is the body's gates of the point's query and key blocks (either case). -/
theorem gates_run2 (c : Dev nD) (t : Fin cfg2.N) :
    (outsAt2 V c t.val t.isLt).1 = k2_pay2 (iblk2 V c 0 t) (iblk2 V c 1 t) := by
  by_cases h0 : t.val % 8 = 0
  · rw [outsAt2_A V c t h0]; dsimp only; rw [outA3_2]
  · rw [outsAt2_B V c t h0]; dsimp only; rw [outB3_2]

/-- At a first key block (t = 8·a) the context's buffer holds key block 0's term alone: zeros were stored first. -/
theorem ctx_first2 (c : Dev nD) (t : Fin cfg2.N) (h0 : t.val % 8 = 0) (r d : Fin 1024) (I : Fin 8192) (hI : I.val = t.val / 8 * 1024 + r.val) :
    (outsAt2 V c t.val t.isLt).2 (ix2 r d) = ctxUpTo (gateA (Qa2 V c) (Ka2 V c)) (Va2 V c) I d (t.val % 8 + 1) := by
  have hb : t.val % 8 < 8 := Nat.mod_lt _ (by decide)
  rw [outsAt2_A V c t h0]
  dsimp only
  rw [outA4_2, acc_at2 V c t _ r d I hI hb, Cert.CrossAttn.Pay.pay_zero]
  have hz : (⟨t.val % 8, hb⟩ : Fin 8) = ⟨0, by decide⟩ := Fin.ext h0
  rw [hz, h0, ctxUpTo_succ _ _ _ _ 0 (by decide), ctxUpTo_zero]

/-- At a later key block (t = 8·a + b, b > 0) it holds what the point before left plus key block b's term. -/
theorem ctx_later2 (c : Dev nD) (t : Fin cfg2.N) (h0 : ¬t.val % 8 = 0) (r d : Fin 1024) (I : Fin 8192) (hI : I.val = t.val / 8 * 1024 + r.val)
    (ih : (outsAt2 V c (t.val - 1) (Nat.lt_of_le_of_lt (Nat.sub_le _ _) t.isLt)).2 (ix2 r d)
      = ctxUpTo (gateA (Qa2 V c) (Ka2 V c)) (Va2 V c) I d ((t.val - 1) % 8 + 1)) :
    (outsAt2 V c t.val t.isLt).2 (ix2 r d) = ctxUpTo (gateA (Qa2 V c) (Ka2 V c)) (Va2 V c) I d (t.val % 8 + 1) := by
  have hb : t.val % 8 < 8 := Nat.mod_lt _ (by decide)
  rw [outsAt2_B V c t h0]
  dsimp only
  rw [outB4_2, acc_at2 V c t _ r d I hI hb, ih]
  have hm : (t.val - 1) % 8 + 1 = t.val % 8 := by omega
  rw [hm, ctxUpTo_succ _ _ _ _ (t.val % 8) hb]

/-- THE RUNNING SUM: after point n = 8·a + b the context's buffer holds, at (r, d), the sum over key blocks 0 … b of
    the gate-weighted value rows for query row 1024·a + r — by induction on the point. -/
theorem ctx_run2 (c : Dev nD) : ∀ (n : ℕ) (h : n < cfg2.N) (r d : Fin 1024) (I : Fin 8192) (hI : I.val = n / 8 * 1024 + r.val),
    (outsAt2 V c n h).2 (ix2 r d) = ctxUpTo (gateA (Qa2 V c) (Ka2 V c)) (Va2 V c) I d (n % 8 + 1)
  | 0, h, r, d, I, hI => ctx_first2 V c ⟨0, h⟩ (Nat.zero_mod _) r d I hI
  | n + 1, h, r, d, I, hI => by
    by_cases h0 : (n + 1) % 8 = 0
    · exact ctx_first2 V c ⟨n + 1, h⟩ h0 r d I hI
    · refine ctx_later2 V c ⟨n + 1, h⟩ h0 r d I hI ?_
      have hI' : I.val = n / 8 * 1024 + r.val := by omega
      exact ctx_run2 c n (Nat.lt_of_succ_lt h) r d I hI'

/-! ## From blocks to the two result arrays -/

/-- WHAT POINT t WRITES BACK of the gates is block t of the gates of Q and K. -/
theorem flushedG2 (c : Dev nD) (t : Fin cfg2.N) :
    (dat2 V c).flushed 3 t = ((cfg2.win 3).blk t).view.read (Elt Ideal) (gateA (Qa2 V c) (Ka2 V c)) := by
  show (cfg2.win 3).cut (grid2.coords t) ((dat2 V c).after 3 t) = _
  rw [after2_3, gates_run2 V c t]
  obtain ⟨-, -, -, -, -, -, e6, e7, -⟩ := idx_facts2 t
  have hb : t.val % 8 < 8 := Nat.mod_lt _ (by decide)
  funext j
  show k2_pay2 (iblk2 V c 0 t) (iblk2 V c 1 t) j = gateA (Qa2 V c) (Ka2 V c) (((cfg2.win 3).blk t).view.emb j)
  have hj0 : (j 0).val < 1024 := (j 0).isLt
  have hj1 : (j 1).val < 1024 := (j 1).isLt
  have hN : t.val < 64 := lt_of_lt_of_eq t.isLt (show cfg2.N = 64 from N_2)
  have h0 : ((((cfg2.win 3).blk t).view.emb j) 0).val = t.val / 8 * 1024 + (j 0).val := by
    show win2_3.index t (0 : Fin 2) * 1024 + 1 * (j 0).val = _; rw [e6]; omega
  have h1 : ((((cfg2.win 3).blk t).view.emb j) 1) = blk ⟨t.val % 8, hb⟩ (j 1) := by
    apply Fin.ext; show win2_3.index t (1 : Fin 2) * 1024 + 1 * (j 1).val = t.val % 8 * 1024 + (j 1).val; rw [e7]; omega
  refine ((congrArg (k2_pay2 (iblk2 V c 0 t) (iblk2 V c 1 t)) (eq_ix2 j)).trans
    (gate_at2 V c t (j 0) (j 1) _ h0 hb)).trans ?_
  rw [← h1]
  exact congrArg _ (eq_ix2 _).symm

/-- WHAT A LAST KEY BLOCK'S POINT WRITES BACK of the contexts is its block of the full contexts. -/
theorem flushedC2 (c : Dev nD) (t : Fin cfg2.N) (hf : (cfg2.win 4).flush t = true) :
    (dat2 V c).flushed 4 t = ((cfg2.win 4).blk t).view.read (Elt Ideal) (ctxA (gateA (Qa2 V c) (Ka2 V c)) (Va2 V c)) := by
  have h7 : t.val % 8 = 7 := (flush2_4 t).mp hf
  show (cfg2.win 4).cut (grid2.coords t) ((dat2 V c).after 4 t) = _
  rw [after2_4]
  obtain ⟨-, -, -, -, -, -, -, -, e8, e9⟩ := idx_facts2 t
  funext j
  show (outsAt2 V c t.val t.isLt).2 j = ctxA (gateA (Qa2 V c) (Ka2 V c)) (Va2 V c) (((cfg2.win 4).blk t).view.emb j)
  have hj0 : (j 0).val < 1024 := (j 0).isLt
  have hj1 : (j 1).val < 1024 := (j 1).isLt
  have hN : t.val < 64 := lt_of_lt_of_eq t.isLt (show cfg2.N = 64 from N_2)
  have hj : j = ix2 (⟨(j 0).val, hj0⟩ : Fin 1024) (⟨(j 1).val, hj1⟩ : Fin 1024) := by
    funext a
    match a with
    | ⟨0, _⟩ => rfl
    | ⟨1, _⟩ => rfl
  have hemb : ((cfg2.win 4).blk t).view.emb j
      = ix2 (⟨t.val / 8 * 1024 + (j 0).val, by omega⟩ : Fin 8192) (⟨(j 1).val, hj1⟩ : Fin 1024) := by
    funext a; apply Fin.ext
    match a with
    | ⟨0, _⟩ => show win2_4.index t (0 : Fin 2) * 1024 + 1 * (j 0).val = t.val / 8 * 1024 + (j 0).val; rw [e8]; omega
    | ⟨1, _⟩ => show win2_4.index t (1 : Fin 2) * 1024 + 1 * (j 1).val = (j 1).val; rw [e9]; omega
  rw [hemb]
  refine ((congrArg (outsAt2 V c t.val t.isLt).2 hj).trans
    (ctx_run2 V c t.val t.isLt ⟨(j 0).val, hj0⟩ ⟨(j 1).val, hj1⟩ ⟨t.val / 8 * 1024 + (j 0).val, by omega⟩ rfl)).trans ?_
  rw [h7]
  show ctxUpTo _ _ _ _ 8 = _
  rw [ctxUpTo_eight]
  rfl

theorem mem_blkG2 (t : Fin cfg2.N) (i : S8192x8192.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v18_0).slice (win2_3.rect t)).set ↔ _
  rw [View.set_slice_whole, Rect.mem_set_unit]
  exact Iff.rfl

theorem mem_blkC2 (t : Fin cfg2.N) (i : S8192x1024.Idx) :
    i ∈ ((cfg2.win 4).blk t).view.set ↔ ∀ a : Fin 2, win2_4.index t a * S1024x1024.size a ≤ (i a).val ∧ (i a).val < win2_4.index t a * S1024x1024.size a + S1024x1024.size a := by
  show i ∈ ((View.whole main_v18_1).slice (win2_4.rect t)).set ↔ _
  rw [View.set_slice_whole, Rect.mem_set_unit]
  exact Iff.rfl

/-- THE GATES after the run: every block (a, b) is some point's. -/
theorem finalG2 (c : Dev nD) : (dat2 V c).arrAt 3 cfg2.N = gateA (Qa2 V c) (Ka2 V c) :=
  (dat2 V c).arrAt_eq_of_cover 3 (gateA (Qa2 V c) (Ka2 V c)) (fun t _ => flushedG2 V c t) fun i => by
    have hi0 : (i 0).val < 8192 := (i 0).isLt
    have hi1 : (i 1).val < 8192 := (i 1).isLt
    have hN : cfg2.N = 64 := N_2
    refine ⟨⟨(i 0).val / 1024 * 8 + (i 1).val / 1024, by rw [hN]; omega⟩, flush2_3 _, ?_⟩
    rw [mem_blkG2]
    obtain ⟨-, -, -, -, -, -, e6, e7, -⟩ := idx_facts2 ⟨(i 0).val / 1024 * 8 + (i 1).val / 1024, by rw [hN]; omega⟩
    intro a
    match a with
    | ⟨0, _⟩ => show win2_3.index _ (0 : Fin 2) * 1024 ≤ (i 0).val ∧ (i 0).val < win2_3.index _ (0 : Fin 2) * 1024 + 1024; rw [e6]; dsimp only; omega
    | ⟨1, _⟩ => show win2_3.index _ (1 : Fin 2) * 1024 ≤ (i 1).val ∧ (i 1).val < win2_3.index _ (1 : Fin 2) * 1024 + 1024; rw [e7]; dsimp only; omega

/-- THE CONTEXTS after the run: row block a is written back by the point (a, 7). -/
theorem finalC2 (c : Dev nD) : (dat2 V c).arrAt 4 cfg2.N = ctxA (gateA (Qa2 V c) (Ka2 V c)) (Va2 V c) :=
  (dat2 V c).arrAt_eq_of_cover 4 (ctxA (gateA (Qa2 V c) (Ka2 V c)) (Va2 V c)) (fun t hf => flushedC2 V c t hf) fun i => by
    have hi0 : (i 0).val < 8192 := (i 0).isLt
    have hi1 : (i 1).val < 1024 := (i 1).isLt
    have hN : cfg2.N = 64 := N_2
    refine ⟨⟨(i 0).val / 1024 * 8 + 7, by rw [hN]; omega⟩, (flush2_4 _).mpr (by dsimp only; omega), ?_⟩
    rw [mem_blkC2]
    obtain ⟨-, -, -, -, -, -, -, -, e8, e9⟩ := idx_facts2 ⟨(i 0).val / 1024 * 8 + 7, by rw [hN]; omega⟩
    intro a
    match a with
    | ⟨0, _⟩ => show win2_4.index _ (0 : Fin 2) * 1024 ≤ (i 0).val ∧ (i 0).val < win2_4.index _ (0 : Fin 2) * 1024 + 1024; rw [e8]; dsimp only; omega
    | ⟨1, _⟩ => show win2_4.index _ (1 : Fin 2) * 1024 ≤ (i 1).val ∧ (i 1).val < win2_4.index _ (1 : Fin 2) * 1024 + 1024; rw [e9]; omega

end Cert.KernelIdeal.Val

end
-- ==== Proof.ValAttn3.lean ====
/-
  The value of gated-attention launch 3 at exact arithmetic.  Its windows read three 8192×1024 arrays as the launch
  finds them — queries Q, keys K, values V — and after the run its two result arrays are: the gates, entry (i, j) the
  logistic function of the scaled inner product of query row i and key row j; and the contexts, entry (i, d) the sum
  over ALL 8192 key rows j of gate(i, j)·V(j, d).
  Point t = 8·a + b holds query rows 1024·a … and key/value rows 1024·b …; it writes the gates' block (a, b) whole, and
  leaves in the context's buffer the sum over key blocks 0 … b (zeros stored first at b = 0, then each point adds its
  block's gate-weighted value rows to what the point before left): the running sum `ctxUpTo`, by induction on the
  point.  The buffer is written back at b = 7, when the running sum is the whole sum over 8192 rows.
-/
import proofs.«123356_j644245095138_2_alg».proof.Proof.FrAttn3
import proofs.«123356_j644245095138_2_alg».proof.Proof.Payloads
import proofs.«123356_j644245095138_2_alg».proof.Proof.Blocks
import proofs.«123356_j644245095138_2_alg».proof.Proof.ValCommon
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

open Cert.CrossAttn Cert.CrossAttn.Pay

/-! ## What each case of the body leaves, read back from the pieces its run found -/

section Cases
variable {F : FTy → Type} [FloatOps F]

theorem outA3_3 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc : cond3_0 i) (x0 x1 x2 : Vec F S1024x1024 .bf16) :
    out3_A_3 c i arg2 harg2 arg3 harg3 arg4 harg4 arg5 harg5 arg6 harg6 hc x0 x1 x2 = k3_pay2 x0 x1 := by
  unfold out3_A_3
  rw [View.read_writes_eq_canon _ _ _ (cover3_A_3 c i arg2 harg2 arg3 harg3 arg4 harg4 arg5 harg5 arg6 harg6 hc x0 x1 x2)]
  unfold kernelRun3_A
  dsimp only
  rw [View.canon_unit_zero hz2]
  simp only [View.readAt_eq_ld, harg2.read_unread, harg3.read_unread, View.ld_unit_zero (S := S1024x1024) hz2]

theorem outB3_3 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc : ¬cond3_0 i) (x0 x1 x2 : Vec F S1024x1024 .bf16) (xo : Vec F S1024x1024 .f32) :
    out3_B_3 c i arg2 harg2 arg3 harg3 arg4 harg4 arg5 harg5 arg6 harg6 hc x0 x1 x2 xo = k3_pay2 x0 x1 := by
  unfold out3_B_3
  rw [View.read_writes_eq_canon _ _ _ (cover3_B_3 c i arg2 harg2 arg3 harg3 arg4 harg4 arg5 harg5 arg6 harg6 hc x0 x1 x2 xo)]
  unfold kernelRun3_B
  dsimp only
  rw [View.canon_unit_zero hz2]
  simp only [View.readAt_eq_ld, harg2.read_unread, harg3.read_unread, View.ld_unit_zero (S := S1024x1024) hz2]

/-- At the first key block the context's buffer ends at the body's sum over the stored zeros. -/
theorem outA4_3 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc : cond3_0 i) (x0 x1 x2 : Vec F S1024x1024 .bf16) :
    out3_A_4 c i arg2 harg2 arg3 harg3 arg4 harg4 arg5 harg5 arg6 harg6 hc x0 x1 x2 = k3_pay3 x0 x1 x2 (k3_pay1 (F := F)) := by
  unfold out3_A_4
  rw [View.read_writes_eq_canon _ _ _ (cover3_A_4 c i arg2 harg2 arg3 harg3 arg4 harg4 arg5 harg5 arg6 harg6 hc x0 x1 x2)]
  unfold kernelRun3_A
  dsimp only
  sl_unfold_words
  rw [View.canon_cons_unit_zero (S := S1024x1024) hz2, View.readCov_unit_zero (S := S1024x1024) _ hz2]
  simp only [View.readAt_eq_ld, harg2.read_unread, harg3.read_unread, harg4.read_unread, View.ld_unit_zero (S := S1024x1024) hz2]

/-- At a later key block it ends at the body's sum over what it held. -/
theorem outB4_3 (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc : ¬cond3_0 i) (x0 x1 x2 : Vec F S1024x1024 .bf16) (xo : Vec F S1024x1024 .f32) :
    out3_B_4 c i arg2 harg2 arg3 harg3 arg4 harg4 arg5 harg5 arg6 harg6 hc x0 x1 x2 xo = k3_pay3 x0 x1 x2 xo := by
  unfold out3_B_4
  rw [View.read_writes_eq_canon _ _ _ (cover3_B_4 c i arg2 harg2 arg3 harg3 arg4 harg4 arg5 harg5 arg6 harg6 hc x0 x1 x2 xo)]
  unfold kernelRun3_B
  dsimp only
  rw [View.canon_unit_zero hz2]
  simp only [View.readAt_eq_ld, harg2.read_unread, harg3.read_unread, harg4.read_unread, harg6.read_unread, View.ld_unit_zero (S := S1024x1024) hz2]

end Cases

/-! ## The three arrays the launch reads, and its windows' blocks -/

variable (V : (c : Dev nD) → (b : Ref sig .tc) → Buf (Elt Ideal) ((c : Thread nD τ).loc b))

/-- Queries, keys and values as the launch finds them. -/
abbrev Qa3 (c : Dev nD) : FVec Ideal SX .f32 := fun i => V c main_v12 i
abbrev Ka3 (c : Dev nD) : FVec Ideal SX .f32 := fun i => V c main_v16 i
abbrev Va3 (c : Dev nD) : FVec Ideal SX .f32 := fun i => V c main_v17 i

/-- The printed index maps, decided over the 64 points t = 8·a + b: queries and both results follow a, keys and
    values follow b, the gates' block column is b, the context's is 0. -/
theorem idx_facts3 : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val % 8 ∧ win3_2.index t (1 : Fin 2) = 0
    ∧ win3_3.index t (0 : Fin 2) = t.val / 8 ∧ win3_3.index t (1 : Fin 2) = t.val % 8
    ∧ win3_4.index t (0 : Fin 2) = t.val / 8 ∧ win3_4.index t (1 : Fin 2) = 0 :=
  (by decide +kernel : ∀ t : Fin grid3.N, _)

theorem rdQ3 (c : Dev nD) (t : Fin cfg3.N) (r d : Fin 1024) (I : Fin 8192) (hI : I.val = t.val / 8 * 1024 + r.val) :
    iblk3 V c 0 t (ix2 r d) = Qa3 V c (ix2 I d) := by
  unfold iblk3
  rw [View.read_apply]
  show V c main_v12 (((cfg3.win 0).blk t).view.emb (ix2 r d)) = V c main_v12 (ix2 I d)
  obtain ⟨e0, e1, -⟩ := idx_facts3 t
  refine congrArg _ ?_
  funext a; apply Fin.ext
  match a with
  | ⟨0, _⟩ => show win3_0.index t (0 : Fin 2) * 1024 + 1 * r.val = I.val; rw [e0]; omega
  | ⟨1, _⟩ => show win3_0.index t (1 : Fin 2) * 1024 + 1 * d.val = d.val; rw [e1]; omega

theorem rdK3 (c : Dev nD) (t : Fin cfg3.N) (k d : Fin 1024) (hb : t.val % 8 < 8) :
    iblk3 V c 1 t (ix2 k d) = Ka3 V c (ix2 (blk ⟨t.val % 8, hb⟩ k) d) := by
  unfold iblk3
  rw [View.read_apply]
  show V c main_v16 (((cfg3.win 1).blk t).view.emb (ix2 k d)) = V c main_v16 (ix2 (blk ⟨t.val % 8, hb⟩ k) d)
  obtain ⟨-, -, e2, e3, -⟩ := idx_facts3 t
  refine congrArg _ ?_
  funext a; apply Fin.ext
  match a with
  | ⟨0, _⟩ => show win3_1.index t (0 : Fin 2) * 1024 + 1 * k.val = t.val % 8 * 1024 + k.val; rw [e2]; omega
  | ⟨1, _⟩ => show win3_1.index t (1 : Fin 2) * 1024 + 1 * d.val = d.val; rw [e3]; omega

theorem rdV3 (c : Dev nD) (t : Fin cfg3.N) (k d : Fin 1024) (hb : t.val % 8 < 8) :
    iblk3 V c 2 t (ix2 k d) = Va3 V c (ix2 (blk ⟨t.val % 8, hb⟩ k) d) := by
  unfold iblk3
  rw [View.read_apply]
  show V c main_v17 (((cfg3.win 2).blk t).view.emb (ix2 k d)) = V c main_v17 (ix2 (blk ⟨t.val % 8, hb⟩ k) d)
  obtain ⟨-, -, -, -, e4, e5, -⟩ := idx_facts3 t
  refine congrArg _ ?_
  funext a; apply Fin.ext
  match a with
  | ⟨0, _⟩ => show win3_2.index t (0 : Fin 2) * 1024 + 1 * k.val = t.val % 8 * 1024 + k.val; rw [e4]; omega
  | ⟨1, _⟩ => show win3_2.index t (1 : Fin 2) * 1024 + 1 * d.val = d.val; rw [e5]; omega

/-! ## The gates at a point, and one step of the running sum -/

/-- The body's gate at (r, k) of point t = 8·a + b is the gate of query row 1024·a + r against key row 1024·b + k. -/
theorem gate_at3 (c : Dev nD) (t : Fin cfg3.N) (r k : Fin 1024) (I : Fin 8192) (hI : I.val = t.val / 8 * 1024 + r.val) (hb : t.val % 8 < 8) :
    k3_pay2 (iblk3 V c 0 t) (iblk3 V c 1 t) (ix2 r k) = gateA (Qa3 V c) (Ka3 V c) (ix2 I (blk ⟨t.val % 8, hb⟩ k)) := by
  refine (pay_gate' (iblk3 V c 0 t) (iblk3 V c 1 t) r k).trans ?_
  show _ = gate (Qa3 V c) (Ka3 V c) I (blk ⟨t.val % 8, hb⟩ k)
  unfold gate
  refine congrArg (fun s => Ideal.logistic (s * scale)) (Finset.sum_congr rfl fun d _ => ?_)
  rw [rdQ3 V c t r d I hI, rdK3 V c t k d hb]

/-- One step: what the body leaves in the context's buffer at (r, d), over what it held, adds key block b's
    gate-weighted value rows. -/
theorem acc_at3 (c : Dev nD) (t : Fin cfg3.N) (prev : Vec Ideal S1024x1024 .f32) (r d : Fin 1024) (I : Fin 8192)
    (hI : I.val = t.val / 8 * 1024 + r.val) (hb : t.val % 8 < 8) :
    k3_pay3 (iblk3 V c 0 t) (iblk3 V c 1 t) (iblk3 V c 2 t) prev (ix2 r d)
      = prev (ix2 r d) + ∑ k : Fin 1024, gateA (Qa3 V c) (Ka3 V c) (ix2 I (blk ⟨t.val % 8, hb⟩ k)) * Va3 V c (ix2 (blk ⟨t.val % 8, hb⟩ k) d) := by
  refine (pay_acc' (iblk3 V c 0 t) (iblk3 V c 1 t) (iblk3 V c 2 t) prev r d).trans ?_
  refine congrArg (prev (ix2 r d) + ·) (Finset.sum_congr rfl fun k _ => ?_)
  rw [gate_at3 V c t r k I hI hb, rdV3 V c t k d hb]

/-! ## The two output buffers after each point -/

/-- The gates' buffer after point t is the body's gates of the point's query and key blocks (either case). -/
theorem gates_run3 (c : Dev nD) (t : Fin cfg3.N) :
    (outsAt3 V c t.val t.isLt).1 = k3_pay2 (iblk3 V c 0 t) (iblk3 V c 1 t) := by
  by_cases h0 : t.val % 8 = 0
  · rw [outsAt3_A V c t h0]; dsimp only; rw [outA3_3]
  · rw [outsAt3_B V c t h0]; dsimp only; rw [outB3_3]

/-- At a first key block (t = 8·a) the context's buffer holds key block 0's term alone: zeros were stored first. -/
theorem ctx_first3 (c : Dev nD) (t : Fin cfg3.N) (h0 : t.val % 8 = 0) (r d : Fin 1024) (I : Fin 8192) (hI : I.val = t.val / 8 * 1024 + r.val) :
    (outsAt3 V c t.val t.isLt).2 (ix2 r d) = ctxUpTo (gateA (Qa3 V c) (Ka3 V c)) (Va3 V c) I d (t.val % 8 + 1) := by
  have hb : t.val % 8 < 8 := Nat.mod_lt _ (by decide)
  rw [outsAt3_A V c t h0]
  dsimp only
  rw [outA4_3, acc_at3 V c t _ r d I hI hb, Cert.CrossAttn.Pay.pay_zero']
  have hz : (⟨t.val % 8, hb⟩ : Fin 8) = ⟨0, by decide⟩ := Fin.ext h0
  rw [hz, h0, ctxUpTo_succ _ _ _ _ 0 (by decide), ctxUpTo_zero]

/-- At a later key block (t = 8·a + b, b > 0) it holds what the point before left plus key block b's term. -/
theorem ctx_later3 (c : Dev nD) (t : Fin cfg3.N) (h0 : ¬t.val % 8 = 0) (r d : Fin 1024) (I : Fin 8192) (hI : I.val = t.val / 8 * 1024 + r.val)
    (ih : (outsAt3 V c (t.val - 1) (Nat.lt_of_le_of_lt (Nat.sub_le _ _) t.isLt)).2 (ix2 r d)
      = ctxUpTo (gateA (Qa3 V c) (Ka3 V c)) (Va3 V c) I d ((t.val - 1) % 8 + 1)) :
    (outsAt3 V c t.val t.isLt).2 (ix2 r d) = ctxUpTo (gateA (Qa3 V c) (Ka3 V c)) (Va3 V c) I d (t.val % 8 + 1) := by
  have hb : t.val % 8 < 8 := Nat.mod_lt _ (by decide)
  rw [outsAt3_B V c t h0]
  dsimp only
  rw [outB4_3, acc_at3 V c t _ r d I hI hb, ih]
  have hm : (t.val - 1) % 8 + 1 = t.val % 8 := by omega
  rw [hm, ctxUpTo_succ _ _ _ _ (t.val % 8) hb]

/-- THE RUNNING SUM: after point n = 8·a + b the context's buffer holds, at (r, d), the sum over key blocks 0 … b of
    the gate-weighted value rows for query row 1024·a + r — by induction on the point. -/
theorem ctx_run3 (c : Dev nD) : ∀ (n : ℕ) (h : n < cfg3.N) (r d : Fin 1024) (I : Fin 8192) (hI : I.val = n / 8 * 1024 + r.val),
    (outsAt3 V c n h).2 (ix2 r d) = ctxUpTo (gateA (Qa3 V c) (Ka3 V c)) (Va3 V c) I d (n % 8 + 1)
  | 0, h, r, d, I, hI => ctx_first3 V c ⟨0, h⟩ (Nat.zero_mod _) r d I hI
  | n + 1, h, r, d, I, hI => by
    by_cases h0 : (n + 1) % 8 = 0
    · exact ctx_first3 V c ⟨n + 1, h⟩ h0 r d I hI
    · refine ctx_later3 V c ⟨n + 1, h⟩ h0 r d I hI ?_
      have hI' : I.val = n / 8 * 1024 + r.val := by omega
      exact ctx_run3 c n (Nat.lt_of_succ_lt h) r d I hI'

/-! ## From blocks to the two result arrays -/

/-- WHAT POINT t WRITES BACK of the gates is block t of the gates of Q and K. -/
theorem flushedG3 (c : Dev nD) (t : Fin cfg3.N) :
    (dat3 V c).flushed 3 t = ((cfg3.win 3).blk t).view.read (Elt Ideal) (gateA (Qa3 V c) (Ka3 V c)) := by
  show (cfg3.win 3).cut (grid3.coords t) ((dat3 V c).after 3 t) = _
  rw [after3_3, gates_run3 V c t]
  obtain ⟨-, -, -, -, -, -, e6, e7, -⟩ := idx_facts3 t
  have hb : t.val % 8 < 8 := Nat.mod_lt _ (by decide)
  funext j
  show k3_pay2 (iblk3 V c 0 t) (iblk3 V c 1 t) j = gateA (Qa3 V c) (Ka3 V c) (((cfg3.win 3).blk t).view.emb j)
  have hj0 : (j 0).val < 1024 := (j 0).isLt
  have hj1 : (j 1).val < 1024 := (j 1).isLt
  have hN : t.val < 64 := lt_of_lt_of_eq t.isLt (show cfg3.N = 64 from N_3)
  have h0 : ((((cfg3.win 3).blk t).view.emb j) 0).val = t.val / 8 * 1024 + (j 0).val := by
    show win3_3.index t (0 : Fin 2) * 1024 + 1 * (j 0).val = _; rw [e6]; omega
  have h1 : ((((cfg3.win 3).blk t).view.emb j) 1) = blk ⟨t.val % 8, hb⟩ (j 1) := by
    apply Fin.ext; show win3_3.index t (1 : Fin 2) * 1024 + 1 * (j 1).val = t.val % 8 * 1024 + (j 1).val; rw [e7]; omega
  refine ((congrArg (k3_pay2 (iblk3 V c 0 t) (iblk3 V c 1 t)) (eq_ix2 j)).trans
    (gate_at3 V c t (j 0) (j 1) _ h0 hb)).trans ?_
  rw [← h1]
  exact congrArg _ (eq_ix2 _).symm

/-- WHAT A LAST KEY BLOCK'S POINT WRITES BACK of the contexts is its block of the full contexts. -/
theorem flushedC3 (c : Dev nD) (t : Fin cfg3.N) (hf : (cfg3.win 4).flush t = true) :
    (dat3 V c).flushed 4 t = ((cfg3.win 4).blk t).view.read (Elt Ideal) (ctxA (gateA (Qa3 V c) (Ka3 V c)) (Va3 V c)) := by
  have h7 : t.val % 8 = 7 := (flush3_4 t).mp hf
  show (cfg3.win 4).cut (grid3.coords t) ((dat3 V c).after 4 t) = _
  rw [after3_4]
  obtain ⟨-, -, -, -, -, -, -, -, e8, e9⟩ := idx_facts3 t
  funext j
  show (outsAt3 V c t.val t.isLt).2 j = ctxA (gateA (Qa3 V c) (Ka3 V c)) (Va3 V c) (((cfg3.win 4).blk t).view.emb j)
  have hj0 : (j 0).val < 1024 := (j 0).isLt
  have hj1 : (j 1).val < 1024 := (j 1).isLt
  have hN : t.val < 64 := lt_of_lt_of_eq t.isLt (show cfg3.N = 64 from N_3)
  have hj : j = ix2 (⟨(j 0).val, hj0⟩ : Fin 1024) (⟨(j 1).val, hj1⟩ : Fin 1024) := by
    funext a
    match a with
    | ⟨0, _⟩ => rfl
    | ⟨1, _⟩ => rfl
  have hemb : ((cfg3.win 4).blk t).view.emb j
      = ix2 (⟨t.val / 8 * 1024 + (j 0).val, by omega⟩ : Fin 8192) (⟨(j 1).val, hj1⟩ : Fin 1024) := by
    funext a; apply Fin.ext
    match a with
    | ⟨0, _⟩ => show win3_4.index t (0 : Fin 2) * 1024 + 1 * (j 0).val = t.val / 8 * 1024 + (j 0).val; rw [e8]; omega
    | ⟨1, _⟩ => show win3_4.index t (1 : Fin 2) * 1024 + 1 * (j 1).val = (j 1).val; rw [e9]; omega
  rw [hemb]
  refine ((congrArg (outsAt3 V c t.val t.isLt).2 hj).trans
    (ctx_run3 V c t.val t.isLt ⟨(j 0).val, hj0⟩ ⟨(j 1).val, hj1⟩ ⟨t.val / 8 * 1024 + (j 0).val, by omega⟩ rfl)).trans ?_
  rw [h7]
  show ctxUpTo _ _ _ _ 8 = _
  rw [ctxUpTo_eight]
  rfl

theorem mem_blkG3 (t : Fin cfg3.N) (i : S8192x8192.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v19_0).slice (win3_3.rect t)).set ↔ _
  rw [View.set_slice_whole, Rect.mem_set_unit]
  exact Iff.rfl

theorem mem_blkC3 (t : Fin cfg3.N) (i : S8192x1024.Idx) :
    i ∈ ((cfg3.win 4).blk t).view.set ↔ ∀ a : Fin 2, win3_4.index t a * S1024x1024.size a ≤ (i a).val ∧ (i a).val < win3_4.index t a * S1024x1024.size a + S1024x1024.size a := by
  show i ∈ ((View.whole main_v19_1).slice (win3_4.rect t)).set ↔ _
  rw [View.set_slice_whole, Rect.mem_set_unit]
  exact Iff.rfl

/-- THE GATES after the run: every block (a, b) is some point's. -/
theorem finalG3 (c : Dev nD) : (dat3 V c).arrAt 3 cfg3.N = gateA (Qa3 V c) (Ka3 V c) :=
  (dat3 V c).arrAt_eq_of_cover 3 (gateA (Qa3 V c) (Ka3 V c)) (fun t _ => flushedG3 V c t) fun i => by
    have hi0 : (i 0).val < 8192 := (i 0).isLt
    have hi1 : (i 1).val < 8192 := (i 1).isLt
    have hN : cfg3.N = 64 := N_3
    refine ⟨⟨(i 0).val / 1024 * 8 + (i 1).val / 1024, by rw [hN]; omega⟩, flush3_3 _, ?_⟩
    rw [mem_blkG3]
    obtain ⟨-, -, -, -, -, -, e6, e7, -⟩ := idx_facts3 ⟨(i 0).val / 1024 * 8 + (i 1).val / 1024, by rw [hN]; omega⟩
    intro a
    match a with
    | ⟨0, _⟩ => show win3_3.index _ (0 : Fin 2) * 1024 ≤ (i 0).val ∧ (i 0).val < win3_3.index _ (0 : Fin 2) * 1024 + 1024; rw [e6]; dsimp only; omega
    | ⟨1, _⟩ => show win3_3.index _ (1 : Fin 2) * 1024 ≤ (i 1).val ∧ (i 1).val < win3_3.index _ (1 : Fin 2) * 1024 + 1024; rw [e7]; dsimp only; omega

/-- THE CONTEXTS after the run: row block a is written back by the point (a, 7). -/
theorem finalC3 (c : Dev nD) : (dat3 V c).arrAt 4 cfg3.N = ctxA (gateA (Qa3 V c) (Ka3 V c)) (Va3 V c) :=
  (dat3 V c).arrAt_eq_of_cover 4 (ctxA (gateA (Qa3 V c) (Ka3 V c)) (Va3 V c)) (fun t hf => flushedC3 V c t hf) fun i => by
    have hi0 : (i 0).val < 8192 := (i 0).isLt
    have hi1 : (i 1).val < 1024 := (i 1).isLt
    have hN : cfg3.N = 64 := N_3
    refine ⟨⟨(i 0).val / 1024 * 8 + 7, by rw [hN]; omega⟩, (flush3_4 _).mpr (by dsimp only; omega), ?_⟩
    rw [mem_blkC3]
    obtain ⟨-, -, -, -, -, -, -, -, e8, e9⟩ := idx_facts3 ⟨(i 0).val / 1024 * 8 + 7, by rw [hN]; omega⟩
    intro a
    match a with
    | ⟨0, _⟩ => show win3_4.index _ (0 : Fin 2) * 1024 ≤ (i 0).val ∧ (i 0).val < win3_4.index _ (0 : Fin 2) * 1024 + 1024; rw [e8]; dsimp only; omega
    | ⟨1, _⟩ => show win3_4.index _ (1 : Fin 2) * 1024 ≤ (i 1).val ∧ (i 1).val < win3_4.index _ (1 : Fin 2) * 1024 + 1024; rw [e9]; omega

end Cert.KernelIdeal.Val

end
-- ==== Proof.HostLayout.lean ====
/-
  The host's layout steps around the kernels, read at one entry over the extended reals.

  Three weight matrices are joined side by side into a [1024, 3072] matrix: column q of the t-th third is column q of
  the t-th matrix. Three bias vectors are joined end to end and laid out as one row of 3072. The [8192, 3072] result of
  a projection is cut back into its three thirds. A change of float format is the identity on extended reals.
-/
import proofs.«123356_j644245095138_2_alg».proof.KernelIdeal
import proofs.«123356_j644245095138_2_alg».proof.Proof.Spec
import Idealize.ShloMosaic.Lib.ValueIdx
import Idealize.ShloMosaic.Lib.Pipeline.Value

noncomputable section

namespace Cert.CrossAttn.Lay

open Idealize.ShloMosaic Idealize.ShloMosaic.ValueIdx Cert.KernelIdeal

variable [Facts₀]
open Cert.KernelIdeal.Facts₀

/-! ## Three matrices joined along the columns

Entry (k, 1024·t + q) of the joined matrix is entry (k, q) of the t-th matrix: the column falls in the t-th span of
1024, the spans before it taking 1024·t columns, and the row is untouched. -/

theorem join_w0 (u0 u1 u2 : FVec Ideal S1024x1024 .f32) (k q : Fin 1024) :
    concatenate S1024x3072 1 [⟨S1024x1024, u0⟩, ⟨S1024x1024, u1⟩, ⟨S1024x1024, u2⟩] concatenates_S1024x1024_S1024x1024_S1024x1024_S1024x3072_d1
        (ix2 k (⟨q.val, by have := q.isLt; omega⟩ : Fin 3072))
      = u0 (ix2 k q) :=
  concatenate_apply_piece (1 : Fin S1024x3072.rank) [⟨S1024x1024, u0⟩, ⟨S1024x1024, u1⟩, ⟨S1024x1024, u2⟩] concatenates_S1024x1024_S1024x1024_S1024x1024_S1024x3072_d1 _
    0 (by show (0 : Nat) < 3; omega) S1024x1024 u0 rfl rfl 0 rfl (ix2 k q)
    (fun b hb => match b, hb with
      | ⟨0, _⟩, _ => rfl
      | ⟨1, _⟩, hb => absurd rfl hb)
    (Nat.zero_add _)

theorem join_w1 (u0 u1 u2 : FVec Ideal S1024x1024 .f32) (k q : Fin 1024) :
    concatenate S1024x3072 1 [⟨S1024x1024, u0⟩, ⟨S1024x1024, u1⟩, ⟨S1024x1024, u2⟩] concatenates_S1024x1024_S1024x1024_S1024x1024_S1024x3072_d1
        (ix2 k (⟨1024 + q.val, by have := q.isLt; omega⟩ : Fin 3072))
      = u1 (ix2 k q) :=
  concatenate_apply_piece (1 : Fin S1024x3072.rank) [⟨S1024x1024, u0⟩, ⟨S1024x1024, u1⟩, ⟨S1024x1024, u2⟩] concatenates_S1024x1024_S1024x1024_S1024x1024_S1024x3072_d1 _
    1 (by show (1 : Nat) < 3; omega) S1024x1024 u1 rfl rfl 1024 rfl (ix2 k q)
    (fun b hb => match b, hb with
      | ⟨0, _⟩, _ => rfl
      | ⟨1, _⟩, hb => absurd rfl hb)
    rfl

theorem join_w2 (u0 u1 u2 : FVec Ideal S1024x1024 .f32) (k q : Fin 1024) :
    concatenate S1024x3072 1 [⟨S1024x1024, u0⟩, ⟨S1024x1024, u1⟩, ⟨S1024x1024, u2⟩] concatenates_S1024x1024_S1024x1024_S1024x1024_S1024x3072_d1
        (ix2 k (⟨2048 + q.val, by have := q.isLt; omega⟩ : Fin 3072))
      = u2 (ix2 k q) :=
  concatenate_apply_piece (1 : Fin S1024x3072.rank) [⟨S1024x1024, u0⟩, ⟨S1024x1024, u1⟩, ⟨S1024x1024, u2⟩] concatenates_S1024x1024_S1024x1024_S1024x1024_S1024x3072_d1 _
    2 (by show (2 : Nat) < 3; omega) S1024x1024 u2 rfl rfl 2048 rfl (ix2 k q)
    (fun b hb => match b, hb with
      | ⟨0, _⟩, _ => rfl
      | ⟨1, _⟩, hb => absurd rfl hb)
    rfl

/-! ## Three vectors joined end to end, as a row

The row [1, 3072] has the same row-major order as the vector of 3072, so its entry (0, c) is the joined vector's entry
c, which is entry q of the t-th vector when c = 1024·t + q. -/

theorem join_b0 (b0 b1 b2 : FVec Ideal S1024 .f32) (q : Fin 1024) :
    shapeCast S1x3072 (concatenate S3072 0 [⟨S1024, b0⟩, ⟨S1024, b1⟩, ⟨S1024, b2⟩] concatenates_S1024_S1024_S1024_S3072_d0) shapeCasts_S3072_S1x3072
        (ix2 (0 : Fin 1) (⟨q.val, by have := q.isLt; omega⟩ : Fin 3072))
      = b0 (ix1 q) := by
  refine (shapeCast_apply _ shapeCasts_S3072_S1x3072 _
    (ix1 (⟨q.val, by have := q.isLt; omega⟩ : Fin 3072)) ?_).trans ?_
  · rw [Shape.rowMajor_val_one, Shape.rowMajor_val_two]
    show q.val = 0 * 3072 + (q.val)
    omega
  · exact concatenate_apply_piece (0 : Fin S3072.rank) [⟨S1024, b0⟩, ⟨S1024, b1⟩, ⟨S1024, b2⟩] concatenates_S1024_S1024_S1024_S3072_d0 _
      0 (by show (0 : Nat) < 3; omega) S1024 b0 rfl rfl 0 rfl (ix1 q)
      (fun b hb => match b, hb with
        | ⟨0, _⟩, hb => absurd rfl hb)
      (Nat.zero_add _)

theorem join_b1 (b0 b1 b2 : FVec Ideal S1024 .f32) (q : Fin 1024) :
    shapeCast S1x3072 (concatenate S3072 0 [⟨S1024, b0⟩, ⟨S1024, b1⟩, ⟨S1024, b2⟩] concatenates_S1024_S1024_S1024_S3072_d0) shapeCasts_S3072_S1x3072
        (ix2 (0 : Fin 1) (⟨1024 + q.val, by have := q.isLt; omega⟩ : Fin 3072))
      = b1 (ix1 q) := by
  refine (shapeCast_apply _ shapeCasts_S3072_S1x3072 _
    (ix1 (⟨1024 + q.val, by have := q.isLt; omega⟩ : Fin 3072)) ?_).trans ?_
  · rw [Shape.rowMajor_val_one, Shape.rowMajor_val_two]
    show 1024 + q.val = 0 * 3072 + (1024 + q.val)
    omega
  · exact concatenate_apply_piece (0 : Fin S3072.rank) [⟨S1024, b0⟩, ⟨S1024, b1⟩, ⟨S1024, b2⟩] concatenates_S1024_S1024_S1024_S3072_d0 _
      1 (by show (1 : Nat) < 3; omega) S1024 b1 rfl rfl 1024 rfl (ix1 q)
      (fun b hb => match b, hb with
        | ⟨0, _⟩, hb => absurd rfl hb)
      rfl

theorem join_b2 (b0 b1 b2 : FVec Ideal S1024 .f32) (q : Fin 1024) :
    shapeCast S1x3072 (concatenate S3072 0 [⟨S1024, b0⟩, ⟨S1024, b1⟩, ⟨S1024, b2⟩] concatenates_S1024_S1024_S1024_S3072_d0) shapeCasts_S3072_S1x3072
        (ix2 (0 : Fin 1) (⟨2048 + q.val, by have := q.isLt; omega⟩ : Fin 3072))
      = b2 (ix1 q) := by
  refine (shapeCast_apply _ shapeCasts_S3072_S1x3072 _
    (ix1 (⟨2048 + q.val, by have := q.isLt; omega⟩ : Fin 3072)) ?_).trans ?_
  · rw [Shape.rowMajor_val_one, Shape.rowMajor_val_two]
    show 2048 + q.val = 0 * 3072 + (2048 + q.val)
    omega
  · exact concatenate_apply_piece (0 : Fin S3072.rank) [⟨S1024, b0⟩, ⟨S1024, b1⟩, ⟨S1024, b2⟩] concatenates_S1024_S1024_S1024_S3072_d0 _
      2 (by show (2 : Nat) < 3; omega) S1024 b2 rfl rfl 2048 rfl (ix1 q)
      (fun b hb => match b, hb with
        | ⟨0, _⟩, hb => absurd rfl hb)
      rfl

/-! ## The thirds of a [8192, 3072] array

The slice starting at column 1024·t reads column 1024·t + q at its column q; rows are untouched. -/

theorem slice_q (X : FVec Ideal S8192x3072 .bf16) (p : Fin 8192) (q : Fin 1024) :
    extractStridedSlice S8192x1024 ![0, 0] X slices_S8192x3072_S8192x1024_0_0 (ix2 p q)
      = X (ix2 p (⟨q.val, by have := q.isLt; omega⟩ : Fin 3072)) :=
  extractStridedSlice_apply ![0, 0] X slices_S8192x3072_S8192x1024_0_0 (ix2 p q) _ (fun a => match a with
    | ⟨0, _⟩ => by show p.val = 0 + p.val; omega
    | ⟨1, _⟩ => by show q.val = 0 + q.val; omega)

theorem slice_k (X : FVec Ideal S8192x3072 .bf16) (p : Fin 8192) (q : Fin 1024) :
    extractStridedSlice S8192x1024 ![0, 1024] X slices_S8192x3072_S8192x1024_0_1024 (ix2 p q)
      = X (ix2 p (⟨1024 + q.val, by have := q.isLt; omega⟩ : Fin 3072)) :=
  extractStridedSlice_apply ![0, 1024] X slices_S8192x3072_S8192x1024_0_1024 (ix2 p q) _ (fun a => match a with
    | ⟨0, _⟩ => by show p.val = 0 + p.val; omega
    | ⟨1, _⟩ => by show 1024 + q.val = 1024 + q.val; omega)

theorem slice_v (X : FVec Ideal S8192x3072 .bf16) (p : Fin 8192) (q : Fin 1024) :
    extractStridedSlice S8192x1024 ![0, 2048] X slices_S8192x3072_S8192x1024_0_2048 (ix2 p q)
      = X (ix2 p (⟨2048 + q.val, by have := q.isLt; omega⟩ : Fin 3072)) :=
  extractStridedSlice_apply ![0, 2048] X slices_S8192x3072_S8192x1024_0_2048 (ix2 p q) _ (fun a => match a with
    | ⟨0, _⟩ => by show p.val = 0 + p.val; omega
    | ⟨1, _⟩ => by show 2048 + q.val = 2048 + q.val; omega)

/-! ## Changes of float format: the identity on extended reals -/

theorem conv_x (x : FVec Ideal S8192x1024 .f32) (i : S8192x1024.Idx) :
    (truncf .bf16 x bitsLt_bf16_f32 : FVec Ideal S8192x1024 .bf16) i = x i := rfl

theorem conv_w (x : FVec Ideal S1024x3072 .f32) (i : S1024x3072.Idx) :
    (truncf .bf16 x bitsLt_bf16_f32 : FVec Ideal S1024x3072 .bf16) i = x i := rfl

end Cert.CrossAttn.Lay

end
-- ==== Proof.ValBridge.lean ====
/-
  Cutting a linear-layer launch's 8192×3072 result into thirds gives the three linear layers of the specification.
  The launch multiplies the input by the three weight matrices JOINED along their columns and adds the three bias
  vectors JOINED end to end (laid out as one row); column q of the first third meets only the first matrix and the
  first bias, column 1024 + q of the second third only the second ones, column 2048 + q only the third ones.  The
  conversions to the narrower float format are the identity at exact arithmetic.
-/
import proofs.«123356_j644245095138_2_alg».proof.Proof.HostLayout
import proofs.«123356_j644245095138_2_alg».proof.Proof.ValCommon
import Idealize.ShloMosaic.Lib.ValueIdx

noncomputable section

namespace Cert.KernelIdeal.Val

open Cert.KernelIdeal Cert.CrossAttn Cert.CrossAttn.Lay
open Idealize.ShloMosaic Idealize.ShloMosaic.ValueIdx

variable [Facts₀]

/-- The first third of the launch's result is the linear layer of the first weight matrix and bias. -/
theorem third_q (x : FVec Ideal S8192x1024 .f32) (u0 u1 u2 : FVec Ideal S1024x1024 .f32) (b0 b1 b2 : FVec Ideal S1024 .f32)
    (hW : Shape.Concatenates [S1024x1024, S1024x1024, S1024x1024] S1024x3072 1) (hB : Shape.Concatenates [S1024, S1024, S1024] S3072 0)
    (hR : S3072.ShapeCasts S1x3072) (hT : FTy.bf16.bits < FTy.f32.bits) (hS : S8192x3072.Slices ![0, 0] S8192x1024) :
    (extractStridedSlice S8192x1024 ![0, 0]
      (GP (truncf .bf16 x hT) (truncf .bf16 (concatenate S1024x3072 1 [⟨S1024x1024, u0⟩, ⟨S1024x1024, u1⟩, ⟨S1024x1024, u2⟩] hW) hT)
        (shapeCast S1x3072 (concatenate S3072 0 [⟨S1024, b0⟩, ⟨S1024, b1⟩, ⟨S1024, b2⟩] hB) hR)) hS : FVec Ideal S8192x1024 .bf16)
      = linA x u0 b0 := by
  funext i
  obtain ⟨p, q, rfl⟩ : ∃ (p : Fin 8192) (q : Fin 1024), i = ix2 p q := ⟨i 0, i 1, eq_ix2 i⟩
  refine (slice_q _ p q).trans ?_
  show gp _ _ _ p _ = lin x u0 b0 p q
  unfold gp lin
  rw [join_b0]
  refine congrArg (· + _) (Finset.sum_congr rfl fun k _ => ?_)
  rw [truncf_apply, truncf_apply, join_w0]

/-- The second third of the launch's result is the linear layer of the second weight matrix and bias. -/
theorem third_k (x : FVec Ideal S8192x1024 .f32) (u0 u1 u2 : FVec Ideal S1024x1024 .f32) (b0 b1 b2 : FVec Ideal S1024 .f32)
    (hW : Shape.Concatenates [S1024x1024, S1024x1024, S1024x1024] S1024x3072 1) (hB : Shape.Concatenates [S1024, S1024, S1024] S3072 0)
    (hR : S3072.ShapeCasts S1x3072) (hT : FTy.bf16.bits < FTy.f32.bits) (hS : S8192x3072.Slices ![0, 1024] S8192x1024) :
    (extractStridedSlice S8192x1024 ![0, 1024]
      (GP (truncf .bf16 x hT) (truncf .bf16 (concatenate S1024x3072 1 [⟨S1024x1024, u0⟩, ⟨S1024x1024, u1⟩, ⟨S1024x1024, u2⟩] hW) hT)
        (shapeCast S1x3072 (concatenate S3072 0 [⟨S1024, b0⟩, ⟨S1024, b1⟩, ⟨S1024, b2⟩] hB) hR)) hS : FVec Ideal S8192x1024 .bf16)
      = linA x u1 b1 := by
  funext i
  obtain ⟨p, q, rfl⟩ : ∃ (p : Fin 8192) (q : Fin 1024), i = ix2 p q := ⟨i 0, i 1, eq_ix2 i⟩
  refine (slice_k _ p q).trans ?_
  show gp _ _ _ p _ = lin x u1 b1 p q
  unfold gp lin
  rw [join_b1]
  refine congrArg (· + _) (Finset.sum_congr rfl fun k _ => ?_)
  rw [truncf_apply, truncf_apply, join_w1]

/-- The third third of the launch's result is the linear layer of the third weight matrix and bias. -/
theorem third_v (x : FVec Ideal S8192x1024 .f32) (u0 u1 u2 : FVec Ideal S1024x1024 .f32) (b0 b1 b2 : FVec Ideal S1024 .f32)
    (hW : Shape.Concatenates [S1024x1024, S1024x1024, S1024x1024] S1024x3072 1) (hB : Shape.Concatenates [S1024, S1024, S1024] S3072 0)
    (hR : S3072.ShapeCasts S1x3072) (hT : FTy.bf16.bits < FTy.f32.bits) (hS : S8192x3072.Slices ![0, 2048] S8192x1024) :
    (extractStridedSlice S8192x1024 ![0, 2048]
      (GP (truncf .bf16 x hT) (truncf .bf16 (concatenate S1024x3072 1 [⟨S1024x1024, u0⟩, ⟨S1024x1024, u1⟩, ⟨S1024x1024, u2⟩] hW) hT)
        (shapeCast S1x3072 (concatenate S3072 0 [⟨S1024, b0⟩, ⟨S1024, b1⟩, ⟨S1024, b2⟩] hB) hR)) hS : FVec Ideal S8192x1024 .bf16)
      = linA x u2 b2 := by
  funext i
  obtain ⟨p, q, rfl⟩ : ∃ (p : Fin 8192) (q : Fin 1024), i = ix2 p q := ⟨i 0, i 1, eq_ix2 i⟩
  refine (slice_v _ p q).trans ?_
  show gp _ _ _ p _ = lin x u2 b2 p q
  unfold gp lin
  rw [join_b2]
  refine congrArg (· + _) (Finset.sum_congr rfl fun k _ => ?_)
  rw [truncf_apply, truncf_apply, join_w2]

end Cert.KernelIdeal.Val

end
-- ==== Proof.ValRun.lean ====
/-
  THE RUN, READ at exact arithmetic: the four result arrays after the whole program are the specification's functions
  of the fourteen argument arrays.  Walking the boundaries' contents: the first host stretch converts the inputs and
  joins the weights and biases; each linear-layer launch leaves `GP` of what it read; the slices cut those results
  into the six projections (queries, keys and values of each input: the specification's linear layers); each
  gated-attention launch leaves the gates and the contexts of the three projections it read.
-/
import proofs.«123356_j644245095138_2_alg».proof.Proof.FrRun
import proofs.«123356_j644245095138_2_alg».proof.Proof.ValProj0
import proofs.«123356_j644245095138_2_alg».proof.Proof.ValProj1
import proofs.«123356_j644245095138_2_alg».proof.Proof.ValAttn2
import proofs.«123356_j644245095138_2_alg».proof.Proof.ValAttn3
import proofs.«123356_j644245095138_2_alg».proof.Proof.ValBridge
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

open Cert.CrossAttn Idealize.ShloMosaic.StableHlo

variable (m : (ℓ : Loc nD τ sig) → Buf (Elt Ideal) ℓ) (ρ : Dev nD → PrngReg)

/-! ## What the first host stretch leaves -/

theorem e_v0 (c : Dev nD) : E1 m ρ c main_v0 = (truncf .bf16 (m ((c : Thread nD τ).loc main_arg0)) bitsLt_bf16_f32 : FVec Ideal S8192x1024 .bf16) := by
  dsimp only [E1, W1, hostOps0]
  after_results
  try rfl
theorem e_v1 (c : Dev nD) : E1 m ρ c main_v1 = (truncf .bf16 (m ((c : Thread nD τ).loc main_arg1)) bitsLt_bf16_f32 : FVec Ideal S8192x1024 .bf16) := by
  dsimp only [E1, W1, hostOps0]
  after_results
  try rfl
theorem e_v3 (c : Dev nD) : E1 m ρ c main_v3 = (truncf .bf16 (concatenate S1024x3072 1 [⟨S1024x1024, (m ((c : Thread nD τ).loc main_arg2))⟩, ⟨S1024x1024, (m ((c : Thread nD τ).loc main_arg4))⟩, ⟨S1024x1024, (m ((c : Thread nD τ).loc main_arg6))⟩] concatenates_S1024x1024_S1024x1024_S1024x1024_S1024x3072_d1) bitsLt_bf16_f32 : FVec Ideal S1024x3072 .bf16) := by
  dsimp only [E1, W1, hostOps0]
  after_results
  try rfl
theorem e_v5 (c : Dev nD) : E1 m ρ c main_v5 = (shapeCast S1x3072 (concatenate S3072 0 [⟨S1024, (m ((c : Thread nD τ).loc main_arg3))⟩, ⟨S1024, (m ((c : Thread nD τ).loc main_arg5))⟩, ⟨S1024, (m ((c : Thread nD τ).loc main_arg7))⟩] concatenates_S1024_S1024_S1024_S3072_d0) shapeCasts_S3072_S1x3072 : FVec Ideal S1x3072 .f32) := by
  dsimp only [E1, W1, hostOps0]
  after_results
  try rfl
theorem e_v7 (c : Dev nD) : E1 m ρ c main_v7 = (truncf .bf16 (concatenate S1024x3072 1 [⟨S1024x1024, (m ((c : Thread nD τ).loc main_arg8))⟩, ⟨S1024x1024, (m ((c : Thread nD τ).loc main_arg10))⟩, ⟨S1024x1024, (m ((c : Thread nD τ).loc main_arg12))⟩] concatenates_S1024x1024_S1024x1024_S1024x1024_S1024x3072_d1) bitsLt_bf16_f32 : FVec Ideal S1024x3072 .bf16) := by
  dsimp only [E1, W1, hostOps0]
  after_results
  try rfl
theorem e_v9 (c : Dev nD) : E1 m ρ c main_v9 = (shapeCast S1x3072 (concatenate S3072 0 [⟨S1024, (m ((c : Thread nD τ).loc main_arg9))⟩, ⟨S1024, (m ((c : Thread nD τ).loc main_arg11))⟩, ⟨S1024, (m ((c : Thread nD τ).loc main_arg13))⟩] concatenates_S1024_S1024_S1024_S3072_d0) shapeCasts_S3072_S1x3072 : FVec Ideal S1x3072 .f32) := by
  dsimp only [E1, W1, hostOps0]
  after_results
  try rfl

/-! ## What the two linear-layer launches leave -/

theorem E3_v10 (c : Dev nD) : E3 m ρ c main_v10 = GP (E1 m ρ c main_v0) (E1 m ρ c main_v3) (E1 m ρ c main_v5) :=
  (W3_of_ne m ρ c main_v10 (by decide)).trans ((W2_arr m ρ c 3).trans (final0 (E1 m ρ) c))
theorem E2_v1 (c : Dev nD) : E2 m ρ c main_v1 = E1 m ρ c main_v1 := W2_of_ne m ρ c main_v1 (by decide)
theorem E2_v7 (c : Dev nD) : E2 m ρ c main_v7 = E1 m ρ c main_v7 := W2_of_ne m ρ c main_v7 (by decide)
theorem E2_v9 (c : Dev nD) : E2 m ρ c main_v9 = E1 m ρ c main_v9 := W2_of_ne m ρ c main_v9 (by decide)
theorem E3_v11 (c : Dev nD) : E3 m ρ c main_v11 = GP (E1 m ρ c main_v1) (E1 m ρ c main_v7) (E1 m ρ c main_v9) := by
  refine ((W3_arr m ρ c 3).trans (final1 (E2 m ρ) c)).trans ?_
  rw [E2_v1, E2_v7, E2_v9]

/-! ## The six slices are the six projections -/

theorem e_v12 (c : Dev nD) : E4 m ρ c main_v12 = (extractStridedSlice S8192x1024 ![0, 0] (E3 m ρ c main_v10) slices_S8192x3072_S8192x1024_0_0 : FVec Ideal S8192x1024 .bf16) := by
  dsimp only [E4, W4, hostOps2]
  after_results
  try rfl
theorem e_v13 (c : Dev nD) : E4 m ρ c main_v13 = (extractStridedSlice S8192x1024 ![0, 1024] (E3 m ρ c main_v10) slices_S8192x3072_S8192x1024_0_1024 : FVec Ideal S8192x1024 .bf16) := by
  dsimp only [E4, W4, hostOps2]
  after_results
  try rfl
theorem e_v14 (c : Dev nD) : E4 m ρ c main_v14 = (extractStridedSlice S8192x1024 ![0, 2048] (E3 m ρ c main_v10) slices_S8192x3072_S8192x1024_0_2048 : FVec Ideal S8192x1024 .bf16) := by
  dsimp only [E4, W4, hostOps2]
  after_results
  try rfl
theorem e_v15 (c : Dev nD) : E4 m ρ c main_v15 = (extractStridedSlice S8192x1024 ![0, 0] (E3 m ρ c main_v11) slices_S8192x3072_S8192x1024_0_0 : FVec Ideal S8192x1024 .bf16) := by
  dsimp only [E4, W4, hostOps2]
  after_results
  try rfl
theorem e_v16 (c : Dev nD) : E4 m ρ c main_v16 = (extractStridedSlice S8192x1024 ![0, 1024] (E3 m ρ c main_v11) slices_S8192x3072_S8192x1024_0_1024 : FVec Ideal S8192x1024 .bf16) := by
  dsimp only [E4, W4, hostOps2]
  after_results
  try rfl
theorem e_v17 (c : Dev nD) : E4 m ρ c main_v17 = (extractStridedSlice S8192x1024 ![0, 2048] (E3 m ρ c main_v11) slices_S8192x3072_S8192x1024_0_2048 : FVec Ideal S8192x1024 .bf16) := by
  dsimp only [E4, W4, hostOps2]
  after_results
  try rfl

/-- Queries, keys and values projected from the first input … -/
theorem q1_eq (c : Dev nD) : E4 m ρ c main_v12 = linA (m ((c : Thread nD τ).loc main_arg0)) (m ((c : Thread nD τ).loc main_arg2)) (m ((c : Thread nD τ).loc main_arg3)) := by
  rw [e_v12, E3_v10, e_v0, e_v3, e_v5]; exact third_q ..
theorem k1_eq (c : Dev nD) : E4 m ρ c main_v13 = linA (m ((c : Thread nD τ).loc main_arg0)) (m ((c : Thread nD τ).loc main_arg4)) (m ((c : Thread nD τ).loc main_arg5)) := by
  rw [e_v13, E3_v10, e_v0, e_v3, e_v5]; exact third_k ..
theorem v1_eq (c : Dev nD) : E4 m ρ c main_v14 = linA (m ((c : Thread nD τ).loc main_arg0)) (m ((c : Thread nD τ).loc main_arg6)) (m ((c : Thread nD τ).loc main_arg7)) := by
  rw [e_v14, E3_v10, e_v0, e_v3, e_v5]; exact third_v ..
/-- … and from the second. -/
theorem q2_eq (c : Dev nD) : E4 m ρ c main_v15 = linA (m ((c : Thread nD τ).loc main_arg1)) (m ((c : Thread nD τ).loc main_arg8)) (m ((c : Thread nD τ).loc main_arg9)) := by
  rw [e_v15, E3_v11, e_v1, e_v7, e_v9]; exact third_q ..
theorem k2_eq (c : Dev nD) : E4 m ρ c main_v16 = linA (m ((c : Thread nD τ).loc main_arg1)) (m ((c : Thread nD τ).loc main_arg10)) (m ((c : Thread nD τ).loc main_arg11)) := by
  rw [e_v16, E3_v11, e_v1, e_v7, e_v9]; exact third_k ..
theorem v2_eq (c : Dev nD) : E4 m ρ c main_v17 = linA (m ((c : Thread nD τ).loc main_arg1)) (m ((c : Thread nD τ).loc main_arg12)) (m ((c : Thread nD τ).loc main_arg13)) := by
  rw [e_v17, E3_v11, e_v1, e_v7, e_v9]; exact third_v ..

/-- The second attention launch finds the first one's three unread projections as the slices left them. -/
theorem E5_v12 (c : Dev nD) : E5 m ρ c main_v12 = E4 m ρ c main_v12 := W5_of_ne m ρ c main_v12 (by decide)
theorem E5_v16 (c : Dev nD) : E5 m ρ c main_v16 = E4 m ρ c main_v16 := W5_of_ne m ρ c main_v16 (by decide)
theorem E5_v17 (c : Dev nD) : E5 m ρ c main_v17 = E4 m ρ c main_v17 := W5_of_ne m ρ c main_v17 (by decide)

/-! ## The four results -/

/-- Direction 1 (queries from the second input, keys and values from the first): the gates … -/
theorem res_v18_0 (c : Dev nD) : W6 m ρ c (Proc.devRef .tc main_v18_0) = probs (m ((c : Thread nD τ).loc main_arg1)) (m ((c : Thread nD τ).loc main_arg0)) (m ((c : Thread nD τ).loc main_arg8)) (m ((c : Thread nD τ).loc main_arg9)) (m ((c : Thread nD τ).loc main_arg4)) (m ((c : Thread nD τ).loc main_arg5)) := by
  refine ((W6_v18_0 m ρ c).trans (finalG2 (E4 m ρ) c)).trans ?_
  show gateA (E4 m ρ c main_v15) (E4 m ρ c main_v13) = _
  rw [q2_eq, k1_eq]; rfl
/-- … and the contexts. -/
theorem res_v18_1 (c : Dev nD) : W6 m ρ c (Proc.devRef .tc main_v18_1) = context (m ((c : Thread nD τ).loc main_arg1)) (m ((c : Thread nD τ).loc main_arg0)) (m ((c : Thread nD τ).loc main_arg8)) (m ((c : Thread nD τ).loc main_arg9)) (m ((c : Thread nD τ).loc main_arg4)) (m ((c : Thread nD τ).loc main_arg5)) (m ((c : Thread nD τ).loc main_arg6)) (m ((c : Thread nD τ).loc main_arg7)) := by
  refine ((W6_v18_1 m ρ c).trans (finalC2 (E4 m ρ) c)).trans ?_
  show ctxA (gateA (E4 m ρ c main_v15) (E4 m ρ c main_v13)) (E4 m ρ c main_v14) = _
  rw [q2_eq, k1_eq, v1_eq]; rfl
/-- Direction 2 (queries from the first input, keys and values from the second): the gates … -/
theorem res_v19_0 (c : Dev nD) : W6 m ρ c (Proc.devRef .tc main_v19_0) = probs (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) := by
  refine ((W6_v19_0 m ρ c).trans (finalG3 (E5 m ρ) c)).trans ?_
  show gateA (E5 m ρ c main_v12) (E5 m ρ c main_v16) = _
  rw [E5_v12, E5_v16, q1_eq, k2_eq]; rfl
/-- … and the contexts. -/
theorem res_v19_1 (c : Dev nD) : W6 m ρ c (Proc.devRef .tc main_v19_1) = context (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13)) := by
  refine ((W6_v19_1 m ρ c).trans (finalC3 (E5 m ρ) c)).trans ?_
  show ctxA (gateA (E5 m ρ c main_v12) (E5 m ρ c main_v16)) (E5 m ρ c main_v17) = _
  rw [E5_v12, E5_v16, E5_v17, q1_eq, k2_eq, v2_eq]; rfl

/-! ## The run -/

/-- Every weakly fair execution of the program terminates with the four results at the specification's functions of
    the arguments, and the arguments unchanged. -/
theorem run_spec : θ_run (defs (F := Ideal)) (onTc (τ := τ) (main (F := Ideal))) ⟨m, fun _ => 0, ρ⟩ (fun r => ∀ c : Dev nD,
      r.2.mem ((c.tc : Thread nD τ).loc main_v19_1) = context (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v19_0) = probs (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11))
      ∧ r.2.mem ((c.tc : Thread nD τ).loc main_v18_1) = context (m ((c : Thread nD τ).loc main_arg1)) (m ((c : Thread nD τ).loc main_arg0)) (m ((c : Thread nD τ).loc main_arg8)) (m ((c : Thread nD τ).loc main_arg9)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v18_0) = probs (m ((c : Thread nD τ).loc main_arg1)) (m ((c : Thread nD τ).loc main_arg0)) (m ((c : Thread nD τ).loc main_arg8)) (m ((c : Thread nD τ).loc main_arg9)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v19_1 (by decide))).trans (res_v19_1 m ρ c),
     (h c _ (mem_uc main_v19_0 (by decide))).trans (res_v19_0 m ρ c),
     (h c _ (mem_uc main_v18_1 (by decide))).trans (res_v18_1 m ρ c),
     (h c _ (mem_uc main_v18_0 (by decide))).trans (res_v18_0 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c)⟩) (run_all m ρ)

end Cert.KernelIdeal.Val

end
-- ==== Proof.RefSide.lean ====
/-
  The reference program's four results are the specification's functions of its fourteen argument arrays.

  Each of the six linear layers is an input multiplied into a weight matrix, plus a bias repeated down the rows. In each
  direction the gates are 1 / (1 + e^(-s)) of the scaled inner products s of query rows with key rows (the queries are
  multiplied into the transposed keys), which is the logistic function of s, and the contexts are the gates multiplied
  into the values. Every step is read at one entry: a matrix product's entry is the sum over the contracted axis, a
  transposed or repeated array is read at the entry it copies, a pointwise operation at the same entry of its operands.
  The second direction is the first with the two inputs' roles exchanged, so its two statements are the first
  direction's at permuted arguments.
-/
import proofs.«123356_j644245095138_2_alg».proof.Proof.Gen.ReferenceIdeal.Read
import proofs.«123356_j644245095138_2_alg».proof.Proof.Spec
import Idealize.ShloMosaic.Lib.IdealHost

noncomputable section

namespace Cert.CrossAttn.Ref

open Idealize.ShloMosaic Idealize.ShloMosaic.TcCoe Idealize.SL.Sem Idealize.ShloMosaic.ValueIdx Cert.ReferenceIdeal Cert.ReferenceIdeal.Gen Cert.CrossAttn

/-! ## The six linear layers -/

/-- A linear layer of the reference, read at entry (p, q): row p of the input against column q of the weights, plus the
    bias at q (the bias is first laid out as a [1, 1024] row and then repeated down the 8192 rows, so entry (p, q) of the
    repeated array is the bias at q). -/
theorem lin_entry (x : FVec Ideal SX .f32) (W : FVec Ideal SW .f32) (b : FVec Ideal SB .f32) (p : Fin 8192) (q : Fin 1024) :
    Read.val_main_v3 (F := Ideal) x W b (ix2 p q) = lin x W b p q := by
  have el : ∀ k : Fin 1024, Read.lidx_main_v0 (ix2 p q) k = ix2 p k := fun k =>
    funext fun a => Fin.ext (by match a with | ⟨0, _⟩ => rfl | ⟨1, _⟩ => rfl)
  have er : ∀ k : Fin 1024, Read.ridx_main_v0 (ix2 p q) k = ix2 k q := fun k =>
    funext fun a => Fin.ext (by match a with | ⟨0, _⟩ => rfl | ⟨1, _⟩ => rfl)
  have eb : Read.idx_main_v1 (Read.idx_main_v2 (ix2 p q)) = ix1 q :=
    funext fun a => Fin.ext (by match a with | ⟨0, _⟩ => rfl)
  rw [Read.val_main_v3_apply, Read.val_main_v0_apply, Read.val_main_v2_apply, Read.val_main_v1_apply, eb]
  simp only [el, er, Ideal.addf_def, lin]

/-- The first layer as an array. The other five layers are the same operations applied to other arguments. -/
theorem linA_v3 (x : FVec Ideal SX .f32) (W : FVec Ideal SW .f32) (b : FVec Ideal SB .f32) :
    Read.val_main_v3 (F := Ideal) x W b = linA x W b := by
  funext i
  obtain ⟨p, q, rfl⟩ : ∃ (p : Fin 8192) (q : Fin 1024), i = ix2 p q := ⟨i 0, i 1, eq_ix2 i⟩
  exact lin_entry x W b p q
theorem linA_v7 (x : FVec Ideal SX .f32) (W : FVec Ideal SW .f32) (b : FVec Ideal SB .f32) :
    Read.val_main_v7 (F := Ideal) x W b = linA x W b := linA_v3 x W b
theorem linA_v11 (x : FVec Ideal SX .f32) (W : FVec Ideal SW .f32) (b : FVec Ideal SB .f32) :
    Read.val_main_v11 (F := Ideal) x W b = linA x W b := linA_v3 x W b
theorem linA_v15 (x : FVec Ideal SX .f32) (W : FVec Ideal SW .f32) (b : FVec Ideal SB .f32) :
    Read.val_main_v15 (F := Ideal) x W b = linA x W b := linA_v3 x W b
theorem linA_v19 (x : FVec Ideal SX .f32) (W : FVec Ideal SW .f32) (b : FVec Ideal SB .f32) :
    Read.val_main_v19 (F := Ideal) x W b = linA x W b := linA_v3 x W b
theorem linA_v23 (x : FVec Ideal SX .f32) (W : FVec Ideal SW .f32) (b : FVec Ideal SB .f32) :
    Read.val_main_v23 (F := Ideal) x W b = linA x W b := linA_v3 x W b

/-! ## The gates -/

/-- The first direction's table of gates: the reference transposes the keys, multiplies the queries into them, scales
    by 2⁻⁵, negates, exponentiates, adds one and takes the reciprocal; entry (p, q) of the product against the transposed
    keys is the inner product of query row p and key row q, and 1 / (1 + e^(-s)) is the logistic function of s. -/
theorem ref_v33 (x0 x1 : FVec Ideal SX .f32) (x4 : FVec Ideal SW .f32) (x5 : FVec Ideal SB .f32)
    (x8 : FVec Ideal SW .f32) (x9 : FVec Ideal SB .f32) :
    Read.val_main_v33 (F := Ideal) x0 x1 x4 x5 x8 x9 = probs x1 x0 x8 x9 x4 x5 := by
  funext i
  obtain ⟨p, q, rfl⟩ : ∃ (p : Fin 8192) (q : Fin 8192), i = ix2 p q := ⟨i 0, i 1, eq_ix2 i⟩
  have el : ∀ k : Fin 1024, Read.lidx_main_v25 (ix2 p q) k = ix2 p k := fun k =>
    funext fun a => Fin.ext (by match a with | ⟨0, _⟩ => rfl | ⟨1, _⟩ => rfl)
  have er : ∀ k : Fin 1024, Read.idx_main_v24 (Read.ridx_main_v25 (ix2 p q) k) = ix2 q k := fun k =>
    funext fun a => Fin.ext (by match a with | ⟨0, _⟩ => rfl | ⟨1, _⟩ => rfl)
  rw [Read.val_main_v33_apply, Read.val_main_v32_apply, Read.val_main_cst_1_apply, Read.val_main_v31_apply,
    Read.val_main_v30_apply, Read.val_main_cst_0_apply, Read.val_main_v29_apply, Read.val_main_v28_apply,
    Read.val_main_v27_apply, Read.val_main_v25_apply, Read.val_main_v26_apply, Read.val_main_cst_apply]
  simp only [Read.val_main_v24_apply, el, er, linA_v15, linA_v7, Ideal.hostDivf_def, Ideal.addf_def,
    Ideal.hostUnary_exp_def, Ideal.hostNegf_def, Ideal.negf_def, Ideal.mulf_def, Ideal.ofBits_def, Ideal.ofBits_one_f32,
    probs, gateA, gate, Ideal.logistic, scale]

/-- The second direction's table of gates: the same operations with the two inputs' roles exchanged. -/
theorem ref_v44 (x0 x1 : FVec Ideal SX .f32) (x2 : FVec Ideal SW .f32) (x3 : FVec Ideal SB .f32)
    (x10 : FVec Ideal SW .f32) (x11 : FVec Ideal SB .f32) :
    Read.val_main_v44 (F := Ideal) x0 x1 x2 x3 x10 x11 = probs x0 x1 x2 x3 x10 x11 :=
  ref_v33 x1 x0 x10 x11 x2 x3

/-! ## The contexts -/

/-- The first direction's contexts: entry (p, q) of the gates multiplied into the values is the sum over the 8192 key
    rows of gate (p, j) times value (j, q). -/
theorem ref_v34 (x0 x1 : FVec Ideal SX .f32) (x4 : FVec Ideal SW .f32) (x5 : FVec Ideal SB .f32)
    (x6 : FVec Ideal SW .f32) (x7 : FVec Ideal SB .f32) (x8 : FVec Ideal SW .f32) (x9 : FVec Ideal SB .f32) :
    Read.val_main_v34 (F := Ideal) x0 x1 x4 x5 x6 x7 x8 x9 = context x1 x0 x8 x9 x4 x5 x6 x7 := by
  funext i
  obtain ⟨p, q, rfl⟩ : ∃ (p : Fin 8192) (q : Fin 1024), i = ix2 p q := ⟨i 0, i 1, eq_ix2 i⟩
  have el : ∀ k : Fin 8192, Read.lidx_main_v34 (ix2 p q) k = ix2 p k := fun k =>
    funext fun a => Fin.ext (by match a with | ⟨0, _⟩ => rfl | ⟨1, _⟩ => rfl)
  have er : ∀ k : Fin 8192, Read.ridx_main_v34 (ix2 p q) k = ix2 k q := fun k =>
    funext fun a => Fin.ext (by match a with | ⟨0, _⟩ => rfl | ⟨1, _⟩ => rfl)
  rw [Read.val_main_v34_apply, ref_v33, linA_v11]
  simp only [el, er, context, ctxA, ctx]

/-- The second direction's contexts: the same operations with the two inputs' roles exchanged. -/
theorem ref_v45 (x0 x1 : FVec Ideal SX .f32) (x2 : FVec Ideal SW .f32) (x3 : FVec Ideal SB .f32)
    (x10 : FVec Ideal SW .f32) (x11 : FVec Ideal SB .f32) (x12 : FVec Ideal SW .f32) (x13 : FVec Ideal SB .f32) :
    Read.val_main_v45 (F := Ideal) x0 x1 x2 x3 x10 x11 x12 x13 = context x0 x1 x2 x3 x10 x11 x12 x13 :=
  ref_v34 x1 x0 x10 x11 x12 x13 x2 x3

/-! ## The reference's run, stated over the specification -/

/-- From any memory with zero counters every weakly fair execution of the reference terminates with its four results
    the specification's functions of the fourteen argument arrays, and the arguments unchanged: the second direction's
    contexts and gates (queries from the first input, keys and values from the second), then the first direction's
    (queries from the second input, keys and values from the first). -/
theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v45) = context (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg10)) (m' ((c.tc : Thread nD τ).loc main_arg11)) (m' ((c.tc : Thread nD τ).loc main_arg12)) (m' ((c.tc : Thread nD τ).loc main_arg13))
      ∧ r.2.mem ((c.tc : Thread nD τ).loc main_v44) = probs (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg10)) (m' ((c.tc : Thread nD τ).loc main_arg11))
      ∧ r.2.mem ((c.tc : Thread nD τ).loc main_v34) = context (m' ((c.tc : Thread nD τ).loc main_arg1)) (m' ((c.tc : Thread nD τ).loc main_arg0)) (m' ((c.tc : Thread nD τ).loc main_arg8)) (m' ((c.tc : Thread nD τ).loc main_arg9)) (m' ((c.tc : Thread nD τ).loc main_arg4)) (m' ((c.tc : Thread nD τ).loc main_arg5)) (m' ((c.tc : Thread nD τ).loc main_arg6)) (m' ((c.tc : Thread nD τ).loc main_arg7))
      ∧ r.2.mem ((c.tc : Thread nD τ).loc main_v33) = probs (m' ((c.tc : Thread nD τ).loc main_arg1)) (m' ((c.tc : Thread nD τ).loc main_arg0)) (m' ((c.tc : Thread nD τ).loc main_arg8)) (m' ((c.tc : Thread nD τ).loc main_arg9)) (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)) :=
  (θ_run defs _ _).mono (fun _ h c =>
    ⟨(h c).1.trans ((Read.val_main_v45_eq _ _ _ _ _ _ _ _).trans (ref_v45 _ _ _ _ _ _ _ _)),
      (h c).2.1.trans ((Read.val_main_v44_eq _ _ _ _ _ _).trans (ref_v44 _ _ _ _ _ _)),
      (h c).2.2.1.trans ((Read.val_main_v34_eq _ _ _ _ _ _ _ _).trans (ref_v34 _ _ _ _ _ _ _ _)),
      (h c).2.2.2.1.trans ((Read.val_main_v33_eq _ _ _ _ _ _).trans (ref_v33 _ _ _ _ _ _)),
      (h c).2.2.2.2⟩)
    (Cert.ReferenceIdeal.Value.run (F := Ideal) m' ρ')

end Cert.CrossAttn.Ref

end
-- ==== Proof.RefFrame.lean ====
/-
  The reference program runs to completion from any memory with zero counters and leaves its fourteen argument arrays as
  they were: the last fourteen conjuncts of its run.
-/
import proofs.«123356_j644245095138_2_alg».proof.Defs
import proofs.«123356_j644245095138_2_alg».proof.Proof.Gen.ReferenceIdeal.Run
import proofs.«123356_j644245095138_2_alg».proof.Proof.Gen.Pre_finite_inputs

noncomputable section

namespace Cert.CrossAttn.Ref

open Idealize.ShloMosaic Idealize.ShloMosaic.TcCoe Idealize.SL.Sem

/-- The reference runs and leaves its fourteen argument arrays unchanged. -/
theorem frame_ri : Cert.frame_ReferenceIdeal := fun m ρ _ =>
  (θ_run Cert.ReferenceIdeal.defs _ _).mono (fun _ h c => (h c).2.2.2.2) (Cert.ReferenceIdeal.Value.run (F := Ideal) m ρ)

end Cert.CrossAttn.Ref

end
-- ==== Proof.lean ====
/-
  Two inputs of 8192 rows and 1024 features attend to each other: each is projected to queries, keys and values by
  linear layers; in each direction the gate of a query row against a key row is the logistic function of their scaled
  inner product, and a query row's context is the gate-weighted sum of all the value rows.

  The kernel computes the three projections of an input in ONE launch over the joined weight matrices and biases and
  cuts the result into thirds; it computes a direction's gates block by block on an 8×8 grid and accumulates each
  query block's context over the eight key blocks in the output buffer it keeps across them.  The reference computes
  each projection separately and each context as one sum over 8192 rows.  Over the extended reals the two agree:
  a column of a third meets only its own weight matrix and bias; the kernel's logistic operation is the reference's
  1/(1 + e^(-x)); the scale is the same power of two on both sides; and a sum over 8192 rows is the sum of its eight
  runs of 1024, addition on the extended reals being commutative and associative (no finiteness is used anywhere).

  The three frames: each kernel program's run is read through its launches one after the other (the contents of
  every buffer at every boundary named), the reference's is its straight line of host operations.  The idealization
  rewrote nothing, so it is preserved trivially.
-/
import proofs.«123356_j644245095138_2_alg».proof.Defs
import proofs.«123356_j644245095138_2_alg».proof.Proof.Gen.Kernel
import proofs.«123356_j644245095138_2_alg».proof.Proof.Gen.KernelIdeal
import proofs.«123356_j644245095138_2_alg».proof.Proof.Gen.ReferenceIdeal
import proofs.«123356_j644245095138_2_alg».proof.Proof.Gen.Pre_finite_inputs
import proofs.«123356_j644245095138_2_alg».proof.Proof.KFrRun
import proofs.«123356_j644245095138_2_alg».proof.Proof.FrRun
import proofs.«123356_j644245095138_2_alg».proof.Proof.ValRun
import proofs.«123356_j644245095138_2_alg».proof.Proof.RefSide
import proofs.«123356_j644245095138_2_alg».proof.Proof.RefFrame
import Idealize.ShloMosaic.Adequacy
import Idealize.ShloMosaic.Init

noncomputable section

namespace Cert.Proof

open Idealize.ShloMosaic Idealize.SL.Sem Cert.CrossAttn

/-- The word-level kernel runs to the end and leaves its arguments as launched. -/
theorem frame_k : Cert.frame_Kernel := fun m ρ _ => Cert.Kernel.Fr.frame m ρ
/-- So does its idealization. -/
theorem frame_ki : Cert.frame_KernelIdeal := fun m ρ _ => Cert.KernelIdeal.Fr.frame m ρ

/-- From memories agreeing on the arguments both programs end with the four results at the specification's functions of
    those arguments: the kernel's by its run read launch by launch, the reference's by its host operations read one by
    one; the reference's arguments are rewritten to the kernel's by the agreement. -/
theorem algebraic : Cert.algebraic_KernelIdeal_ReferenceIdeal := by
  intro m ρ m' ρ' _ hagree
  refine ⟨fun c => context (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => probs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => context (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => probs (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Val.run_spec m ρ, ?_⟩
  refine (θ_run Cert.ReferenceIdeal.defs _ _).mono (fun r h c => ?_) (Cert.CrossAttn.Ref.run_spec m' ρ')
  obtain ⟨g0, g1, g2, g3, g4, g5, g6, g7, g8, g9, g10, g11, g12, g13⟩ := hagree c
  obtain ⟨r0, r1, r2, r3, rest⟩ := h c
  refine ⟨r0.trans ?_, r1.trans ?_, r2.trans ?_, r3.trans ?_, rest⟩
  · rw [g0, g1, g2, g3, g10, g11, g12, g13]
  · rw [g0, g1, g2, g3, g10, g11]
  · rw [g1, g0, g8, g9, g4, g5, g6, g7]
  · rw [g1, g0, g8, g9, g4, g5]

theorem claim : Cert.Claim := ⟨Cert.Kernel.Gen.facts, Cert.KernelIdeal.Gen.facts, Cert.ReferenceIdeal.Gen.facts, Cert.Pre_finite_inputs.Gen.facts,
  frame_k, frame_ki, Cert.CrossAttn.Ref.frame_ri, trivial, algebraic⟩

end Cert.Proof

end
